-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S4x2048x16x64 : Shape := ⟨4, ![4, 2048, 16, 64]⟩
abbrev S1x256x16x64 : Shape := ⟨4, ![1, 256, 16, 64]⟩
abbrev S1x2048x16x64 : Shape := ⟨4, ![1, 2048, 16, 64]⟩
abbrev S256x16x64 : Shape := ⟨3, ![256, 16, 64]⟩
abbrev S2048x16x64 : Shape := ⟨3, ![2048, 16, 64]⟩
abbrev S256x1x64 : Shape := ⟨3, ![256, 1, 64]⟩
abbrev S256x64 : Shape := ⟨2, ![256, 64]⟩
abbrev S2048x1x64 : Shape := ⟨3, ![2048, 1, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 30
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S4x2048x16x64, .bf16⟩
  | .hbm, ⟨21, _⟩ => ⟨S4x2048x16x64, .bf16⟩
  | .hbm, ⟨22, _⟩ => ⟨S4x2048x16x64, .bf16⟩
  | .hbm, ⟨23, _⟩ => ⟨S4x2048x16x64, .bf16⟩
  | .hbm, ⟨24, _⟩ => ⟨S8192x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S8192x1024, .f32⟩
  | .hbm, ⟨29, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x256x16x64, .bf16⟩
  | .local _ .vmem, ⟨11, _⟩ => ⟨S1x256x16x64, .bf16⟩
  | .local _ .vmem, ⟨12, _⟩ => ⟨S1x2048x16x64, .bf16⟩
  | .local _ .vmem, ⟨13, _⟩ => ⟨S1x2048x16x64, .bf16⟩
  | .local _ .vmem, ⟨14, _⟩ => ⟨S1x2048x16x64, .bf16⟩
  | .local _ .vmem, ⟨15, _⟩ => ⟨S1x2048x16x64, .bf16⟩
  | .local _ .vmem, ⟨16, _⟩ => ⟨S1x256x16x64, .bf16⟩
  | .local _ .vmem, ⟨17, _⟩ => ⟨S1x256x16x64, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x16x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  shapeCasts_S8192x1024_S4x2048x16x64 : S8192x1024.ShapeCasts S4x2048x16x64
  inb_S1x256x16x64_S1x256x16x64_0_0_0_0 : ∀ a, (![0, 0, 0, 0] : Fin 4 → Nat) a + S1x256x16x64.size a ≤ S1x256x16x64.size a
  h_S1x256x16x64 : 0 < S1x256x16x64.numel
  shapeCasts_S1x256x16x64_S256x16x64 : S1x256x16x64.ShapeCasts S256x16x64
  inb_S1x2048x16x64_S1x2048x16x64_0_0_0_0 : ∀ a, (![0, 0, 0, 0] : Fin 4 → Nat) a + S1x2048x16x64.size a ≤ S1x2048x16x64.size a
  h_S1x2048x16x64 : 0 < S1x2048x16x64.numel
  shapeCasts_S1x2048x16x64_S2048x16x64 : S1x2048x16x64.ShapeCasts S2048x16x64
  slices_S256x16x64_o0_0_0_S256x1x64 : S256x16x64.Slices ![0, 0, 0] S256x1x64
  shapeCasts_S256x1x64_S256x64 : S256x1x64.ShapeCasts S256x64
  slices_S2048x16x64_o0_0_0_S2048x1x64 : S2048x16x64.Slices ![0, 0, 0] S2048x1x64
  shapeCasts_S2048x1x64_S2048x64 : S2048x1x64.ShapeCasts S2048x64
  reduces_S256x2048_S256 : S256x2048.Reduces [1] S256
  shapeCasts_S256_S256x1 : S256.ShapeCasts S256x1
  broadcasts_S256x1_S256x2048 : S256x1.Broadcasts S256x2048
  slices_S256x16x64_o0_1_0_S256x1x64 : S256x16x64.Slices ![0, 1, 0] S256x1x64
  slices_S2048x16x64_o0_1_0_S2048x1x64 : S2048x16x64.Slices ![0, 1, 0] S2048x1x64
  slices_S256x16x64_o0_2_0_S256x1x64 : S256x16x64.Slices ![0, 2, 0] S256x1x64
  slices_S2048x16x64_o0_2_0_S2048x1x64 : S2048x16x64.Slices ![0, 2, 0] S2048x1x64
  slices_S256x16x64_o0_3_0_S256x1x64 : S256x16x64.Slices ![0, 3, 0] S256x1x64
  slices_S2048x16x64_o0_3_0_S2048x1x64 : S2048x16x64.Slices ![0, 3, 0] S2048x1x64
  slices_S256x16x64_o0_4_0_S256x1x64 : S256x16x64.Slices ![0, 4, 0] S256x1x64
  slices_S2048x16x64_o0_4_0_S2048x1x64 : S2048x16x64.Slices ![0, 4, 0] S2048x1x64
  slices_S256x16x64_o0_5_0_S256x1x64 : S256x16x64.Slices ![0, 5, 0] S256x1x64
  slices_S2048x16x64_o0_5_0_S2048x1x64 : S2048x16x64.Slices ![0, 5, 0] S2048x1x64
  slices_S256x16x64_o0_6_0_S256x1x64 : S256x16x64.Slices ![0, 6, 0] S256x1x64
  slices_S2048x16x64_o0_6_0_S2048x1x64 : S2048x16x64.Slices ![0, 6, 0] S2048x1x64
  slices_S256x16x64_o0_7_0_S256x1x64 : S256x16x64.Slices ![0, 7, 0] S256x1x64
  slices_S2048x16x64_o0_7_0_S2048x1x64 : S2048x16x64.Slices ![0, 7, 0] S2048x1x64
  slices_S256x16x64_o0_8_0_S256x1x64 : S256x16x64.Slices ![0, 8, 0] S256x1x64
  slices_S2048x16x64_o0_8_0_S2048x1x64 : S2048x16x64.Slices ![0, 8, 0] S2048x1x64
  slices_S256x16x64_o0_9_0_S256x1x64 : S256x16x64.Slices ![0, 9, 0] S256x1x64
  slices_S2048x16x64_o0_9_0_S2048x1x64 : S2048x16x64.Slices ![0, 9, 0] S2048x1x64
  slices_S256x16x64_o0_10_0_S256x1x64 : S256x16x64.Slices ![0, 10, 0] S256x1x64
  slices_S2048x16x64_o0_10_0_S2048x1x64 : S2048x16x64.Slices ![0, 10, 0] S2048x1x64
  slices_S256x16x64_o0_11_0_S256x1x64 : S256x16x64.Slices ![0, 11, 0] S256x1x64
  slices_S2048x16x64_o0_11_0_S2048x1x64 : S2048x16x64.Slices ![0, 11, 0] S2048x1x64
  slices_S256x16x64_o0_12_0_S256x1x64 : S256x16x64.Slices ![0, 12, 0] S256x1x64
  slices_S2048x16x64_o0_12_0_S2048x1x64 : S2048x16x64.Slices ![0, 12, 0] S2048x1x64
  slices_S256x16x64_o0_13_0_S256x1x64 : S256x16x64.Slices ![0, 13, 0] S256x1x64
  slices_S2048x16x64_o0_13_0_S2048x1x64 : S2048x16x64.Slices ![0, 13, 0] S2048x1x64
  slices_S256x16x64_o0_14_0_S256x1x64 : S256x16x64.Slices ![0, 14, 0] S256x1x64
  slices_S2048x16x64_o0_14_0_S2048x1x64 : S2048x16x64.Slices ![0, 14, 0] S2048x1x64
  slices_S256x16x64_o0_15_0_S256x1x64 : S256x16x64.Slices ![0, 15, 0] S256x1x64
  slices_S2048x16x64_o0_15_0_S2048x1x64 : S2048x16x64.Slices ![0, 15, 0] S2048x1x64
  shapeCasts_S256x64_S256x1x64 : S256x64.ShapeCasts S256x1x64
  concatenates_S256x1x64_S256x1x64_S256x1x64_S256x1x64_S256x1x64_S256x1x64_S256x1x64_S256x1x64_S256x1x64_S256x1x64_S256x1x64_S256x1x64_S256x1x64_S256x1x64_S256x1x64_S256x1x64_S256x16x64_d1 : Shape.Concatenates [S256x1x64, S256x1x64, S256x1x64, S256x1x64, S256x1x64, S256x1x64, S256x1x64, S256x1x64, S256x1x64, S256x1x64, S256x1x64, S256x1x64, S256x1x64, S256x1x64, S256x1x64, S256x1x64] S256x16x64 1
  shapeCasts_S256x16x64_S1x256x16x64 : S256x16x64.ShapeCasts S1x256x16x64
  packedbf16_S1x256x16x64_S1x256x16x64_0_0_0_0 : (Rect.unit (s := S1x256x16x64) ![0, 0, 0, 0] S1x256x16x64.size inb_S1x256x16x64_S1x256x16x64_0_0_0_0).PackedRows (EltTy.packing .bf16)
  shapeCasts_S4x2048x16x64_S8192x1024 : S4x2048x16x64.ShapeCasts S8192x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x3072_S1024x3072_1_0_0_1_n_n_wf : DotDims.WF S1024x1024 S1024x3072 S1024x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x16x64.size a ≤ S4x2048x16x64.size a
  hwx1_0 : ∀ i : grid1.Coords, EltTy.bits .bf16 = 32 ∨ (Rect.block (s := S4x2048x16x64) S1x256x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x16x64.size a ≤ S4x2048x16x64.size a
  hwx1_1 : ∀ i : grid1.Coords, EltTy.bits .bf16 = 32 ∨ (Rect.block (s := S4x2048x16x64) S1x2048x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x16x64.size a ≤ S4x2048x16x64.size a
  hwx1_2 : ∀ i : grid1.Coords, EltTy.bits .bf16 = 32 ∨ (Rect.block (s := S4x2048x16x64) S1x2048x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x16x64.size a ≤ S4x2048x16x64.size a
  hwx1_3 : ∀ i : grid1.Coords, EltTy.bits .bf16 = 32 ∨ (Rect.block (s := S4x2048x16x64) S1x256x16x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S1x256x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x256x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Dat0.lean ====
/- Region 0 of @main, the fused query/key/value projection: the proof data of its pipeline at a PARAMETER `V`, the
   TensorCore's buffer contents when the region is entered. Definitions only: each window's block at a grid point,
   the rectangles of the body's whole-buffer accesses, what the body's one store per output leaves in that output's
   staging buffer as a function of the three input blocks, and the proof data built from them. -/
import proofs.«178435_j39754217292149_2_alg».proof.Proof.Gen.Kernel.Launch
import proofs.«178435_j39754217292149_2_alg».proof.Proof.Gen.Kernel.Skeleton
import proofs.«178435_j39754217292149_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

/-- The whole 1024x1024 buffer: the activations' load and each of the three stores. -/
abbrev r0_0 : Rect S1024x1024 := Rect.unit (s := S1024x1024) ![0, 0] S1024x1024.size inb_S1024x1024_S1024x1024_0_0
/-- The whole 1024x3072 buffer: the fused weights' load. -/
abbrev r0_1 : Rect S1024x3072 := Rect.unit (s := S1024x3072) ![0, 0] S1024x3072.size inb_S1024x3072_S1024x3072_0_0
/-- The whole 1x3072 buffer: the fused bias's load. -/
abbrev r0_2 : Rect S1x3072 := Rect.unit (s := S1x3072) ![0, 0] S1x3072.size inb_S1x3072_S1x3072_0_0

/-! ## What the body leaves in each output window's buffer -/

/-- Window 3's staging buffer (the queries) after the body, from the input windows' blocks: its one store as a
    piece; the payload is columns 0..1023 of `x·W + b`, rounded to bf16. -/
def out0_3 (x0 : Vec F S1024x1024 .f32) (x1 : Vec F S1024x3072 .bf16) (x2 : Vec F S1x3072 .f32) : Vec F S1024x1024 .bf16 :=
  View.canon [⟨r0_0, k0_pay2 (View.ld x0 r0_0) (View.ld x1 r0_1) (View.ld x2 r0_2)⟩]

/-- Window 4's staging buffer (the keys) after the body: columns 1024..2047 of `x·W + b`, rounded to bf16. -/
def out0_4 (x0 : Vec F S1024x1024 .f32) (x1 : Vec F S1024x3072 .bf16) (x2 : Vec F S1x3072 .f32) : Vec F S1024x1024 .bf16 :=
  View.canon [⟨r0_0, k0_pay3 (View.ld x0 r0_0) (View.ld x1 r0_1) (View.ld x2 r0_2)⟩]

/-- Window 5's staging buffer (the values) after the body: columns 2048..3071 of `x·W + b`, rounded to bf16. -/
def out0_5 (x0 : Vec F S1024x1024 .f32) (x1 : Vec F S1024x3072 .bf16) (x2 : Vec F S1x3072 .f32) : Vec F S1024x1024 .bf16 :=
  View.canon [⟨r0_0, k0_pay4 (View.ld x0 r0_0) (View.ld x1 r0_1) (View.ld x2 r0_2)⟩]

/-! ## The pipeline's proof data -/

/-- The proof data of pipeline 0 on core `c`: the arrays as the region finds them (`V`); after the body at point
    `t` each input's buffer at its block and each output's at `out0_W` of the input blocks; the invariant that of
    a body touching nothing but its windows (the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

end Cert.Kernel.Hand

end
-- ==== Proof.K.Dat1.lean ====
import proofs.«178435_j39754217292149_2_alg».proof.Proof.Gen.Kernel.Launch
import proofs.«178435_j39754217292149_2_alg».proof.Proof.Gen.Kernel.Skeleton
import proofs.«178435_j39754217292149_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the per-head attention call): the windows' blocks and the proof data

At a parameter `V` — the TensorCore's buffer contents when the region is entered — this module defines each
window's block at a grid point, the two whole-buffer rectangles the body reads and writes, what the body leaves in
the output window's staging buffer as a function of the three input blocks, and the pipeline's proof data built
from these. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole query / output staging buffer `[1, 256, 16, 64]`. -/
abbrev r1_0 : Rect S1x256x16x64 := Rect.unit (s := S1x256x16x64) ![0, 0, 0, 0] S1x256x16x64.size inb_S1x256x16x64_S1x256x16x64_0_0_0_0
/-- The whole key / value staging buffer `[1, 2048, 16, 64]`. -/
abbrev r1_1 : Rect S1x2048x16x64 := Rect.unit (s := S1x2048x16x64) ![0, 0, 0, 0] S1x2048x16x64.size inb_S1x2048x16x64_S1x2048x16x64_0_0_0_0

/-! ## What the body leaves in the output window's buffer -/

/-- Window 3's staging buffer after the body, from the three input windows' blocks `x0` (queries), `x1` (keys),
    `x2` (values): the one whole-buffer store as a single piece. Its payload concatenates the sixteen heads'
    outputs; each head's output is written over the three whole-buffer reads (the squeezed copies
    `k1_pay3`, `k1_pay4`, `k1_pay5` of the reads, or the reads themselves for head 0 and the first half of
    head 1). A head's argument is the composition of its value slice, its scores and, where the head's
    computation is cut between two stretches, the intermediate that crosses the cut. -/
def out1_3 (x0 : Vec F S1x256x16x64 .bf16) (x1 : Vec F S1x2048x16x64 .bf16) (x2 : Vec F S1x2048x16x64 .bf16) : Vec F S1x256x16x64 .bf16 :=
  View.canon [⟨r1_0, k1_pay2
    -- head 0
    (k1_pay6 (View.ld x0 r1_0) (View.ld x1 r1_1) (View.ld x2 r1_1))
    -- head 1
    (k1_pay10 (k1_pay7 (View.ld x2 r1_1)) (k1_pay8 (View.ld x0 r1_0) (View.ld x1 r1_1)) (k1_pay9 (View.ld x0 r1_0) (View.ld x1 r1_1)))
    -- head 2
    (k1_pay11 (k1_pay3 (View.ld x0 r1_0)) (k1_pay4 (View.ld x1 r1_1)) (k1_pay5 (View.ld x2 r1_1)))
    -- head 3
    (k1_pay14 (k1_pay12 (k1_pay5 (View.ld x2 r1_1))) (k1_pay13 (k1_pay3 (View.ld x0 r1_0)) (k1_pay4 (View.ld x1 r1_1))))
    -- heads 4, 5
    (k1_pay15 (k1_pay3 (View.ld x0 r1_0)) (k1_pay4 (View.ld x1 r1_1)) (k1_pay5 (View.ld x2 r1_1)))
    (k1_pay16 (k1_pay3 (View.ld x0 r1_0)) (k1_pay4 (View.ld x1 r1_1)) (k1_pay5 (View.ld x2 r1_1)))
    -- head 6
    (k1_pay19 (k1_pay5 (View.ld x2 r1_1)) (k1_pay17 (k1_pay3 (View.ld x0 r1_0))) (k1_pay18 (k1_pay4 (View.ld x1 r1_1))))
    -- head 7
    (k1_pay20 (k1_pay3 (View.ld x0 r1_0)) (k1_pay4 (View.ld x1 r1_1)) (k1_pay5 (View.ld x2 r1_1)))
    -- head 8
    (k1_pay23 (k1_pay21 (k1_pay5 (View.ld x2 r1_1))) (k1_pay22 (k1_pay3 (View.ld x0 r1_0)) (k1_pay4 (View.ld x1 r1_1))))
    -- head 9
    (k1_pay24 (k1_pay3 (View.ld x0 r1_0)) (k1_pay4 (View.ld x1 r1_1)) (k1_pay5 (View.ld x2 r1_1)))
    -- head 10
    (k1_pay28 (k1_pay25 (k1_pay5 (View.ld x2 r1_1))) (k1_pay26 (k1_pay3 (View.ld x0 r1_0)) (k1_pay4 (View.ld x1 r1_1)))
      (k1_pay27 (k1_pay3 (View.ld x0 r1_0)) (k1_pay4 (View.ld x1 r1_1))))
    -- heads 11, 12
    (k1_pay29 (k1_pay3 (View.ld x0 r1_0)) (k1_pay4 (View.ld x1 r1_1)) (k1_pay5 (View.ld x2 r1_1)))
    (k1_pay30 (k1_pay3 (View.ld x0 r1_0)) (k1_pay4 (View.ld x1 r1_1)) (k1_pay5 (View.ld x2 r1_1)))
    -- head 13
    (k1_pay32 (k1_pay4 (View.ld x1 r1_1)) (k1_pay5 (View.ld x2 r1_1)) (k1_pay31 (k1_pay3 (View.ld x0 r1_0))))
    -- head 14
    (k1_pay33 (k1_pay3 (View.ld x0 r1_0)) (k1_pay4 (View.ld x1 r1_1)) (k1_pay5 (View.ld x2 r1_1)))
    -- head 15
    (k1_pay1 (k1_pay34 (k1_pay5 (View.ld x2 r1_1))) (k1_pay35 (k1_pay3 (View.ld x0 r1_0)) (k1_pay4 (View.ld x1 r1_1))) (k1_pay36 (F := F)))⟩]

/-! ## The pipeline's proof data -/

/-- The proof data of pipeline 1 on core `c`: the arrays as the region finds them (`V`); after the body at point
    `t` each input's buffer at its block and the output's at `out1_3` of the input blocks; the invariant of a
    body that touches nothing but its windows (the scoped rest and the generator register, untouched); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Dat2.lean ====
/- Region 2 of @main, the output projection: the proof data of its pipeline at a PARAMETER `V`, the TensorCore's
   buffer contents when the region is entered. Definitions only: each window's block at a grid point, the rectangles
   of the body's whole-buffer accesses, what the body's one store leaves in the output's staging buffer as a
   function of the three input blocks, and the proof data built from them. -/
import proofs.«178435_j39754217292149_2_alg».proof.Proof.Gen.Kernel.Launch
import proofs.«178435_j39754217292149_2_alg».proof.Proof.Gen.Kernel.Skeleton
import proofs.«178435_j39754217292149_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__linear_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole staging buffer -/

/-- The whole 1024x1024 buffer: the activations' load, the weights' load and the store. -/
abbrev r2_0 : Rect S1024x1024 := Rect.unit (s := S1024x1024) ![0, 0] S1024x1024.size inb_S1024x1024_S1024x1024_0_0
/-- The whole 1x1024 buffer: the bias's load. -/
abbrev r2_1 : Rect S1x1024 := Rect.unit (s := S1x1024) ![0, 0] S1x1024.size inb_S1x1024_S1x1024_0_0

/-! ## What the body leaves in the output window's buffer -/

/-- Window 3's staging buffer after the body, from the input windows' blocks: its one store as a piece; the
    payload is `x·W + b` in f32. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_1)⟩]

/-! ## The pipeline's proof data -/

/-- The proof data of pipeline 2 on core `c`: the arrays as the region finds them (`V`); after the body at point
    `t` each input's buffer at its block and the output's at `out2_3` of the input blocks; the invariant that of a
    body touching nothing but its windows (the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.Run.lean ====
/-
  The run of @main on the TensorCores. @main is seven segments: a stretch of host operations, the fused
  query/key/value projection, a stretch of host operations, the attention of every head, a stretch of host
  operations, the output projection, and a last stretch of host operations. This file writes the core's buffer
  contents at the eight boundaries between them as a fold from the launch memory (a host stretch rewrites the
  buffers its operations write; a kernel leaves its input arrays as entered and each output array at the fold of
  its write-backs), reads every argument array back through the fold to its launch contents (no host operation
  writes an argument and no kernel has one among its windows), and proves the run: from any memory with zero
  counters every weakly fair execution of @main terminates, faults nowhere, and ends with every unscoped buffer
  at the last boundary's contents -- given, for each of the three kernels, that its body meets its obligation
  at any entry contents.
-/
import proofs.«178435_j39754217292149_2_alg».proof.Proof.Gen.Kernel.Launch
import proofs.«178435_j39754217292149_2_alg».proof.Proof.Gen.Kernel.Skeleton
import proofs.«178435_j39754217292149_2_alg».proof.Proof.Gen.Kernel.Points
import proofs.«178435_j39754217292149_2_alg».proof.Proof.K.Dat0
import proofs.«178435_j39754217292149_2_alg».proof.Proof.K.Dat1
import proofs.«178435_j39754217292149_2_alg».proof.Proof.K.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
/-- The same read at the TensorCore's references (what the projection kernel's proof data take). -/
abbrev V1 : (c : Dev nD) → (b : Ref sig .tc) → Buf (Elt F) ((c : Thread nD τ).loc b) := fun c b => W1 m ρ c b

/-- At the projection kernel's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection kernel's exit contents). -/
abbrev V2 : (c : Dev nD) → (b : Ref sig .tc) → Buf (Elt F) ((c : Thread nD τ).loc b) := fun c b => W2 m ρ c b
/-- At the projection kernel's exit each of its arrays holds what the pipeline leaves (`hF0`) and every other buffer what
    it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention kernel's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At the attention kernel's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention kernel's exit contents). -/
abbrev V4 : (c : Dev nD) → (b : Ref sig .tc) → Buf (Elt F) ((c : Thread nD τ).loc b) := fun c b => W4 m ρ c b
/-- At the attention kernel's exit each of its arrays holds what the pipeline leaves (`hF1`) and every other buffer what
    it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the output projection's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b

/-- At the output projection's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the output projection's exit contents). -/
abbrev V6 : (c : Dev nD) → (b : Ref sig .tc) → Buf (Elt F) ((c : Thread nD τ).loc b) := fun c b => W6 m ρ c b
/-- At the output projection's exit each of its arrays holds what the pipeline leaves (`hF2`) and every other buffer what
    it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (what @main returns from). -/
abbrev W7 : Dev nD → Valuation τ sig (Elt F) := fun c => StableHlo.after hostOps3 (W6 m ρ c)

/-! # The arguments end as launched

No host operation writes an argument, and no kernel has an argument among its windows' arrays (the kernels read
and write intermediate buffers only), so the fold at an argument's buffer walks back to the launch memory. -/

/-- The first host stretch rewrites `main_v0`, `main_v1`, `main_v2`, `main_v3`, `main_v4`, `main_v5`, `main_v6`, `main_v7` only: any other buffer keeps its contents through it. -/
theorem keeps0 (V : Valuation τ sig (Elt F)) (r : Ref sig .tc)
    (h : r ∉ ([main_v0, main_v1, main_v2, main_v3, main_v4, main_v5, main_v6, main_v7] : List (Ref sig .tc))) :
    StableHlo.after hostOps0 V (Proc.devRef .tc r) = V (Proc.devRef .tc r) :=
  StableHlo.after_of_writes_sub hostOps0 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h
/-- The second host stretch rewrites `main_v9`, `main_v10`, `main_v11` only: any other buffer keeps its contents through it. -/
theorem keeps1 (V : Valuation τ sig (Elt F)) (r : Ref sig .tc)
    (h : r ∉ ([main_v9, main_v10, main_v11] : List (Ref sig .tc))) :
    StableHlo.after hostOps1 V (Proc.devRef .tc r) = V (Proc.devRef .tc r) :=
  StableHlo.after_of_writes_sub hostOps1 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h
/-- The third host stretch rewrites `main_v13`, `main_v14`, `main_v15`, `main_v16` only: any other buffer keeps its contents through it. -/
theorem keeps2 (V : Valuation τ sig (Elt F)) (r : Ref sig .tc)
    (h : r ∉ ([main_v13, main_v14, main_v15, main_v16] : List (Ref sig .tc))) :
    StableHlo.after hostOps2 V (Proc.devRef .tc r) = V (Proc.devRef .tc r) :=
  StableHlo.after_of_writes_sub hostOps2 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h
/-- The last host stretch rewrites `main_v18` only: any other buffer keeps its contents through it. -/
theorem keeps3 (V : Valuation τ sig (Elt F)) (r : Ref sig .tc)
    (h : r ∉ ([main_v18] : List (Ref sig .tc))) :
    StableHlo.after hostOps3 V (Proc.devRef .tc r) = V (Proc.devRef .tc r) :=
  StableHlo.after_of_writes_sub hostOps3 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h

/-- `main_arg0` ends as launched. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := keeps3 _ main_arg0 (by decide)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) := W4_of_ne m ρ c main_arg0 (by decide)
    _ = W2 m ρ c (Proc.devRef .tc main_arg0) := keeps1 _ main_arg0 (by decide)
    _ = W1 m ρ c (Proc.devRef .tc main_arg0) := W2_of_ne m ρ c main_arg0 (by decide)
    _ = W0 m ρ c (Proc.devRef .tc main_arg0) := keeps0 _ main_arg0 (by decide)
    _ = m ((c : Thread nD τ).loc main_arg0) := rfl
/-- `main_arg1` ends as launched. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := keeps3 _ main_arg1 (by decide)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) := W2_of_ne m ρ c main_arg1 (by decide)
    _ = W0 m ρ c (Proc.devRef .tc main_arg1) := keeps0 _ main_arg1 (by decide)
    _ = m ((c : Thread nD τ).loc main_arg1) := rfl
/-- `main_arg2` ends as launched. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := keeps3 _ main_arg2 (by decide)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) := W2_of_ne m ρ c main_arg2 (by decide)
    _ = W0 m ρ c (Proc.devRef .tc main_arg2) := keeps0 _ main_arg2 (by decide)
    _ = m ((c : Thread nD τ).loc main_arg2) := rfl
/-- `main_arg3` ends as launched. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := keeps3 _ main_arg3 (by decide)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := W2_of_ne m ρ c main_arg3 (by decide)
    _ = W0 m ρ c (Proc.devRef .tc main_arg3) := keeps0 _ main_arg3 (by decide)
    _ = m ((c : Thread nD τ).loc main_arg3) := rfl
/-- `main_arg4` ends as launched. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := keeps3 _ main_arg4 (by decide)
    _ = W5 m ρ c (Proc.devRef .tc main_arg4) := W6_of_ne m ρ c main_arg4 (by decide)
    _ = W4 m ρ c (Proc.devRef .tc main_arg4) := keeps2 _ main_arg4 (by decide)
    _ = W3 m ρ c (Proc.devRef .tc main_arg4) := W4_of_ne m ρ c main_arg4 (by decide)
    _ = W2 m ρ c (Proc.devRef .tc main_arg4) := keeps1 _ main_arg4 (by decide)
    _ = W1 m ρ c (Proc.devRef .tc main_arg4) := W2_of_ne m ρ c main_arg4 (by decide)
    _ = W0 m ρ c (Proc.devRef .tc main_arg4) := keeps0 _ main_arg4 (by decide)
    _ = m ((c : Thread nD τ).loc main_arg4) := rfl
/-- `main_arg5` ends as launched. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := keeps3 _ main_arg5 (by decide)
    _ = W5 m ρ c (Proc.devRef .tc main_arg5) := W6_of_ne m ρ c main_arg5 (by decide)
    _ = W4 m ρ c (Proc.devRef .tc main_arg5) := keeps2 _ main_arg5 (by decide)
    _ = W3 m ρ c (Proc.devRef .tc main_arg5) := W4_of_ne m ρ c main_arg5 (by decide)
    _ = W2 m ρ c (Proc.devRef .tc main_arg5) := keeps1 _ main_arg5 (by decide)
    _ = W1 m ρ c (Proc.devRef .tc main_arg5) := W2_of_ne m ρ c main_arg5 (by decide)
    _ = W0 m ρ c (Proc.devRef .tc main_arg5) := keeps0 _ main_arg5 (by decide)
    _ = m ((c : Thread nD τ).loc main_arg5) := rfl
/-- `main_arg6` ends as launched. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := keeps3 _ main_arg6 (by decide)
    _ = W5 m ρ c (Proc.devRef .tc main_arg6) := W6_of_ne m ρ c main_arg6 (by decide)
    _ = W4 m ρ c (Proc.devRef .tc main_arg6) := keeps2 _ main_arg6 (by decide)
    _ = W3 m ρ c (Proc.devRef .tc main_arg6) := W4_of_ne m ρ c main_arg6 (by decide)
    _ = W2 m ρ c (Proc.devRef .tc main_arg6) := keeps1 _ main_arg6 (by decide)
    _ = W1 m ρ c (Proc.devRef .tc main_arg6) := W2_of_ne m ρ c main_arg6 (by decide)
    _ = W0 m ρ c (Proc.devRef .tc main_arg6) := keeps0 _ main_arg6 (by decide)
    _ = m ((c : Thread nD τ).loc main_arg6) := rfl
/-- `main_arg7` ends as launched. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := keeps3 _ main_arg7 (by decide)
    _ = W5 m ρ c (Proc.devRef .tc main_arg7) := W6_of_ne m ρ c main_arg7 (by decide)
    _ = W4 m ρ c (Proc.devRef .tc main_arg7) := keeps2 _ main_arg7 (by decide)
    _ = W3 m ρ c (Proc.devRef .tc main_arg7) := W4_of_ne m ρ c main_arg7 (by decide)
    _ = W2 m ρ c (Proc.devRef .tc main_arg7) := keeps1 _ main_arg7 (by decide)
    _ = W1 m ρ c (Proc.devRef .tc main_arg7) := W2_of_ne m ρ c main_arg7 (by decide)
    _ = W0 m ρ c (Proc.devRef .tc main_arg7) := keeps0 _ main_arg7 (by decide)
    _ = m ((c : Thread nD τ).loc main_arg7) := rfl
/-- `main_arg8` ends as launched. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := keeps3 _ main_arg8 (by decide)
    _ = W5 m ρ c (Proc.devRef .tc main_arg8) := W6_of_ne m ρ c main_arg8 (by decide)
    _ = W4 m ρ c (Proc.devRef .tc main_arg8) := keeps2 _ main_arg8 (by decide)
    _ = W3 m ρ c (Proc.devRef .tc main_arg8) := W4_of_ne m ρ c main_arg8 (by decide)
    _ = W2 m ρ c (Proc.devRef .tc main_arg8) := keeps1 _ main_arg8 (by decide)
    _ = W1 m ρ c (Proc.devRef .tc main_arg8) := W2_of_ne m ρ c main_arg8 (by decide)
    _ = W0 m ρ c (Proc.devRef .tc main_arg8) := keeps0 _ main_arg8 (by decide)
    _ = m ((c : Thread nD τ).loc main_arg8) := rfl

/-! # The proof data family and the thread state -/

/-- The prefetched tables' admissible contents: no kernel has a table. -/
abbrev adm : (p : Fin 3) → (pcfgs (F := F) p).Adm := fun p => (cfgs p).toPCfg_adm
/-- Every kernel's proof data, each at its own entry contents. A literal `match`, so that the pinned configuration
    at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it ends with
    those buffers at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues (the chain ends at it BESIDE the core owing nothing): every unscoped
    buffer at the last boundary's contents, the generator register at some state. -/
abbrev Tₙ (c : Dev nD) : sProp 𝕄 := iprop(StableHlo.held (c : Thread nD τ) (Pipeline.ucRefs τ sig) (W7 m ρ c) ∗ ∃ r, prngReg c r)
/-- The last host stretch's exit state, regrouped: the buffers at the last boundary's contents with the generator
    register on one side, the dues (nothing) on the other. -/
theorem last_regroup (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-! # The kernels as segments -/

set_option backward.isDefEq.respectTransparency.types false in
/-- The projection kernel (custom_call 0) over the thread state: entered from every unscoped buffer at `W1`, left at `W2` (what
    the next segment is entered from). Its arrays are split out of the unscoped buffers and put back at the exit
    contents; the generator register goes into the class invariant and comes out; nothing is owed; the kernel has no
    semaphore of its own. -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel (custom_call 1) over the thread state: entered from every unscoped buffer at `W3`, left at `W4` (what
    the next segment is entered from). Its arrays are split out of the unscoped buffers and put back at the exit
    contents; the generator register goes into the class invariant and comes out; nothing is owed; the kernel has no
    semaphore of its own. -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection (custom_call 2) over the thread state: entered from every unscoped buffer at `W5`, left at `W6` (what
    the next segment is entered from). Its arrays are split out of the unscoped buffers and put back at the exit
    contents; the generator register goes into the class invariant and comes out; nothing is owed; the kernel has no
    semaphore of its own. -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's seven segments in order: a host segment per stretch from its boundary's contents, a region per kernel. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2),
    .host (hseg hostOps3 hostOps3_sub hostOps3_fresh (W6 m ρ)) ]
/-- @main IS the run of the segments: @main is the chain of its seven items, and the segments' run is that chain
    by definitional unfolding. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (c : Dev nD) : main (F := F) c = Pipeline.Seg.run (segs m ρ hb0 hb1 hb2) := (main_chain c).trans (by chain_rfl)

set_option backward.isDefEq.respectTransparency.types false in
/-- THE RUN: at the compiled mesh, from any memory with zero counters, every weakly fair execution of @main on the
    TensorCores terminates, nothing faulting, and in every final state every UNSCOPED buffer of every core holds the
    last boundary's contents -- given that each kernel's body meets its obligation at any entry contents. The launch
    over the seven segments: the thread states chain (each segment is entered from exactly what the one before it
    left; the last host stretch leaves the buffers at `W7` beside the generator register and the dues at nothing,
    regrouped), and the last thread state is read against the final state buffer by buffer. -/
theorem run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ hb0 hb1 hb2)
    (fun c Q => by rw [main_run m ρ hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_regroup m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame claim at any `F`: in every final state each of the nine argument arrays holds its launch contents --
    the run's reading at an argument's buffer, walked back through the fold. -/
theorem frame (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ hb0 hb1 hb2)

/-- info: 'Cert.Kernel.Hand.run' depends on axioms: [propext, Classical.choice, Quot.sound] -/
#guard_msgs in #print axioms run

end Cert.Kernel.Hand

end
-- ==== Proof.K.Body0.lean ====
/- Region 0 of @main, the fused query/key/value projection: the body half of its frame. The body loads its three
   input windows' staging buffers whole, computes, and stores each of its three output windows' staging buffers whole
   (each store preceded by a load of that buffer whose value is not used); so what it leaves in an output buffer is a
   closed function of the three input blocks (`out0_3`, `out0_4`, `out0_5`), and what it finds in an input buffer
   is that window's block at the point — for the weights and the bias, which are fetched at the first grid point
   only, because their block index never moves. -/
import proofs.«178435_j39754217292149_2_alg».proof.Proof.Gen.Kernel.Launch
import proofs.«178435_j39754217292149_2_alg».proof.Proof.Gen.Kernel.Skeleton
import proofs.«178435_j39754217292149_2_alg».proof.Proof.Gen.Kernel.Points
import proofs.«178435_j39754217292149_2_alg».proof.Proof.K.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__qkv_kernel` (pipeline 0), at the entry contents `V` -/

/-! ## What the body finds in each input window's buffer -/

/-- Input window 0's current staging buffer holds its block at every point, fetched there or not, for ANY proof
    data whose array is `V`'s (`hA`) and whose body leaves the block in place (`hafter`): where the window is not
    fetched its block index has not moved, so the previous point's block is this point's (the activations: fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): where the window is not
    fetched its block index has not moved, so the previous point's block is this point's (the fused weights: one block, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): where the window is not
    fetched its block index has not moved, so the previous point's block is this point's (the fused bias: one block, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The stores cover the output buffers -/

/-- One whole-buffer store tiles a 1024x1024 buffer, so it covers it: every output window's cover. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y
theorem cover0_4 (p0 : Vec F S1024x1024 .bf16) (y : S1024x1024.Idx) :
    ∃ pc ∈ ([⟨r0_0, p0⟩] : List (View.Piece (Elt F) S1024x1024 .bf16)), y ∈ pc.1.set := cover0_3 p0 y
theorem cover0_5 (p0 : Vec F S1024x1024 .bf16) (y : S1024x1024.Idx) :
    ∃ pc ∈ ([⟨r0_0, p0⟩] : List (View.Piece (Elt F) S1024x1024 .bf16)), y ∈ pc.1.set := cover0_3 p0 y

/-! ## The body's triple -/

set_option maxHeartbeats 1000000 in
/-- The kernel body on whole staging memrefs, the inputs' at read contents `x0`, `x1`, `x2` and the outputs' at
    anything, runs to the continuation holding the inputs' as they were and each output's at `out0_W` of the
    inputs': the printed function is its skeleton of memory operations over payloads, which is run operation by
    operation; each output buffer then reads as the canonical contents of its one covering store. -/
theorem sound_kernel0 (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## What the proof data's inputs hold before the body -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«178435_j39754217292149_2_alg».proof.Proof.K.Dat1

/-! # Region 1 (the per-head attention call): the body's triple and the body obligation

At the region-entry contents `V`: every input window's staging buffer holds that window's block when the body
starts (fetched at the point or kept from the point before); the body, run on whole staging buffers, leaves the
inputs as they were and the output buffer at `out1_3` of the inputs; hence the pipeline's body obligation for the
proof data `dat1`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0 (the queries' block `[1, 256, 16, 64]`, a new block at every point) holds its block at every
    point, for ANY proof data whose array is `V`'s (`hA`) and whose body leaves the block in place (`hafter`):
    the window is uncut and never idle, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the keys' block `[1, 2048, 16, 64]`, which changes only with the first grid coordinate) holds
    its block at every point: at the seven points out of eight where it is not fetched, the buffer still holds the
    previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the values' block `[1, 2048, 16, 64]`), likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The body's one store is of the whole buffer (one block of the buffer's own size), so it covers it. -/
theorem cover1_3 (p0 : Vec F S1x256x16x64 .bf16) (y : S1x256x16x64.Idx) :
    ∃ pc ∈ ([⟨r1_0, p0⟩] : List (View.Piece (Elt F) S1x256x16x64 .bf16)), y ∈ pc.1.set :=
  View.cover_of_tiled [⟨r1_0, p0⟩] S1x256x16x64.size (by rfl) y

/-! ## The body's triple -/

set_option maxHeartbeats 4000000 in
/-- The kernel body on whole staging memrefs, the three inputs' at read contents `x0`, `x1`, `x2` and the output's
    at anything, runs to the continuation holding the inputs' as they were and the output's at `out1_3 x0 x1 x2`.
    The printed function and its seven parts are their skeletons of memory operations over payloads; run in order
    these are three whole-buffer loads, one load of the output buffer whose value is never used, and one
    whole-buffer store, after which what the output's view reads is the canonical contents of that one piece. -/
theorem sound_kernel1 (c : Dev nD) (E : Set ℕ) (i : grid1.Coords)
    (arg0 : Memref sig .tc .vmem S1x256x16x64 .bf16) (harg0 : arg0.IsWhole)
    (arg1 : Memref sig .tc .vmem S1x2048x16x64 .bf16) (harg1 : arg1.IsWhole)
    (arg2 : Memref sig .tc .vmem S1x2048x16x64 .bf16) (harg2 : arg2.IsWhole)
    (arg3 : Memref sig .tc .vmem S1x256x16x64 .bf16) (harg3 : arg3.IsWhole)
    (x0 : Vec F S1x256x16x64 .bf16) (x1 : Vec F S1x2048x16x64 .bf16) (x2 : Vec F S1x2048x16x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton, k1_part2_eq_skeleton, k1_part3_eq_skeleton, k1_part4_eq_skeleton, k1_part5_eq_skeleton,
    k1_part6_eq_skeleton, k1_part7_eq_skeleton]
  unfold k1_part1_skel k1_part2_skel k1_part3_skel k1_part4_skel k1_part5_skel k1_part6_skel k1_part7_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The windows' buffers when the body starts -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and the four windows' current
    staging buffers at what the pipeline left in them, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks (`before1_0`, `before1_1`, `before1_2`),
    so `sound_kernel1` applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- Region 2 of @main, the output projection: the body half of its frame. The body loads its three input windows'
   staging buffers whole, computes, and stores its output window's staging buffer whole (the store preceded by a load
   of that buffer whose value is not used); so what it leaves in the output buffer is a closed function of the three
   input blocks (`out2_3`), and what it finds in an input buffer is that window's block at the point — for the
   weights and the bias, which are fetched at the first grid point only, because their block index never moves. -/
import proofs.«178435_j39754217292149_2_alg».proof.Proof.Gen.Kernel.Launch
import proofs.«178435_j39754217292149_2_alg».proof.Proof.Gen.Kernel.Skeleton
import proofs.«178435_j39754217292149_2_alg».proof.Proof.Gen.Kernel.Points
import proofs.«178435_j39754217292149_2_alg».proof.Proof.K.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__linear_kernel` (pipeline 2), at the entry contents `V` -/

/-! ## What the body finds in each input window's buffer -/

/-- Input window 0's current staging buffer holds its block at every point, fetched there or not, for ANY proof
    data whose array is `V`'s (`hA`) and whose body leaves the block in place (`hafter`): where the window is not
    fetched its block index has not moved, so the previous point's block is this point's (the activations: fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): where the window is not
    fetched its block index has not moved, so the previous point's block is this point's (the weights: one block, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): where the window is not
    fetched its block index has not moved, so the previous point's block is this point's (the bias: one block, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The store covers the output buffer -/

/-- One whole-buffer store tiles the 1024x1024 buffer, so it covers it. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `x0`, `x1`, `x2` and the output's at
    anything, runs to the continuation holding the inputs' as they were and the output's at `out2_3` of the inputs':
    the printed function is its skeleton of memory operations over payloads, which is run operation by operation;
    the output buffer then reads as the canonical contents of its one covering store. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## What the proof data's inputs hold before the body -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Frame.lean ====
/-
  The run and the frame claim of @main with the three kernels' body obligations discharged: each kernel's body
  meets its obligation at any entry contents, so from any memory with zero counters every weakly fair execution
  of @main terminates, faults nowhere, ends with every unscoped buffer at the last boundary's contents, and in
  particular with each of the nine argument arrays as launched.
-/
import proofs.«178435_j39754217292149_2_alg».proof.Proof.K.Run
import proofs.«178435_j39754217292149_2_alg».proof.Proof.K.Body0
import proofs.«178435_j39754217292149_2_alg».proof.Proof.K.Body1
import proofs.«178435_j39754217292149_2_alg».proof.Proof.K.Body2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE RUN: @main terminates, faults nowhere, and every unscoped buffer ends at the last boundary's contents. -/
theorem run' : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  run m ρ body_obligation0 body_obligation1 body_obligation2

/-- The frame claim at any `F`: in every final state each of the nine argument arrays holds its launch contents. -/
theorem frame' : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame m ρ body_obligation0 body_obligation1 body_obligation2

/-- info: 'Cert.Kernel.Hand.frame'' depends on axioms: [propext, Classical.choice, Quot.sound] -/
#guard_msgs in #print axioms frame'

end Cert.Kernel.Hand

end
-- ==== Proof.KI.Dat0.lean ====
/- Region 0 of @main, the fused query/key/value projection: the proof data of its pipeline at a PARAMETER `V`, the
   TensorCore's buffer contents when the region is entered. Definitions only: each window's block at a grid point,
   the rectangles of the body's whole-buffer accesses, what the body's one store per output leaves in that output's
   staging buffer as a function of the three input blocks, and the proof data built from them. -/
import proofs.«178435_j39754217292149_2_alg».proof.Proof.Gen.KernelIdeal.Launch
import proofs.«178435_j39754217292149_2_alg».proof.Proof.Gen.KernelIdeal.Skeleton
import proofs.«178435_j39754217292149_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

/-- The whole 1024x1024 buffer: the activations' load and each of the three stores. -/
abbrev r0_0 : Rect S1024x1024 := Rect.unit (s := S1024x1024) ![0, 0] S1024x1024.size inb_S1024x1024_S1024x1024_0_0
/-- The whole 1024x3072 buffer: the fused weights' load. -/
abbrev r0_1 : Rect S1024x3072 := Rect.unit (s := S1024x3072) ![0, 0] S1024x3072.size inb_S1024x3072_S1024x3072_0_0
/-- The whole 1x3072 buffer: the fused bias's load. -/
abbrev r0_2 : Rect S1x3072 := Rect.unit (s := S1x3072) ![0, 0] S1x3072.size inb_S1x3072_S1x3072_0_0

/-! ## What the body leaves in each output window's buffer -/

/-- Window 3's staging buffer (the queries) after the body, from the input windows' blocks: its one store as a
    piece; the payload is columns 0..1023 of `x·W + b`, rounded to bf16. -/
def out0_3 (x0 : Vec F S1024x1024 .f32) (x1 : Vec F S1024x3072 .bf16) (x2 : Vec F S1x3072 .f32) : Vec F S1024x1024 .bf16 :=
  View.canon [⟨r0_0, k0_pay2 (View.ld x0 r0_0) (View.ld x1 r0_1) (View.ld x2 r0_2)⟩]

/-- Window 4's staging buffer (the keys) after the body: columns 1024..2047 of `x·W + b`, rounded to bf16. -/
def out0_4 (x0 : Vec F S1024x1024 .f32) (x1 : Vec F S1024x3072 .bf16) (x2 : Vec F S1x3072 .f32) : Vec F S1024x1024 .bf16 :=
  View.canon [⟨r0_0, k0_pay3 (View.ld x0 r0_0) (View.ld x1 r0_1) (View.ld x2 r0_2)⟩]

/-- Window 5's staging buffer (the values) after the body: columns 2048..3071 of `x·W + b`, rounded to bf16. -/
def out0_5 (x0 : Vec F S1024x1024 .f32) (x1 : Vec F S1024x3072 .bf16) (x2 : Vec F S1x3072 .f32) : Vec F S1024x1024 .bf16 :=
  View.canon [⟨r0_0, k0_pay4 (View.ld x0 r0_0) (View.ld x1 r0_1) (View.ld x2 r0_2)⟩]

/-! ## The pipeline's proof data -/

/-- The proof data of pipeline 0 on core `c`: the arrays as the region finds them (`V`); after the body at point
    `t` each input's buffer at its block and each output's at `out0_W` of the input blocks; the invariant that of
    a body touching nothing but its windows (the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

end Cert.KernelIdeal.Hand

end
-- ==== Proof.KI.Dat1.lean ====
import proofs.«178435_j39754217292149_2_alg».proof.Proof.Gen.KernelIdeal.Launch
import proofs.«178435_j39754217292149_2_alg».proof.Proof.Gen.KernelIdeal.Skeleton
import proofs.«178435_j39754217292149_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the per-head attention call): the windows' blocks and the proof data

At a parameter `V` — the TensorCore's buffer contents when the region is entered — this module defines each
window's block at a grid point, the two whole-buffer rectangles the body reads and writes, what the body leaves in
the output window's staging buffer as a function of the three input blocks, and the pipeline's proof data built
from these. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole query / output staging buffer `[1, 256, 16, 64]`. -/
abbrev r1_0 : Rect S1x256x16x64 := Rect.unit (s := S1x256x16x64) ![0, 0, 0, 0] S1x256x16x64.size inb_S1x256x16x64_S1x256x16x64_0_0_0_0
/-- The whole key / value staging buffer `[1, 2048, 16, 64]`. -/
abbrev r1_1 : Rect S1x2048x16x64 := Rect.unit (s := S1x2048x16x64) ![0, 0, 0, 0] S1x2048x16x64.size inb_S1x2048x16x64_S1x2048x16x64_0_0_0_0

/-! ## What the body leaves in the output window's buffer -/

/-- Window 3's staging buffer after the body, from the three input windows' blocks `x0` (queries), `x1` (keys),
    `x2` (values): the one whole-buffer store as a single piece. Its payload concatenates the sixteen heads'
    outputs; each head's output is written over the three whole-buffer reads (the squeezed copies
    `k1_pay3`, `k1_pay4`, `k1_pay5` of the reads, or the reads themselves for head 0 and the first half of
    head 1). A head's argument is the composition of its value slice, its scores and, where the head's
    computation is cut between two stretches, the intermediate that crosses the cut. -/
def out1_3 (x0 : Vec F S1x256x16x64 .bf16) (x1 : Vec F S1x2048x16x64 .bf16) (x2 : Vec F S1x2048x16x64 .bf16) : Vec F S1x256x16x64 .bf16 :=
  View.canon [⟨r1_0, k1_pay2
    -- head 0
    (k1_pay6 (View.ld x0 r1_0) (View.ld x1 r1_1) (View.ld x2 r1_1))
    -- head 1
    (k1_pay10 (k1_pay7 (View.ld x2 r1_1)) (k1_pay8 (View.ld x0 r1_0) (View.ld x1 r1_1)) (k1_pay9 (View.ld x0 r1_0) (View.ld x1 r1_1)))
    -- head 2
    (k1_pay11 (k1_pay3 (View.ld x0 r1_0)) (k1_pay4 (View.ld x1 r1_1)) (k1_pay5 (View.ld x2 r1_1)))
    -- head 3
    (k1_pay14 (k1_pay12 (k1_pay5 (View.ld x2 r1_1))) (k1_pay13 (k1_pay3 (View.ld x0 r1_0)) (k1_pay4 (View.ld x1 r1_1))))
    -- heads 4, 5
    (k1_pay15 (k1_pay3 (View.ld x0 r1_0)) (k1_pay4 (View.ld x1 r1_1)) (k1_pay5 (View.ld x2 r1_1)))
    (k1_pay16 (k1_pay3 (View.ld x0 r1_0)) (k1_pay4 (View.ld x1 r1_1)) (k1_pay5 (View.ld x2 r1_1)))
    -- head 6
    (k1_pay19 (k1_pay5 (View.ld x2 r1_1)) (k1_pay17 (k1_pay3 (View.ld x0 r1_0))) (k1_pay18 (k1_pay4 (View.ld x1 r1_1))))
    -- head 7
    (k1_pay20 (k1_pay3 (View.ld x0 r1_0)) (k1_pay4 (View.ld x1 r1_1)) (k1_pay5 (View.ld x2 r1_1)))
    -- head 8
    (k1_pay23 (k1_pay21 (k1_pay5 (View.ld x2 r1_1))) (k1_pay22 (k1_pay3 (View.ld x0 r1_0)) (k1_pay4 (View.ld x1 r1_1))))
    -- head 9
    (k1_pay24 (k1_pay3 (View.ld x0 r1_0)) (k1_pay4 (View.ld x1 r1_1)) (k1_pay5 (View.ld x2 r1_1)))
    -- head 10
    (k1_pay28 (k1_pay25 (k1_pay5 (View.ld x2 r1_1))) (k1_pay26 (k1_pay3 (View.ld x0 r1_0)) (k1_pay4 (View.ld x1 r1_1)))
      (k1_pay27 (k1_pay3 (View.ld x0 r1_0)) (k1_pay4 (View.ld x1 r1_1))))
    -- heads 11, 12
    (k1_pay29 (k1_pay3 (View.ld x0 r1_0)) (k1_pay4 (View.ld x1 r1_1)) (k1_pay5 (View.ld x2 r1_1)))
    (k1_pay30 (k1_pay3 (View.ld x0 r1_0)) (k1_pay4 (View.ld x1 r1_1)) (k1_pay5 (View.ld x2 r1_1)))
    -- head 13
    (k1_pay32 (k1_pay4 (View.ld x1 r1_1)) (k1_pay5 (View.ld x2 r1_1)) (k1_pay31 (k1_pay3 (View.ld x0 r1_0))))
    -- head 14
    (k1_pay33 (k1_pay3 (View.ld x0 r1_0)) (k1_pay4 (View.ld x1 r1_1)) (k1_pay5 (View.ld x2 r1_1)))
    -- head 15
    (k1_pay1 (k1_pay34 (k1_pay5 (View.ld x2 r1_1))) (k1_pay35 (k1_pay3 (View.ld x0 r1_0)) (k1_pay4 (View.ld x1 r1_1))) (k1_pay36 (F := F)))⟩]

/-! ## The pipeline's proof data -/

/-- The proof data of pipeline 1 on core `c`: the arrays as the region finds them (`V`); after the body at point
    `t` each input's buffer at its block and the output's at `out1_3` of the input blocks; the invariant of a
    body that touches nothing but its windows (the scoped rest and the generator register, untouched); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Dat2.lean ====
/- Region 2 of @main, the output projection: the proof data of its pipeline at a PARAMETER `V`, the TensorCore's
   buffer contents when the region is entered. Definitions only: each window's block at a grid point, the rectangles
   of the body's whole-buffer accesses, what the body's one store leaves in the output's staging buffer as a
   function of the three input blocks, and the proof data built from them. -/
import proofs.«178435_j39754217292149_2_alg».proof.Proof.Gen.KernelIdeal.Launch
import proofs.«178435_j39754217292149_2_alg».proof.Proof.Gen.KernelIdeal.Skeleton
import proofs.«178435_j39754217292149_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__linear_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole staging buffer -/

/-- The whole 1024x1024 buffer: the activations' load, the weights' load and the store. -/
abbrev r2_0 : Rect S1024x1024 := Rect.unit (s := S1024x1024) ![0, 0] S1024x1024.size inb_S1024x1024_S1024x1024_0_0
/-- The whole 1x1024 buffer: the bias's load. -/
abbrev r2_1 : Rect S1x1024 := Rect.unit (s := S1x1024) ![0, 0] S1x1024.size inb_S1x1024_S1x1024_0_0

/-! ## What the body leaves in the output window's buffer -/

/-- Window 3's staging buffer after the body, from the input windows' blocks: its one store as a piece; the
    payload is `x·W + b` in f32. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_1)⟩]

/-! ## The pipeline's proof data -/

/-- The proof data of pipeline 2 on core `c`: the arrays as the region finds them (`V`); after the body at point
    `t` each input's buffer at its block and the output's at `out2_3` of the input blocks; the invariant that of a
    body touching nothing but its windows (the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Run.lean ====
/-
  The run of @main on the TensorCores. @main is seven segments: a stretch of host operations, the fused
  query/key/value projection, a stretch of host operations, the attention of every head, a stretch of host
  operations, the output projection, and a last stretch of host operations. This file writes the core's buffer
  contents at the eight boundaries between them as a fold from the launch memory (a host stretch rewrites the
  buffers its operations write; a kernel leaves its input arrays as entered and each output array at the fold of
  its write-backs), reads every argument array back through the fold to its launch contents (no host operation
  writes an argument and no kernel has one among its windows), and proves the run: from any memory with zero
  counters every weakly fair execution of @main terminates, faults nowhere, and ends with every unscoped buffer
  at the last boundary's contents -- given, for each of the three kernels, that its body meets its obligation
  at any entry contents.
-/
import proofs.«178435_j39754217292149_2_alg».proof.Proof.Gen.KernelIdeal.Launch
import proofs.«178435_j39754217292149_2_alg».proof.Proof.Gen.KernelIdeal.Skeleton
import proofs.«178435_j39754217292149_2_alg».proof.Proof.Gen.KernelIdeal.Points
import proofs.«178435_j39754217292149_2_alg».proof.Proof.KI.Dat0
import proofs.«178435_j39754217292149_2_alg».proof.Proof.KI.Dat1
import proofs.«178435_j39754217292149_2_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
/-- The same read at the TensorCore's references (what the projection kernel's proof data take). -/
abbrev V1 : (c : Dev nD) → (b : Ref sig .tc) → Buf (Elt F) ((c : Thread nD τ).loc b) := fun c b => W1 m ρ c b

/-- At the projection kernel's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection kernel's exit contents). -/
abbrev V2 : (c : Dev nD) → (b : Ref sig .tc) → Buf (Elt F) ((c : Thread nD τ).loc b) := fun c b => W2 m ρ c b
/-- At the projection kernel's exit each of its arrays holds what the pipeline leaves (`hF0`) and every other buffer what
    it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention kernel's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At the attention kernel's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention kernel's exit contents). -/
abbrev V4 : (c : Dev nD) → (b : Ref sig .tc) → Buf (Elt F) ((c : Thread nD τ).loc b) := fun c b => W4 m ρ c b
/-- At the attention kernel's exit each of its arrays holds what the pipeline leaves (`hF1`) and every other buffer what
    it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the output projection's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b

/-- At the output projection's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the output projection's exit contents). -/
abbrev V6 : (c : Dev nD) → (b : Ref sig .tc) → Buf (Elt F) ((c : Thread nD τ).loc b) := fun c b => W6 m ρ c b
/-- At the output projection's exit each of its arrays holds what the pipeline leaves (`hF2`) and every other buffer what
    it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (what @main returns from). -/
abbrev W7 : Dev nD → Valuation τ sig (Elt F) := fun c => StableHlo.after hostOps3 (W6 m ρ c)

/-! # The arguments end as launched

No host operation writes an argument, and no kernel has an argument among its windows' arrays (the kernels read
and write intermediate buffers only), so the fold at an argument's buffer walks back to the launch memory. -/

/-- The first host stretch rewrites `main_v0`, `main_v1`, `main_v2`, `main_v3`, `main_v4`, `main_v5`, `main_v6`, `main_v7` only: any other buffer keeps its contents through it. -/
theorem keeps0 (V : Valuation τ sig (Elt F)) (r : Ref sig .tc)
    (h : r ∉ ([main_v0, main_v1, main_v2, main_v3, main_v4, main_v5, main_v6, main_v7] : List (Ref sig .tc))) :
    StableHlo.after hostOps0 V (Proc.devRef .tc r) = V (Proc.devRef .tc r) :=
  StableHlo.after_of_writes_sub hostOps0 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h
/-- The second host stretch rewrites `main_v9`, `main_v10`, `main_v11` only: any other buffer keeps its contents through it. -/
theorem keeps1 (V : Valuation τ sig (Elt F)) (r : Ref sig .tc)
    (h : r ∉ ([main_v9, main_v10, main_v11] : List (Ref sig .tc))) :
    StableHlo.after hostOps1 V (Proc.devRef .tc r) = V (Proc.devRef .tc r) :=
  StableHlo.after_of_writes_sub hostOps1 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h
/-- The third host stretch rewrites `main_v13`, `main_v14`, `main_v15`, `main_v16` only: any other buffer keeps its contents through it. -/
theorem keeps2 (V : Valuation τ sig (Elt F)) (r : Ref sig .tc)
    (h : r ∉ ([main_v13, main_v14, main_v15, main_v16] : List (Ref sig .tc))) :
    StableHlo.after hostOps2 V (Proc.devRef .tc r) = V (Proc.devRef .tc r) :=
  StableHlo.after_of_writes_sub hostOps2 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h
/-- The last host stretch rewrites `main_v18` only: any other buffer keeps its contents through it. -/
theorem keeps3 (V : Valuation τ sig (Elt F)) (r : Ref sig .tc)
    (h : r ∉ ([main_v18] : List (Ref sig .tc))) :
    StableHlo.after hostOps3 V (Proc.devRef .tc r) = V (Proc.devRef .tc r) :=
  StableHlo.after_of_writes_sub hostOps3 V (by
    simp only [List.Forall, StableHlo.nullary_writes, StableHlo.unary_writes, StableHlo.binary_writes, StableHlo.reshape_writes, StableHlo.nary_writes,
      Finset.singleton_subset_iff, List.mem_toFinset]
    repeat' apply And.intro
    all_goals exact List.mem_map_of_mem (by decide)) h

/-- `main_arg0` ends as launched. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := keeps3 _ main_arg0 (by decide)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) := W4_of_ne m ρ c main_arg0 (by decide)
    _ = W2 m ρ c (Proc.devRef .tc main_arg0) := keeps1 _ main_arg0 (by decide)
    _ = W1 m ρ c (Proc.devRef .tc main_arg0) := W2_of_ne m ρ c main_arg0 (by decide)
    _ = W0 m ρ c (Proc.devRef .tc main_arg0) := keeps0 _ main_arg0 (by decide)
    _ = m ((c : Thread nD τ).loc main_arg0) := rfl
/-- `main_arg1` ends as launched. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := keeps3 _ main_arg1 (by decide)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) := W2_of_ne m ρ c main_arg1 (by decide)
    _ = W0 m ρ c (Proc.devRef .tc main_arg1) := keeps0 _ main_arg1 (by decide)
    _ = m ((c : Thread nD τ).loc main_arg1) := rfl
/-- `main_arg2` ends as launched. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := keeps3 _ main_arg2 (by decide)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) := W2_of_ne m ρ c main_arg2 (by decide)
    _ = W0 m ρ c (Proc.devRef .tc main_arg2) := keeps0 _ main_arg2 (by decide)
    _ = m ((c : Thread nD τ).loc main_arg2) := rfl
/-- `main_arg3` ends as launched. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := keeps3 _ main_arg3 (by decide)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := W2_of_ne m ρ c main_arg3 (by decide)
    _ = W0 m ρ c (Proc.devRef .tc main_arg3) := keeps0 _ main_arg3 (by decide)
    _ = m ((c : Thread nD τ).loc main_arg3) := rfl
/-- `main_arg4` ends as launched. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := keeps3 _ main_arg4 (by decide)
    _ = W5 m ρ c (Proc.devRef .tc main_arg4) := W6_of_ne m ρ c main_arg4 (by decide)
    _ = W4 m ρ c (Proc.devRef .tc main_arg4) := keeps2 _ main_arg4 (by decide)
    _ = W3 m ρ c (Proc.devRef .tc main_arg4) := W4_of_ne m ρ c main_arg4 (by decide)
    _ = W2 m ρ c (Proc.devRef .tc main_arg4) := keeps1 _ main_arg4 (by decide)
    _ = W1 m ρ c (Proc.devRef .tc main_arg4) := W2_of_ne m ρ c main_arg4 (by decide)
    _ = W0 m ρ c (Proc.devRef .tc main_arg4) := keeps0 _ main_arg4 (by decide)
    _ = m ((c : Thread nD τ).loc main_arg4) := rfl
/-- `main_arg5` ends as launched. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := keeps3 _ main_arg5 (by decide)
    _ = W5 m ρ c (Proc.devRef .tc main_arg5) := W6_of_ne m ρ c main_arg5 (by decide)
    _ = W4 m ρ c (Proc.devRef .tc main_arg5) := keeps2 _ main_arg5 (by decide)
    _ = W3 m ρ c (Proc.devRef .tc main_arg5) := W4_of_ne m ρ c main_arg5 (by decide)
    _ = W2 m ρ c (Proc.devRef .tc main_arg5) := keeps1 _ main_arg5 (by decide)
    _ = W1 m ρ c (Proc.devRef .tc main_arg5) := W2_of_ne m ρ c main_arg5 (by decide)
    _ = W0 m ρ c (Proc.devRef .tc main_arg5) := keeps0 _ main_arg5 (by decide)
    _ = m ((c : Thread nD τ).loc main_arg5) := rfl
/-- `main_arg6` ends as launched. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := keeps3 _ main_arg6 (by decide)
    _ = W5 m ρ c (Proc.devRef .tc main_arg6) := W6_of_ne m ρ c main_arg6 (by decide)
    _ = W4 m ρ c (Proc.devRef .tc main_arg6) := keeps2 _ main_arg6 (by decide)
    _ = W3 m ρ c (Proc.devRef .tc main_arg6) := W4_of_ne m ρ c main_arg6 (by decide)
    _ = W2 m ρ c (Proc.devRef .tc main_arg6) := keeps1 _ main_arg6 (by decide)
    _ = W1 m ρ c (Proc.devRef .tc main_arg6) := W2_of_ne m ρ c main_arg6 (by decide)
    _ = W0 m ρ c (Proc.devRef .tc main_arg6) := keeps0 _ main_arg6 (by decide)
    _ = m ((c : Thread nD τ).loc main_arg6) := rfl
/-- `main_arg7` ends as launched. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := keeps3 _ main_arg7 (by decide)
    _ = W5 m ρ c (Proc.devRef .tc main_arg7) := W6_of_ne m ρ c main_arg7 (by decide)
    _ = W4 m ρ c (Proc.devRef .tc main_arg7) := keeps2 _ main_arg7 (by decide)
    _ = W3 m ρ c (Proc.devRef .tc main_arg7) := W4_of_ne m ρ c main_arg7 (by decide)
    _ = W2 m ρ c (Proc.devRef .tc main_arg7) := keeps1 _ main_arg7 (by decide)
    _ = W1 m ρ c (Proc.devRef .tc main_arg7) := W2_of_ne m ρ c main_arg7 (by decide)
    _ = W0 m ρ c (Proc.devRef .tc main_arg7) := keeps0 _ main_arg7 (by decide)
    _ = m ((c : Thread nD τ).loc main_arg7) := rfl
/-- `main_arg8` ends as launched. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := keeps3 _ main_arg8 (by decide)
    _ = W5 m ρ c (Proc.devRef .tc main_arg8) := W6_of_ne m ρ c main_arg8 (by decide)
    _ = W4 m ρ c (Proc.devRef .tc main_arg8) := keeps2 _ main_arg8 (by decide)
    _ = W3 m ρ c (Proc.devRef .tc main_arg8) := W4_of_ne m ρ c main_arg8 (by decide)
    _ = W2 m ρ c (Proc.devRef .tc main_arg8) := keeps1 _ main_arg8 (by decide)
    _ = W1 m ρ c (Proc.devRef .tc main_arg8) := W2_of_ne m ρ c main_arg8 (by decide)
    _ = W0 m ρ c (Proc.devRef .tc main_arg8) := keeps0 _ main_arg8 (by decide)
    _ = m ((c : Thread nD τ).loc main_arg8) := rfl

/-! # The proof data family and the thread state -/

/-- The prefetched tables' admissible contents: no kernel has a table. -/
abbrev adm : (p : Fin 3) → (pcfgs (F := F) p).Adm := fun p => (cfgs p).toPCfg_adm
/-- Every kernel's proof data, each at its own entry contents. A literal `match`, so that the pinned configuration
    at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it ends with
    those buffers at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues (the chain ends at it BESIDE the core owing nothing): every unscoped
    buffer at the last boundary's contents, the generator register at some state. -/
abbrev Tₙ (c : Dev nD) : sProp 𝕄 := iprop(StableHlo.held (c : Thread nD τ) (Pipeline.ucRefs τ sig) (W7 m ρ c) ∗ ∃ r, prngReg c r)
/-- The last host stretch's exit state, regrouped: the buffers at the last boundary's contents with the generator
    register on one side, the dues (nothing) on the other. -/
theorem last_regroup (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-! # The kernels as segments -/

set_option backward.isDefEq.respectTransparency.types false in
/-- The projection kernel (custom_call 0) over the thread state: entered from every unscoped buffer at `W1`, left at `W2` (what
    the next segment is entered from). Its arrays are split out of the unscoped buffers and put back at the exit
    contents; the generator register goes into the class invariant and comes out; nothing is owed; the kernel has no
    semaphore of its own. -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel (custom_call 1) over the thread state: entered from every unscoped buffer at `W3`, left at `W4` (what
    the next segment is entered from). Its arrays are split out of the unscoped buffers and put back at the exit
    contents; the generator register goes into the class invariant and comes out; nothing is owed; the kernel has no
    semaphore of its own. -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection (custom_call 2) over the thread state: entered from every unscoped buffer at `W5`, left at `W6` (what
    the next segment is entered from). Its arrays are split out of the unscoped buffers and put back at the exit
    contents; the generator register goes into the class invariant and comes out; nothing is owed; the kernel has no
    semaphore of its own. -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's seven segments in order: a host segment per stretch from its boundary's contents, a region per kernel. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2),
    .host (hseg hostOps3 hostOps3_sub hostOps3_fresh (W6 m ρ)) ]
/-- @main IS the run of the segments: @main is the chain of its seven items, and the segments' run is that chain
    by definitional unfolding. -/
theorem main_run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (c : Dev nD) : main (F := F) c = Pipeline.Seg.run (segs m ρ hb0 hb1 hb2) := (main_chain c).trans (by chain_rfl)

set_option backward.isDefEq.respectTransparency.types false in
/-- THE RUN: at the compiled mesh, from any memory with zero counters, every weakly fair execution of @main on the
    TensorCores terminates, nothing faulting, and in every final state every UNSCOPED buffer of every core holds the
    last boundary's contents -- given that each kernel's body meets its obligation at any entry contents. The launch
    over the seven segments: the thread states chain (each segment is entered from exactly what the one before it
    left; the last host stretch leaves the buffers at `W7` beside the generator register and the dues at nothing,
    regrouped), and the last thread state is read against the final state buffer by buffer. -/
theorem run (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ hb0 hb1 hb2)
    (fun c Q => by rw [main_run m ρ hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_regroup m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame claim at any `F`: in every final state each of the nine argument arrays holds its launch contents --
    the run's reading at an argument's buffer, walked back through the fold. -/
theorem frame (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ hb0 hb1 hb2)

/-- info: 'Cert.KernelIdeal.Hand.run' depends on axioms: [propext, Classical.choice, Quot.sound] -/
#guard_msgs in #print axioms run

end Cert.KernelIdeal.Hand

end
-- ==== Proof.KI.Body0.lean ====
/- Region 0 of @main, the fused query/key/value projection: the body half of its frame. The body loads its three
   input windows' staging buffers whole, computes, and stores each of its three output windows' staging buffers whole
   (each store preceded by a load of that buffer whose value is not used); so what it leaves in an output buffer is a
   closed function of the three input blocks (`out0_3`, `out0_4`, `out0_5`), and what it finds in an input buffer
   is that window's block at the point — for the weights and the bias, which are fetched at the first grid point
   only, because their block index never moves. -/
import proofs.«178435_j39754217292149_2_alg».proof.Proof.Gen.KernelIdeal.Launch
import proofs.«178435_j39754217292149_2_alg».proof.Proof.Gen.KernelIdeal.Skeleton
import proofs.«178435_j39754217292149_2_alg».proof.Proof.Gen.KernelIdeal.Points
import proofs.«178435_j39754217292149_2_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__qkv_kernel` (pipeline 0), at the entry contents `V` -/

/-! ## What the body finds in each input window's buffer -/

/-- Input window 0's current staging buffer holds its block at every point, fetched there or not, for ANY proof
    data whose array is `V`'s (`hA`) and whose body leaves the block in place (`hafter`): where the window is not
    fetched its block index has not moved, so the previous point's block is this point's (the activations: fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): where the window is not
    fetched its block index has not moved, so the previous point's block is this point's (the fused weights: one block, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): where the window is not
    fetched its block index has not moved, so the previous point's block is this point's (the fused bias: one block, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The stores cover the output buffers -/

/-- One whole-buffer store tiles a 1024x1024 buffer, so it covers it: every output window's cover. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y
theorem cover0_4 (p0 : Vec F S1024x1024 .bf16) (y : S1024x1024.Idx) :
    ∃ pc ∈ ([⟨r0_0, p0⟩] : List (View.Piece (Elt F) S1024x1024 .bf16)), y ∈ pc.1.set := cover0_3 p0 y
theorem cover0_5 (p0 : Vec F S1024x1024 .bf16) (y : S1024x1024.Idx) :
    ∃ pc ∈ ([⟨r0_0, p0⟩] : List (View.Piece (Elt F) S1024x1024 .bf16)), y ∈ pc.1.set := cover0_3 p0 y

/-! ## The body's triple -/

set_option maxHeartbeats 1000000 in
/-- The kernel body on whole staging memrefs, the inputs' at read contents `x0`, `x1`, `x2` and the outputs' at
    anything, runs to the continuation holding the inputs' as they were and each output's at `out0_W` of the
    inputs': the printed function is its skeleton of memory operations over payloads, which is run operation by
    operation; each output buffer then reads as the canonical contents of its one covering store. -/
theorem sound_kernel0 (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## What the proof data's inputs hold before the body -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«178435_j39754217292149_2_alg».proof.Proof.KI.Dat1

/-! # Region 1 (the per-head attention call): the body's triple and the body obligation

At the region-entry contents `V`: every input window's staging buffer holds that window's block when the body
starts (fetched at the point or kept from the point before); the body, run on whole staging buffers, leaves the
inputs as they were and the output buffer at `out1_3` of the inputs; hence the pipeline's body obligation for the
proof data `dat1`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0 (the queries' block `[1, 256, 16, 64]`, a new block at every point) holds its block at every
    point, for ANY proof data whose array is `V`'s (`hA`) and whose body leaves the block in place (`hafter`):
    the window is uncut and never idle, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the keys' block `[1, 2048, 16, 64]`, which changes only with the first grid coordinate) holds
    its block at every point: at the seven points out of eight where it is not fetched, the buffer still holds the
    previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the values' block `[1, 2048, 16, 64]`), likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The body's one store is of the whole buffer (one block of the buffer's own size), so it covers it. -/
theorem cover1_3 (p0 : Vec F S1x256x16x64 .bf16) (y : S1x256x16x64.Idx) :
    ∃ pc ∈ ([⟨r1_0, p0⟩] : List (View.Piece (Elt F) S1x256x16x64 .bf16)), y ∈ pc.1.set :=
  View.cover_of_tiled [⟨r1_0, p0⟩] S1x256x16x64.size (by rfl) y

/-! ## The body's triple -/

set_option maxHeartbeats 4000000 in
/-- The kernel body on whole staging memrefs, the three inputs' at read contents `x0`, `x1`, `x2` and the output's
    at anything, runs to the continuation holding the inputs' as they were and the output's at `out1_3 x0 x1 x2`.
    The printed function and its seven parts are their skeletons of memory operations over payloads; run in order
    these are three whole-buffer loads, one load of the output buffer whose value is never used, and one
    whole-buffer store, after which what the output's view reads is the canonical contents of that one piece. -/
theorem sound_kernel1 (c : Dev nD) (E : Set ℕ) (i : grid1.Coords)
    (arg0 : Memref sig .tc .vmem S1x256x16x64 .bf16) (harg0 : arg0.IsWhole)
    (arg1 : Memref sig .tc .vmem S1x2048x16x64 .bf16) (harg1 : arg1.IsWhole)
    (arg2 : Memref sig .tc .vmem S1x2048x16x64 .bf16) (harg2 : arg2.IsWhole)
    (arg3 : Memref sig .tc .vmem S1x256x16x64 .bf16) (harg3 : arg3.IsWhole)
    (x0 : Vec F S1x256x16x64 .bf16) (x1 : Vec F S1x2048x16x64 .bf16) (x2 : Vec F S1x2048x16x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton, k1_part2_eq_skeleton, k1_part3_eq_skeleton, k1_part4_eq_skeleton, k1_part5_eq_skeleton,
    k1_part6_eq_skeleton, k1_part7_eq_skeleton]
  unfold k1_part1_skel k1_part2_skel k1_part3_skel k1_part4_skel k1_part5_skel k1_part6_skel k1_part7_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The windows' buffers when the body starts -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and the four windows' current
    staging buffers at what the pipeline left in them, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks (`before1_0`, `before1_1`, `before1_2`),
    so `sound_kernel1` applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- Region 2 of @main, the output projection: the body half of its frame. The body loads its three input windows'
   staging buffers whole, computes, and stores its output window's staging buffer whole (the store preceded by a load
   of that buffer whose value is not used); so what it leaves in the output buffer is a closed function of the three
   input blocks (`out2_3`), and what it finds in an input buffer is that window's block at the point — for the
   weights and the bias, which are fetched at the first grid point only, because their block index never moves. -/
import proofs.«178435_j39754217292149_2_alg».proof.Proof.Gen.KernelIdeal.Launch
import proofs.«178435_j39754217292149_2_alg».proof.Proof.Gen.KernelIdeal.Skeleton
import proofs.«178435_j39754217292149_2_alg».proof.Proof.Gen.KernelIdeal.Points
import proofs.«178435_j39754217292149_2_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extents 1024 and 3072: a membership term is as deep as the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__linear_kernel` (pipeline 2), at the entry contents `V` -/

/-! ## What the body finds in each input window's buffer -/

/-- Input window 0's current staging buffer holds its block at every point, fetched there or not, for ANY proof
    data whose array is `V`'s (`hA`) and whose body leaves the block in place (`hafter`): where the window is not
    fetched its block index has not moved, so the previous point's block is this point's (the activations: fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): where the window is not
    fetched its block index has not moved, so the previous point's block is this point's (the weights: one block, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): where the window is not
    fetched its block index has not moved, so the previous point's block is this point's (the bias: one block, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The store covers the output buffer -/

/-- One whole-buffer store tiles the 1024x1024 buffer, so it covers it. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `x0`, `x1`, `x2` and the output's at
    anything, runs to the continuation holding the inputs' as they were and the output's at `out2_3` of the inputs':
    the printed function is its skeleton of memory operations over payloads, which is run operation by operation;
    the output buffer then reads as the canonical contents of its one covering store. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## What the proof data's inputs hold before the body -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Frame.lean ====
/-
  The run and the frame claim of @main with the three kernels' body obligations discharged: each kernel's body
  meets its obligation at any entry contents, so from any memory with zero counters every weakly fair execution
  of @main terminates, faults nowhere, ends with every unscoped buffer at the last boundary's contents, and in
  particular with each of the nine argument arrays as launched.
-/
import proofs.«178435_j39754217292149_2_alg».proof.Proof.KI.Run
import proofs.«178435_j39754217292149_2_alg».proof.Proof.KI.Body0
import proofs.«178435_j39754217292149_2_alg».proof.Proof.KI.Body1
import proofs.«178435_j39754217292149_2_alg».proof.Proof.KI.Body2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE RUN: @main terminates, faults nowhere, and every unscoped buffer ends at the last boundary's contents. -/
theorem run' : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  run m ρ body_obligation0 body_obligation1 body_obligation2

/-- The frame claim at any `F`: in every final state each of the nine argument arrays holds its launch contents. -/
theorem frame' : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame m ρ body_obligation0 body_obligation1 body_obligation2

/-- info: 'Cert.KernelIdeal.Hand.frame'' depends on axioms: [propext, Classical.choice, Quot.sound] -/
#guard_msgs in #print axioms frame'

end Cert.KernelIdeal.Hand

end
-- ==== Proof.KI.Host.lean ====
/-
  What the four stretches of host operations between the three kernel regions write, as functions of the buffer
  contents they start from (any contents `Wv`): the input flattened to [8192, 1024]; the three weight matrices
  transposed and laid side by side as one [1024, 3072] matrix; the three biases laid end to end as one [1, 3072] row; the
  projections cut into heads by a reshape; the heads laid side by side again by a reshape; the output weight transposed, the
  output bias as a row; the result given its batch axis back.
-/
import proofs.«178435_j39754217292149_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo

/-- A buffer's contents at the ideal values: a function from the indices of its shape to the extended reals. -/
abbrev Cn (T : BufTy) : Type := T.Contents (Elt Ideal)

/-- An operation over a literal family of THREE operands writes its function of the three operands' contents, each read
    at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The contents of one buffer after a literal list of host operations, by rewriting: each operation's result at its own
    buffer is its function's value, at any other buffer what was there; a three-operand operation by `nary3_result`. -/
macro "host_results" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

variable (Wv : Valuation τ sig (Elt Ideal))

/-! ## Before the projection kernel -/

/-- The input with batch and position flattened into one row axis. -/
theorem host0_v0 : (StableHlo.after (hostOps0 (F := Ideal)) Wv (Proc.devRef .tc main_v0) : Cn ⟨S8192x1024, .f32⟩)
    = shapeCast S8192x1024 (Wv (Proc.devRef .tc main_arg0) : Cn ⟨S4x2048x1024, .f32⟩) shapeCasts_S4x2048x1024_S8192x1024 := by
  host_results
  rfl

/-- The three transposed weights side by side, in the kernel's operand format. -/
theorem host0_v5 : (StableHlo.after (hostOps0 (F := Ideal)) Wv (Proc.devRef .tc main_v5) : Cn ⟨S1024x3072, .bf16⟩)
    = truncf (F := Ideal) .bf16 (concatenate S1024x3072 1
        [⟨S1024x1024, transpose S1024x1024 [1, 0] (Wv (Proc.devRef .tc main_arg1) : Cn ⟨S1024x1024, .f32⟩) transposes_S1024x1024_S1024x1024_1_0⟩,
         ⟨S1024x1024, transpose S1024x1024 [1, 0] (Wv (Proc.devRef .tc main_arg3) : Cn ⟨S1024x1024, .f32⟩) transposes_S1024x1024_S1024x1024_1_0⟩,
         ⟨S1024x1024, transpose S1024x1024 [1, 0] (Wv (Proc.devRef .tc main_arg5) : Cn ⟨S1024x1024, .f32⟩) transposes_S1024x1024_S1024x1024_1_0⟩]
        concatenates_S1024x1024_S1024x1024_S1024x1024_S1024x3072_d1) bitsLt_bf16_f32 := by
  host_results
  rfl

/-- The three biases end to end, as one row. -/
theorem host0_v7 : (StableHlo.after (hostOps0 (F := Ideal)) Wv (Proc.devRef .tc main_v7) : Cn ⟨S1x3072, .f32⟩)
    = shapeCast S1x3072 (concatenate S3072 0
        [⟨S1024, (Wv (Proc.devRef .tc main_arg2) : Cn ⟨S1024, .f32⟩)⟩,
         ⟨S1024, (Wv (Proc.devRef .tc main_arg4) : Cn ⟨S1024, .f32⟩)⟩,
         ⟨S1024, (Wv (Proc.devRef .tc main_arg6) : Cn ⟨S1024, .f32⟩)⟩]
        concatenates_S1024_S1024_S1024_S3072_d0) shapeCasts_S3072_S1x3072 := by
  host_results
  rfl

/-- No operation before the projection kernel writes the output layer's weight or bias. -/
theorem host0_arg7 : StableHlo.after (hostOps0 (F := Ideal)) Wv (Proc.devRef .tc main_arg7) = Wv (Proc.devRef .tc main_arg7) := by
  host_results
theorem host0_arg8 : StableHlo.after (hostOps0 (F := Ideal)) Wv (Proc.devRef .tc main_arg8) = Wv (Proc.devRef .tc main_arg8) := by
  host_results

/-! ## Between the projection kernel and the attention kernel -/

/-- Queries, keys and values: the 1024 features of each row cut into 16 heads of 64 lanes, the rows into batch and position. -/
theorem host1_v9 : (StableHlo.after (hostOps1 (F := Ideal)) Wv (Proc.devRef .tc main_v9) : Cn ⟨S4x2048x16x64, .bf16⟩)
    = shapeCast S4x2048x16x64 (Wv (Proc.devRef .tc main_v8_0) : Cn ⟨S8192x1024, .bf16⟩) shapeCasts_S8192x1024_S4x2048x16x64 := by
  host_results
  rfl
theorem host1_v10 : (StableHlo.after (hostOps1 (F := Ideal)) Wv (Proc.devRef .tc main_v10) : Cn ⟨S4x2048x16x64, .bf16⟩)
    = shapeCast S4x2048x16x64 (Wv (Proc.devRef .tc main_v8_1) : Cn ⟨S8192x1024, .bf16⟩) shapeCasts_S8192x1024_S4x2048x16x64 := by
  host_results
  rfl
theorem host1_v11 : (StableHlo.after (hostOps1 (F := Ideal)) Wv (Proc.devRef .tc main_v11) : Cn ⟨S4x2048x16x64, .bf16⟩)
    = shapeCast S4x2048x16x64 (Wv (Proc.devRef .tc main_v8_2) : Cn ⟨S8192x1024, .bf16⟩) shapeCasts_S8192x1024_S4x2048x16x64 := by
  host_results
  rfl
theorem host1_arg7 : StableHlo.after (hostOps1 (F := Ideal)) Wv (Proc.devRef .tc main_arg7) = Wv (Proc.devRef .tc main_arg7) := by
  host_results
theorem host1_arg8 : StableHlo.after (hostOps1 (F := Ideal)) Wv (Proc.devRef .tc main_arg8) = Wv (Proc.devRef .tc main_arg8) := by
  host_results

/-! ## Between the attention kernel and the output projection -/

/-- The heads side by side again, batch and position flattened. -/
theorem host2_v13 : (StableHlo.after (hostOps2 (F := Ideal)) Wv (Proc.devRef .tc main_v13) : Cn ⟨S8192x1024, .bf16⟩)
    = shapeCast S8192x1024 (Wv (Proc.devRef .tc main_v12) : Cn ⟨S4x2048x16x64, .bf16⟩) shapeCasts_S4x2048x16x64_S8192x1024 := by
  host_results
  rfl
/-- The output weight transposed, in the kernel's operand format. -/
theorem host2_v15 : (StableHlo.after (hostOps2 (F := Ideal)) Wv (Proc.devRef .tc main_v15) : Cn ⟨S1024x1024, .bf16⟩)
    = truncf (F := Ideal) .bf16 (transpose S1024x1024 [1, 0] (Wv (Proc.devRef .tc main_arg7) : Cn ⟨S1024x1024, .f32⟩) transposes_S1024x1024_S1024x1024_1_0) bitsLt_bf16_f32 := by
  host_results
/-- The output bias as a row. -/
theorem host2_v16 : (StableHlo.after (hostOps2 (F := Ideal)) Wv (Proc.devRef .tc main_v16) : Cn ⟨S1x1024, .f32⟩)
    = shapeCast S1x1024 (Wv (Proc.devRef .tc main_arg8) : Cn ⟨S1024, .f32⟩) shapeCasts_S1024_S1x1024 := by
  host_results
  rfl

/-! ## After the output projection -/

/-- The result with its batch axis back. -/
theorem host3_v18 : (StableHlo.after (hostOps3 (F := Ideal)) Wv (Proc.devRef .tc main_v18) : Cn ⟨S4x2048x1024, .f32⟩)
    = shapeCast S4x2048x1024 (Wv (Proc.devRef .tc main_v17) : Cn ⟨S8192x1024, .f32⟩) shapeCasts_S8192x1024_S4x2048x1024 := by
  host_results
  rfl

end Cert.KernelIdeal.Hand

end
-- ==== Proof.Spec.lean ====
/-
  Multi-head self-attention, index by index, over the extended reals.

  An input `x` of shape [4, 2048, 1024] (batch, position, feature) passes through three linear layers
  `x · Wᵀ + b` (queries, keys, values); the 1024 features are cut into 16 heads of 64 lanes (feature `h·64 + d` is lane
  `d` of head `h`); within a batch element and a head, position `s` scores position `t` by the inner product of its
  query with `t`'s key, scaled by 1/8; a row of scores is shifted by its maximum, exponentiated and divided by its sum;
  the result weights the values; the heads are laid side by side again and pass through a fourth linear layer.
  Every sum is a `Finset` sum over a literal `Fin`, every maximum the fold of `max` from the pattern of `-∞`: the forms
  in which a lane reduction, a host reduction and both matrix products read at an index.
-/
import Idealize.ShloMosaic.PureOps.Ideal
import Idealize.ShloMosaic.Lib.ValueIdx

noncomputable section

namespace Cert.Spec

open Idealize.ShloMosaic Idealize.ShloMosaic.ValueIdx

/-- [batch, position, feature] arrays, weight matrices [out, in], bias vectors, and [batch, position, head, lane] arrays. -/
abbrev SX : Shape := ⟨3, ![4, 2048, 1024]⟩
abbrev SW : Shape := ⟨2, ![1024, 1024]⟩
abbrev SB : Shape := ⟨1, ![1024]⟩
abbrev SH : Shape := ⟨4, ![4, 2048, 16, 64]⟩
abbrev X := SX.Idx → EReal
abbrev Wt := SW.Idx → EReal
abbrev Bs := SB.Idx → EReal
abbrev Hd := SH.Idx → EReal

/-- The scale 1/8 = 1/√64, as the binary pattern both programs carry. -/
abbrev scale : EReal := Ideal.ofBits .f32 0x3E000000#32
/-- The pattern of `-∞`, from which both programs fold their row maxima. -/
abbrev negInf : EReal := Ideal.ofBits .f32 0xFF800000#32

/-- Feature `h·64 + d`: lane `d` of head `h`. -/
def feat (h : Fin 16) (d : Fin 64) : Fin 1024 := ⟨h.val * 64 + d.val, by omega⟩
/-- The head and the lane of a feature. -/
def headOf (j : Fin 1024) : Fin 16 := ⟨j.val / 64, by omega⟩
def laneOf (j : Fin 1024) : Fin 64 := ⟨j.val % 64, Nat.mod_lt _ (by decide)⟩

theorem feat_headOf_laneOf (j : Fin 1024) : feat (headOf j) (laneOf j) = j :=
  Fin.ext (by show j.val / 64 * 64 + j.val % 64 = j.val; omega)
theorem headOf_feat (h : Fin 16) (d : Fin 64) : headOf (feat h d) = h :=
  Fin.ext (by show (h.val * 64 + d.val) / 64 = h.val; omega)
theorem laneOf_feat (h : Fin 16) (d : Fin 64) : laneOf (feat h d) = d :=
  Fin.ext (by show (h.val * 64 + d.val) % 64 = d.val; omega)

/-- A linear layer at batch `n`, position `s`, output feature `e`: row `(n, s)` of `x` against row `e` of `W`, plus `b e`. -/
def linAt (x : X) (W : Wt) (b : Bs) (n : Fin 4) (s : Fin 2048) (e : Fin 1024) : EReal :=
  (∑ k : Fin 1024, x (ix3 n s k) * W (ix2 e k)) + b (ix1 e)
def lin (x : X) (W : Wt) (b : Bs) : X := fun i => linAt x W b (i 0) (i 1) (i 2)

/-- The features cut into heads, and laid side by side again. -/
def split (y : X) : Hd := fun i => y (ix3 (i 0) (i 1) (feat (i 2) (i 3)))
def merge (y : Hd) : X := fun i => y (ix4 (i 0) (i 1) (headOf (i 2)) (laneOf (i 2)))

/-- The score of position `t` for position `s` in batch element `n`, head `h`. -/
def score (q k : Hd) (n : Fin 4) (h : Fin 16) (s t : Fin 2048) : EReal :=
  (∑ d : Fin 64, q (ix4 n s h d) * k (ix4 n t h d)) * scale
/-- A row's maximum. -/
def rowMax (f : Fin 2048 → EReal) : EReal := (Finset.univ : Finset (Fin 2048)).fold max negInf f
/-- A row of scores shifted by its maximum and exponentiated. -/
def expo (q k : Hd) (n : Fin 4) (h : Fin 16) (s t : Fin 2048) : EReal :=
  Ideal.exp (score q k n h s t - rowMax (fun t' => score q k n h s t'))
/-- The softmax weights. -/
def prob (q k : Hd) (n : Fin 4) (h : Fin 16) (s t : Fin 2048) : EReal :=
  Ideal.div (expo q k n h s t) (∑ t' : Fin 2048, expo q k n h s t')
/-- Attention at batch `n`, position `s`, head `h`, lane `d`. -/
def attnAt (q k v : Hd) (n : Fin 4) (s : Fin 2048) (h : Fin 16) (d : Fin 64) : EReal :=
  ∑ t : Fin 2048, prob q k n h s t * v (ix4 n t h d)
def attn (q k v : Hd) : Hd := fun i => attnAt q k v (i 0) (i 1) (i 2) (i 3)

/-- The whole layer. -/
def result (x : X) (Wq : Wt) (bq : Bs) (Wk : Wt) (bk : Bs) (Wv : Wt) (bv : Bs) (Wp : Wt) (bp : Bs) : X :=
  lin (merge (attn (split (lin x Wq bq)) (split (lin x Wk bk)) (split (lin x Wv bv)))) Wp bp

end Cert.Spec

end
-- ==== Proof.Layout.lean ====
/-
  Reshapes, a transposed matrix and three pieces laid side by side, each read at an index. Flattening batch and position
  sends `(n, s)` to row `n·2048 + s`; cutting 1024 features into 16 heads of 64 lanes sends feature `h·64 + d` to `(h, d)`;
  both are the same position in row-major order, which is all a reshape preserves.
-/
import proofs.«178435_j39754217292149_2_alg».proof.Proof.Spec
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx Cert.Spec

variable {α : Type}

/-- [8192, 1024]: batch and position flattened. -/
abbrev S2 : Shape := ⟨2, ![8192, 1024]⟩
/-- [1024, 3072] and [1, 3072], [3072]: three weights side by side, three biases end to end. -/
abbrev S3W : Shape := ⟨2, ![1024, 3072]⟩
abbrev S3R : Shape := ⟨2, ![1, 3072]⟩
abbrev S3B : Shape := ⟨1, ![3072]⟩
abbrev S1R : Shape := ⟨2, ![1, 1024]⟩

/-- Row `n·2048 + s` of the flattened arrays. -/
def row (n : Fin 4) (s : Fin 2048) : Fin 8192 := ⟨n.val * 2048 + s.val, by omega⟩
/-- Column `off + e` of the three weights side by side (`off` = 0, 1024 or 2048). -/
def col (off : Nat) (hoff : off + 1024 ≤ 3072) (e : Fin 1024) : Fin 3072 := ⟨off + e.val, by omega⟩

/-- [4, 2048, 1024] flattened to [8192, 1024], read at row `n·2048 + s`. -/
theorem flat3_apply (x : SX.Idx → α) (h : SX.ShapeCasts S2) (n : Fin 4) (s : Fin 2048) (k : Fin 1024) :
    shapeCast S2 x h (ix2 (row n s) k) = x (ix3 n s k) :=
  shapeCast_apply x h _ _ (by
    rw [Shape.rowMajor_val_three, Shape.rowMajor_val_two]
    show (n.val * 2048 + s.val) * 1024 + k.val = (n.val * 2048 + s.val) * 1024 + k.val
    rfl)

/-- [8192, 1024] given its batch axis back, read at `(n, s, e)`. -/
theorem unflat3_apply (x : S2.Idx → α) (h : S2.ShapeCasts SX) (n : Fin 4) (s : Fin 2048) (e : Fin 1024) :
    shapeCast SX x h (ix3 n s e) = x (ix2 (row n s) e) :=
  shapeCast_apply x h _ _ (by
    rw [Shape.rowMajor_val_three, Shape.rowMajor_val_two]
    show (n.val * 2048 + s.val) * 1024 + e.val = (n.val * 2048 + s.val) * 1024 + e.val
    rfl)

/-- [8192, 1024] cut into heads, read at `(n, s, h, d)`: row `n·2048 + s`, feature `h·64 + d`. -/
theorem heads_apply (x : S2.Idx → α) (h : S2.ShapeCasts SH) (n : Fin 4) (s : Fin 2048) (hh : Fin 16) (d : Fin 64) :
    shapeCast SH x h (ix4 n s hh d) = x (ix2 (row n s) (feat hh d)) :=
  shapeCast_apply x h _ _ (by
    rw [Shape.rowMajor_val_four, Shape.rowMajor_val_two]
    show (n.val * 2048 + s.val) * 1024 + (hh.val * 64 + d.val) = ((n.val * 2048 + s.val) * 16 + hh.val) * 64 + d.val
    ring)

/-- [4, 2048, 16, 64] with the heads side by side again and batch and position flattened, read at row `n·2048 + s`,
    feature `j`: head `j / 64`, lane `j % 64`. -/
theorem unheads_apply (x : SH.Idx → α) (h : SH.ShapeCasts S2) (n : Fin 4) (s : Fin 2048) (j : Fin 1024) :
    shapeCast S2 x h (ix2 (row n s) j) = x (ix4 n s (headOf j) (laneOf j)) :=
  shapeCast_apply x h _ _ (by
    rw [Shape.rowMajor_val_four, Shape.rowMajor_val_two]
    show ((n.val * 2048 + s.val) * 16 + j.val / 64) * 64 + j.val % 64 = (n.val * 2048 + s.val) * 1024 + j.val
    have := Nat.div_add_mod j.val 64
    omega)

/-- A [1024] vector as a [1, 1024] row. -/
theorem row1_apply (x : SB.Idx → α) (h : SB.ShapeCasts S1R) (e : Fin 1024) :
    shapeCast S1R x h (ix2 (0 : Fin 1) e) = x (ix1 e) :=
  shapeCast_a_1a_apply x h 0 e

/-- A transposed weight read at `(k, e)` is the weight at `(e, k)`. -/
theorem wT_apply (W : SW.Idx → α) (h : SW.Transposes [1, 0] SW) (k e : Fin 1024) :
    transpose SW [1, 0] W h (ix2 k e) = W (ix2 e k) :=
  transpose_ix2_apply W h k e

/-! ## Three pieces laid side by side -/

/-- Three [1024, 1024] matrices side by side, read in the first matrix's columns. -/
theorem cat3W_0 (A B C : SW.Idx → α) (h : Shape.Concatenates [SW, SW, SW] S3W 1) (k e : Fin 1024) :
    concatenate S3W 1 [⟨SW, A⟩, ⟨SW, B⟩, ⟨SW, C⟩] h (ix2 k (col 0 (by decide) e)) = A (ix2 k e) :=
  concatenate_apply_piece (t := S3W) 1 [⟨SW, A⟩, ⟨SW, B⟩, ⟨SW, C⟩] h (ix2 k (col 0 (by decide) e)) 0 (by simp) SW A rfl rfl 0 rfl (ix2 k e)
    (fun b hb => by match b with | ⟨0, _⟩ => rfl | ⟨1, _⟩ => exact absurd rfl hb) rfl
/-- … in the second matrix's columns, -/
theorem cat3W_1 (A B C : SW.Idx → α) (h : Shape.Concatenates [SW, SW, SW] S3W 1) (k e : Fin 1024) :
    concatenate S3W 1 [⟨SW, A⟩, ⟨SW, B⟩, ⟨SW, C⟩] h (ix2 k (col 1024 (by decide) e)) = B (ix2 k e) :=
  concatenate_apply_piece (t := S3W) 1 [⟨SW, A⟩, ⟨SW, B⟩, ⟨SW, C⟩] h (ix2 k (col 1024 (by decide) e)) 1 (by simp) SW B rfl rfl 1024 rfl (ix2 k e)
    (fun b hb => by match b with | ⟨0, _⟩ => rfl | ⟨1, _⟩ => exact absurd rfl hb) rfl
/-- … and in the third's. -/
theorem cat3W_2 (A B C : SW.Idx → α) (h : Shape.Concatenates [SW, SW, SW] S3W 1) (k e : Fin 1024) :
    concatenate S3W 1 [⟨SW, A⟩, ⟨SW, B⟩, ⟨SW, C⟩] h (ix2 k (col 2048 (by decide) e)) = C (ix2 k e) :=
  concatenate_apply_piece (t := S3W) 1 [⟨SW, A⟩, ⟨SW, B⟩, ⟨SW, C⟩] h (ix2 k (col 2048 (by decide) e)) 2 (by simp) SW C rfl rfl 2048 rfl (ix2 k e)
    (fun b hb => by match b with | ⟨0, _⟩ => rfl | ⟨1, _⟩ => exact absurd rfl hb) rfl

/-- Three [1024] vectors end to end as one [1, 3072] row, read in each vector's span. -/
theorem cat3B_0 (a b c : SB.Idx → α) (h : Shape.Concatenates [SB, SB, SB] S3B 0) (h' : S3B.ShapeCasts S3R) (e : Fin 1024) :
    shapeCast S3R (concatenate S3B 0 [⟨SB, a⟩, ⟨SB, b⟩, ⟨SB, c⟩] h) h' (ix2 (0 : Fin 1) (col 0 (by decide) e)) = a (ix1 e) :=
  (shapeCast_a_1a_apply _ h' 0 _).trans
    (concatenate_apply_piece (t := S3B) 0 [⟨SB, a⟩, ⟨SB, b⟩, ⟨SB, c⟩] h (ix1 (col 0 (by decide) e)) 0 (by simp) SB a rfl rfl 0 rfl (ix1 e)
      (fun b hb => by match b with | ⟨0, _⟩ => exact absurd rfl hb) rfl)
theorem cat3B_1 (a b c : SB.Idx → α) (h : Shape.Concatenates [SB, SB, SB] S3B 0) (h' : S3B.ShapeCasts S3R) (e : Fin 1024) :
    shapeCast S3R (concatenate S3B 0 [⟨SB, a⟩, ⟨SB, b⟩, ⟨SB, c⟩] h) h' (ix2 (0 : Fin 1) (col 1024 (by decide) e)) = b (ix1 e) :=
  (shapeCast_a_1a_apply _ h' 0 _).trans
    (concatenate_apply_piece (t := S3B) 0 [⟨SB, a⟩, ⟨SB, b⟩, ⟨SB, c⟩] h (ix1 (col 1024 (by decide) e)) 1 (by simp) SB b rfl rfl 1024 rfl (ix1 e)
      (fun b hb => by match b with | ⟨0, _⟩ => exact absurd rfl hb) rfl)
theorem cat3B_2 (a b c : SB.Idx → α) (h : Shape.Concatenates [SB, SB, SB] S3B 0) (h' : S3B.ShapeCasts S3R) (e : Fin 1024) :
    shapeCast S3R (concatenate S3B 0 [⟨SB, a⟩, ⟨SB, b⟩, ⟨SB, c⟩] h) h' (ix2 (0 : Fin 1) (col 2048 (by decide) e)) = c (ix1 e) :=
  (shapeCast_a_1a_apply _ h' 0 _).trans
    (concatenate_apply_piece (t := S3B) 0 [⟨SB, a⟩, ⟨SB, b⟩, ⟨SB, c⟩] h (ix1 (col 2048 (by decide) e)) 2 (by simp) SB c rfl rfl 2048 rfl (ix1 e)
      (fun b hb => by match b with | ⟨0, _⟩ => exact absurd rfl hb) rfl)

end Cert.Layout

end
-- ==== Proof.KI.HostIdx.lean ====
/-
  The host stretches' results read at an index, in the coordinates the specification uses: row `n·2048 + s` of a flattened
  array is `(n, s)`; column `off + e` of the three transposed weights side by side is row `e` of one weight; feature
  `h·64 + d` is lane `d` of head `h`.
-/
import proofs.«178435_j39754217292149_2_alg».proof.Proof.KI.Host
import proofs.«178435_j39754217292149_2_alg».proof.Proof.Layout

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.Layout Cert.Spec

variable (Wv : Valuation τ sig (Elt Ideal))

/-! ## Before the projection kernel -/

theorem host0_v0_at (n : Fin 4) (s : Fin 2048) (k : Fin 1024) :
    (StableHlo.after (hostOps0 (F := Ideal)) Wv (Proc.devRef .tc main_v0) : Cn ⟨S8192x1024, .f32⟩) (ix2 (row n s) k)
      = (Wv (Proc.devRef .tc main_arg0) : Cn ⟨S4x2048x1024, .f32⟩) (ix3 n s k) := by
  rw [host0_v0]; exact flat3_apply _ _ n s k

theorem host0_v5_q (k e : Fin 1024) :
    (StableHlo.after (hostOps0 (F := Ideal)) Wv (Proc.devRef .tc main_v5) : Cn ⟨S1024x3072, .bf16⟩) (ix2 k (col 0 (by decide) e))
      = (Wv (Proc.devRef .tc main_arg1) : Cn ⟨S1024x1024, .f32⟩) (ix2 e k) := by
  rw [host0_v5]; exact (cat3W_0 _ _ _ concatenates_S1024x1024_S1024x1024_S1024x1024_S1024x3072_d1 k e).trans (wT_apply _ _ k e)
theorem host0_v5_k (k e : Fin 1024) :
    (StableHlo.after (hostOps0 (F := Ideal)) Wv (Proc.devRef .tc main_v5) : Cn ⟨S1024x3072, .bf16⟩) (ix2 k (col 1024 (by decide) e))
      = (Wv (Proc.devRef .tc main_arg3) : Cn ⟨S1024x1024, .f32⟩) (ix2 e k) := by
  rw [host0_v5]; exact (cat3W_1 _ _ _ concatenates_S1024x1024_S1024x1024_S1024x1024_S1024x3072_d1 k e).trans (wT_apply _ _ k e)
theorem host0_v5_v (k e : Fin 1024) :
    (StableHlo.after (hostOps0 (F := Ideal)) Wv (Proc.devRef .tc main_v5) : Cn ⟨S1024x3072, .bf16⟩) (ix2 k (col 2048 (by decide) e))
      = (Wv (Proc.devRef .tc main_arg5) : Cn ⟨S1024x1024, .f32⟩) (ix2 e k) := by
  rw [host0_v5]; exact (cat3W_2 _ _ _ concatenates_S1024x1024_S1024x1024_S1024x1024_S1024x3072_d1 k e).trans (wT_apply _ _ k e)

theorem host0_v7_q (e : Fin 1024) :
    (StableHlo.after (hostOps0 (F := Ideal)) Wv (Proc.devRef .tc main_v7) : Cn ⟨S1x3072, .f32⟩) (ix2 (0 : Fin 1) (col 0 (by decide) e))
      = (Wv (Proc.devRef .tc main_arg2) : Cn ⟨S1024, .f32⟩) (ix1 e) := by
  rw [host0_v7]; exact cat3B_0 _ _ _ concatenates_S1024_S1024_S1024_S3072_d0 shapeCasts_S3072_S1x3072 e
theorem host0_v7_k (e : Fin 1024) :
    (StableHlo.after (hostOps0 (F := Ideal)) Wv (Proc.devRef .tc main_v7) : Cn ⟨S1x3072, .f32⟩) (ix2 (0 : Fin 1) (col 1024 (by decide) e))
      = (Wv (Proc.devRef .tc main_arg4) : Cn ⟨S1024, .f32⟩) (ix1 e) := by
  rw [host0_v7]; exact cat3B_1 _ _ _ concatenates_S1024_S1024_S1024_S3072_d0 shapeCasts_S3072_S1x3072 e
theorem host0_v7_v (e : Fin 1024) :
    (StableHlo.after (hostOps0 (F := Ideal)) Wv (Proc.devRef .tc main_v7) : Cn ⟨S1x3072, .f32⟩) (ix2 (0 : Fin 1) (col 2048 (by decide) e))
      = (Wv (Proc.devRef .tc main_arg6) : Cn ⟨S1024, .f32⟩) (ix1 e) := by
  rw [host0_v7]; exact cat3B_2 _ _ _ concatenates_S1024_S1024_S1024_S3072_d0 shapeCasts_S3072_S1x3072 e

/-! ## Between the kernels -/

theorem host1_v9_at (n : Fin 4) (s : Fin 2048) (h : Fin 16) (d : Fin 64) :
    (StableHlo.after (hostOps1 (F := Ideal)) Wv (Proc.devRef .tc main_v9) : Cn ⟨S4x2048x16x64, .bf16⟩) (ix4 n s h d)
      = (Wv (Proc.devRef .tc main_v8_0) : Cn ⟨S8192x1024, .bf16⟩) (ix2 (row n s) (feat h d)) := by
  rw [host1_v9]; exact heads_apply _ _ n s h d
theorem host1_v10_at (n : Fin 4) (s : Fin 2048) (h : Fin 16) (d : Fin 64) :
    (StableHlo.after (hostOps1 (F := Ideal)) Wv (Proc.devRef .tc main_v10) : Cn ⟨S4x2048x16x64, .bf16⟩) (ix4 n s h d)
      = (Wv (Proc.devRef .tc main_v8_1) : Cn ⟨S8192x1024, .bf16⟩) (ix2 (row n s) (feat h d)) := by
  rw [host1_v10]; exact heads_apply _ _ n s h d
theorem host1_v11_at (n : Fin 4) (s : Fin 2048) (h : Fin 16) (d : Fin 64) :
    (StableHlo.after (hostOps1 (F := Ideal)) Wv (Proc.devRef .tc main_v11) : Cn ⟨S4x2048x16x64, .bf16⟩) (ix4 n s h d)
      = (Wv (Proc.devRef .tc main_v8_2) : Cn ⟨S8192x1024, .bf16⟩) (ix2 (row n s) (feat h d)) := by
  rw [host1_v11]; exact heads_apply _ _ n s h d

theorem host2_v13_at (n : Fin 4) (s : Fin 2048) (j : Fin 1024) :
    (StableHlo.after (hostOps2 (F := Ideal)) Wv (Proc.devRef .tc main_v13) : Cn ⟨S8192x1024, .bf16⟩) (ix2 (row n s) j)
      = (Wv (Proc.devRef .tc main_v12) : Cn ⟨S4x2048x16x64, .bf16⟩) (ix4 n s (headOf j) (laneOf j)) := by
  rw [host2_v13]; exact unheads_apply _ _ n s j
theorem host2_v15_at (k e : Fin 1024) :
    (StableHlo.after (hostOps2 (F := Ideal)) Wv (Proc.devRef .tc main_v15) : Cn ⟨S1024x1024, .bf16⟩) (ix2 k e)
      = (Wv (Proc.devRef .tc main_arg7) : Cn ⟨S1024x1024, .f32⟩) (ix2 e k) := by
  rw [host2_v15]; exact wT_apply _ _ k e
theorem host2_v16_at (e : Fin 1024) :
    (StableHlo.after (hostOps2 (F := Ideal)) Wv (Proc.devRef .tc main_v16) : Cn ⟨S1x1024, .f32⟩) (ix2 (0 : Fin 1) e)
      = (Wv (Proc.devRef .tc main_arg8) : Cn ⟨S1024, .f32⟩) (ix1 e) := by
  rw [host2_v16]; exact row1_apply _ _ e

theorem host3_v18_at (n : Fin 4) (s : Fin 2048) (e : Fin 1024) :
    (StableHlo.after (hostOps3 (F := Ideal)) Wv (Proc.devRef .tc main_v18) : Cn ⟨S4x2048x1024, .f32⟩) (ix3 n s e)
      = (Wv (Proc.devRef .tc main_v17) : Cn ⟨S8192x1024, .f32⟩) (ix2 (row n s) e) := by
  rw [host3_v18]; exact unflat3_apply _ _ n s e

end Cert.KernelIdeal.Hand

end
-- ==== Proof.KI.LinMath.lean ====
import proofs.«178435_j39754217292149_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! # The two linear layers' arithmetic, one entry at a time

At the ideal values (extended reals) a row block of a linear layer is, entry by entry, a row of the activations
times a column of the weights plus that column's bias: the matrix unit's product into the zero accumulator is the
plain sum over the contracted axis, the changes of float format are the identity, and the bias row is repeated
down the rows. The fused query/key/value layer computes one [1024, 3072] product and cuts it into three
[1024, 1024] column blocks at column offsets 0, 1024 and 2048. -/

noncomputable section

namespace Cert.KernelIdeal.Hand

open Cert.KernelIdeal Cert.KernelIdeal.Gen
open Idealize.ShloMosaic Idealize.ShloMosaic.ValueIdx
open scoped BigOperators

/-! ## The output projection: [1024, 1024] times [1024, 1024] -/

/-- The dimension numbers of the output projection's product: rows times contraction, contraction times columns. -/
abbrev dotP := dot_S1024x1024_S1024x1024_S1024x1024_1_0_0_1_n_n

/-- The left operand is read at the output's row … -/
theorem dotP_lhs_0 (j : S1024x1024.Idx) (q : dotP.contr.Idx) : (dotP.lhsIdx j q 0).val = (j 0).val := by
  unfold DotDims.lhsIdx
  rw [dif_neg (show ¬(0 : Fin S1024x1024.rank) ∈ dotP.lhsBatch by decide), dif_pos (show (0 : Fin S1024x1024.rank) ∈ dotP.lhsNonContracting by decide)]
  rfl
/-- … and the contraction's coordinate; -/
theorem dotP_lhs_1 (j : S1024x1024.Idx) (q : dotP.contr.Idx) : (dotP.lhsIdx j q 1).val = (q ⟨0, by decide⟩).val :=
  dotP.lhsIdx_val_of_single rfl j q
/-- the right operand at the contraction's coordinate … -/
theorem dotP_rhs_0 (j : S1024x1024.Idx) (q : dotP.contr.Idx) : (dotP.rhsIdx j q 0).val = (q ⟨0, by decide⟩).val :=
  dotP.rhsIdx_val_of_single rfl j q
/-- … and the output's column. -/
theorem dotP_rhs_1 (j : S1024x1024.Idx) (q : dotP.contr.Idx) : (dotP.rhsIdx j q 1).val = (j 1).val := by
  unfold DotDims.rhsIdx
  rw [dif_neg (show ¬(1 : Fin S1024x1024.rank) ∈ dotP.rhsBatch by decide), dif_pos (show (1 : Fin S1024x1024.rank) ∈ dotP.rhsNonContracting by decide)]
  rfl

/-- The product into the zero accumulator, at entry `(p, q)`: row `p` of the left operand times column `q` of the
    right one, summed over the 1024 contracted coordinates. -/
theorem matmulP_apply (l r : FVec Ideal S1024x1024 .bf16) (p q : Fin 1024) :
    matmul dotP none l r (constant S1024x1024 .f32 0x00000000#32) (ix2 p q) = ∑ k : Fin 1024, l (ix2 p k) * r (ix2 k q) := by
  simp only [matmul]
  rw [Ideal.matmul_constant_zero_apply, ← Equiv.sum_comp (contrEquiv1 dotP 1024 rfl rfl).symm]
  refine Finset.sum_congr rfl fun k _ => ?_
  have hk := contrEquiv1_symm_val dotP 1024 rfl rfl k
  have el : dotP.lhsIdx (ix2 p q) ((contrEquiv1 dotP 1024 rfl rfl).symm k) = ix2 p k := funext fun a => Fin.ext (by
    match a with
    | ⟨0, _⟩ => exact dotP_lhs_0 _ _
    | ⟨1, _⟩ => exact (dotP_lhs_1 _ _).trans hk)
  have er : dotP.rhsIdx (ix2 p q) ((contrEquiv1 dotP 1024 rfl rfl).symm k) = ix2 k q := funext fun a => Fin.ext (by
    match a with
    | ⟨0, _⟩ => exact (dotP_rhs_0 _ _).trans hk
    | ⟨1, _⟩ => exact dotP_rhs_1 _ _)
  rw [el, er]

/-- The output projection's payload at entry `(p, q)` of a row block: row `p` of the activations' block times
    column `q` of the weights, plus the bias at `q`. -/
theorem k2_pay1_apply (x0 : Vec Ideal S1024x1024 .bf16) (x1 : Vec Ideal S1024x1024 .bf16) (x2 : Vec Ideal S1x1024 .f32)
    (p q : Fin 1024) :
    (k2_pay1 (F := Ideal) x0 x1 x2 : S1024x1024.Idx → EReal) (ix2 p q)
      = (∑ k : Fin 1024, (x0 : S1024x1024.Idx → EReal) (ix2 p k) * (x1 : S1024x1024.Idx → EReal) (ix2 k q))
        + (x2 : S1x1024.Idx → EReal) (ix2 0 q) := by
  unfold k2_pay1
  rw [addf_apply]
  simp only [shapeCast_self]
  rw [broadcastTo_1b_ab_apply, matmulP_apply]

/-! ## The fused query/key/value projection: [1024, 1024] times [1024, 3072], cut into three column blocks -/

/-- The dimension numbers of the fused projection's product. -/
abbrev dotQ := dot_S1024x1024_S1024x3072_S1024x3072_1_0_0_1_n_n

/-- The left operand is read at the output's row … -/
theorem dotQ_lhs_0 (j : S1024x3072.Idx) (q : dotQ.contr.Idx) : (dotQ.lhsIdx j q 0).val = (j 0).val := by
  unfold DotDims.lhsIdx
  rw [dif_neg (show ¬(0 : Fin S1024x1024.rank) ∈ dotQ.lhsBatch by decide), dif_pos (show (0 : Fin S1024x1024.rank) ∈ dotQ.lhsNonContracting by decide)]
  rfl
/-- … and the contraction's coordinate; -/
theorem dotQ_lhs_1 (j : S1024x3072.Idx) (q : dotQ.contr.Idx) : (dotQ.lhsIdx j q 1).val = (q ⟨0, by decide⟩).val :=
  dotQ.lhsIdx_val_of_single rfl j q
/-- the right operand at the contraction's coordinate … -/
theorem dotQ_rhs_0 (j : S1024x3072.Idx) (q : dotQ.contr.Idx) : (dotQ.rhsIdx j q 0).val = (q ⟨0, by decide⟩).val :=
  dotQ.rhsIdx_val_of_single rfl j q
/-- … and the output's column. -/
theorem dotQ_rhs_1 (j : S1024x3072.Idx) (q : dotQ.contr.Idx) : (dotQ.rhsIdx j q 1).val = (j 1).val := by
  unfold DotDims.rhsIdx
  rw [dif_neg (show ¬(1 : Fin S1024x3072.rank) ∈ dotQ.rhsBatch by decide), dif_pos (show (1 : Fin S1024x3072.rank) ∈ dotQ.rhsNonContracting by decide)]
  rfl

/-- The product into the zero accumulator, at entry `(p, q)`: row `p` of the left operand times column `q` of the
    right one, summed over the 1024 contracted coordinates. -/
theorem matmulQ_apply (l : FVec Ideal S1024x1024 .bf16) (r : FVec Ideal S1024x3072 .bf16) (p : Fin 1024) (q : Fin 3072) :
    matmul dotQ none l r (constant S1024x3072 .f32 0x00000000#32) (ix2 p q) = ∑ k : Fin 1024, l (ix2 p k) * r (ix2 k q) := by
  simp only [matmul]
  rw [Ideal.matmul_constant_zero_apply, ← Equiv.sum_comp (contrEquiv1 dotQ 1024 rfl rfl).symm]
  refine Finset.sum_congr rfl fun k _ => ?_
  have hk := contrEquiv1_symm_val dotQ 1024 rfl rfl k
  have el : dotQ.lhsIdx (ix2 p q) ((contrEquiv1 dotQ 1024 rfl rfl).symm k) = ix2 p k := funext fun a => Fin.ext (by
    match a with
    | ⟨0, _⟩ => exact dotQ_lhs_0 _ _
    | ⟨1, _⟩ => exact (dotQ_lhs_1 _ _).trans hk)
  have er : dotQ.rhsIdx (ix2 p q) ((contrEquiv1 dotQ 1024 rfl rfl).symm k) = ix2 k q := funext fun a => Fin.ext (by
    match a with
    | ⟨0, _⟩ => exact (dotQ_rhs_0 _ _).trans hk
    | ⟨1, _⟩ => exact dotQ_rhs_1 _ _)
  rw [el, er]

/-- The fused projection before the cut, at entry `(p, q)` of a row block, `q` among all 3072 columns: row `p` of
    the activations' block (its rounding to bf16 is the identity on ideal values) times column `q` of the fused
    weights, plus the fused bias at `q`. -/
theorem k0_pay1_apply (x0 : Vec Ideal S1024x1024 .f32) (x1 : Vec Ideal S1024x3072 .bf16) (x2 : Vec Ideal S1x3072 .f32)
    (p : Fin 1024) (q : Fin 3072) :
    (k0_pay1 (F := Ideal) x0 x1 x2 : S1024x3072.Idx → EReal) (ix2 p q)
      = (∑ k : Fin 1024, (x0 : S1024x1024.Idx → EReal) (ix2 p k) * (x1 : S1024x3072.Idx → EReal) (ix2 k q))
        + (x2 : S1x3072.Idx → EReal) (ix2 0 q) := by
  unfold k0_pay1
  rw [addf_apply]
  simp only [shapeCast_self]
  rw [broadcastTo_1b_ab_apply, matmulQ_apply]
  rfl

/-- Entry `(p, q)` of the query block is entry `(p, c)` of the fused projection, `c` the column `0 + q`. -/
theorem k0_pay2_apply (x0 : Vec Ideal S1024x1024 .f32) (x1 : Vec Ideal S1024x3072 .bf16) (x2 : Vec Ideal S1x3072 .f32)
    (p q : Fin 1024) (c : Fin 3072) (hc : c.val = 0 + q.val) :
    (k0_pay2 (F := Ideal) x0 x1 x2 : S1024x1024.Idx → EReal) (ix2 p q)
      = (∑ k : Fin 1024, (x0 : S1024x1024.Idx → EReal) (ix2 p k) * (x1 : S1024x3072.Idx → EReal) (ix2 k c))
        + (x2 : S1x3072.Idx → EReal) (ix2 0 c) := by
  unfold k0_pay2
  rw [truncf_apply]
  refine (extractStridedSlice_apply _ _ _ (ix2 p q) (ix2 p c) fun a => ?_).trans (k0_pay1_apply x0 x1 x2 p c)
  match a with
  | ⟨0, _⟩ => exact (Nat.zero_add _).symm
  | ⟨1, _⟩ => exact hc

/-- Entry `(p, q)` of the key block is entry `(p, c)` of the fused projection, `c` the column `1024 + q`. -/
theorem k0_pay3_apply (x0 : Vec Ideal S1024x1024 .f32) (x1 : Vec Ideal S1024x3072 .bf16) (x2 : Vec Ideal S1x3072 .f32)
    (p q : Fin 1024) (c : Fin 3072) (hc : c.val = 1024 + q.val) :
    (k0_pay3 (F := Ideal) x0 x1 x2 : S1024x1024.Idx → EReal) (ix2 p q)
      = (∑ k : Fin 1024, (x0 : S1024x1024.Idx → EReal) (ix2 p k) * (x1 : S1024x3072.Idx → EReal) (ix2 k c))
        + (x2 : S1x3072.Idx → EReal) (ix2 0 c) := by
  unfold k0_pay3
  rw [truncf_apply]
  refine (extractStridedSlice_apply _ _ _ (ix2 p q) (ix2 p c) fun a => ?_).trans (k0_pay1_apply x0 x1 x2 p c)
  match a with
  | ⟨0, _⟩ => exact (Nat.zero_add _).symm
  | ⟨1, _⟩ => exact hc

/-- Entry `(p, q)` of the value block is entry `(p, c)` of the fused projection, `c` the column `2048 + q`. -/
theorem k0_pay4_apply (x0 : Vec Ideal S1024x1024 .f32) (x1 : Vec Ideal S1024x3072 .bf16) (x2 : Vec Ideal S1x3072 .f32)
    (p q : Fin 1024) (c : Fin 3072) (hc : c.val = 2048 + q.val) :
    (k0_pay4 (F := Ideal) x0 x1 x2 : S1024x1024.Idx → EReal) (ix2 p q)
      = (∑ k : Fin 1024, (x0 : S1024x1024.Idx → EReal) (ix2 p k) * (x1 : S1024x3072.Idx → EReal) (ix2 k c))
        + (x2 : S1x3072.Idx → EReal) (ix2 0 c) := by
  unfold k0_pay4
  rw [truncf_apply]
  refine (extractStridedSlice_apply _ _ _ (ix2 p q) (ix2 p c) fun a => ?_).trans (k0_pay1_apply x0 x1 x2 p c)
  match a with
  | ⟨0, _⟩ => exact (Nat.zero_add _).symm
  | ⟨1, _⟩ => exact hc

end Cert.KernelIdeal.Hand

end
-- ==== Proof.KI.Val0.lean ====
import proofs.«178435_j39754217292149_2_alg».proof.Proof.KI.Dat0
import proofs.«178435_j39754217292149_2_alg».proof.Proof.KI.LinMath
import proofs.«178435_j39754217292149_2_alg».proof.Proof.Layout
import Idealize.ShloMosaic.Lib.Pipeline.Value
import Idealize.ShloMosaic.Lib.ValueIdx
import Idealize.ShloMosaic.Lib.ValueLayout
import Idealize.ShloMosaic.PureOps.Ideal.Laws

/-! # Region 0 (the fused query/key/value projection): the three output arrays after the region, at the ideal values

Every point of the grid writes back one [1024, 1024] row block of each of the three outputs; a block is the body's
payload of the point's three input blocks, the payload is a row of the activations times a column of the fused
weights plus the fused bias there (columns 0 … 1023 for the queries, 1024 … 2047 for the keys, 2048 … 3071 for the
values), and the input blocks are rows `t·1024 …` of the activations and the whole fused weights and bias. The
eight row blocks tile each [8192, 1024] array, so each array ends at its third of the fused linear layer of the
three arrays the region found. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The zero offsets of a whole-buffer access, as the constant function. -/
theorem hz0 : (![0, 0] : Fin 2 → Nat) = fun _ => 0 := funext fun a => by fin_cases a <;> rfl

/-! ## One third of the fused projection, as a function of whole arrays -/

/-- One of the three fused projections as ONE function of whole arrays: entry `(r, q)` is row `r` of the
    [8192, 1024] activations times column `off + q` of the [1024, 3072] fused weights, plus the fused bias at
    `off + q` (`off` = 0 for the queries, 1024 for the keys, 2048 for the values). -/
def lin0 (off : Nat) (hoff : off + 1024 ≤ 3072) (a0 : S8192x1024.Idx → EReal) (a1 : S1024x3072.Idx → EReal) (a2 : S1x3072.Idx → EReal) :
    S8192x1024.Idx → EReal :=
  fun i => (∑ k : Fin 1024, a0 (ix2 (i 0) k) * a1 (ix2 k (Cert.Layout.col off hoff (i 1))))
    + a2 (ix2 (0 : Fin 1) (Cert.Layout.col off hoff (i 1)))

theorem lin0_apply (off : Nat) (hoff : off + 1024 ≤ 3072) (a0 : S8192x1024.Idx → EReal) (a1 : S1024x3072.Idx → EReal) (a2 : S1x3072.Idx → EReal)
    (i : S8192x1024.Idx) :
    lin0 off hoff a0 a1 a2 i = (∑ k : Fin 1024, a0 (ix2 (i 0) k) * a1 (ix2 k (Cert.Layout.col off hoff (i 1))))
      + a2 (ix2 (0 : Fin 1) (Cert.Layout.col off hoff (i 1))) := rfl

theorem lin0_ix2 (off : Nat) (hoff : off + 1024 ≤ 3072) (a0 : S8192x1024.Idx → EReal) (a1 : S1024x3072.Idx → EReal) (a2 : S1x3072.Idx → EReal)
    (r : Fin 8192) (q : Fin 1024) :
    lin0 off hoff a0 a1 a2 (ix2 r q) = (∑ k : Fin 1024, a0 (ix2 r k) * a1 (ix2 k (Cert.Layout.col off hoff q)))
      + a2 (ix2 (0 : Fin 1) (Cert.Layout.col off hoff q)) := rfl

/-- A payload that at entry `(p, q)` is row `p` of an activations' block times column `off + q` of a weights' block
    plus a bias block there is the layer at row `r`: if row `p` of the activations' block is row `r` of the array,
    and the fused weights' and bias's blocks agree with their arrays, entry `(p, q)` of the payload is entry
    `(r, q)` of `lin0 off`. -/
theorem lin0_of_blocks (off : Nat) (hoff : off + 1024 ≤ 3072)
    (a0 : S8192x1024.Idx → EReal) (a1 : S1024x3072.Idx → EReal) (a2 : S1x3072.Idx → EReal)
    (x0 : Vec Ideal S1024x1024 .f32) (x1 : Vec Ideal S1024x3072 .bf16) (x2 : Vec Ideal S1x3072 .f32)
    (pay : S1024x1024.Idx → EReal) (p q : Fin 1024) (r : Fin 8192)
    (hpay : pay (ix2 p q)
      = (∑ k : Fin 1024, (x0 : S1024x1024.Idx → EReal) (ix2 p k) * (x1 : S1024x3072.Idx → EReal) (ix2 k (Cert.Layout.col off hoff q)))
        + (x2 : S1x3072.Idx → EReal) (ix2 0 (Cert.Layout.col off hoff q)))
    (h0 : ∀ k : Fin 1024, (x0 : S1024x1024.Idx → EReal) (ix2 p k) = a0 (ix2 r k))
    (h1 : ∀ (k : Fin 1024) (e : Fin 3072), (x1 : S1024x3072.Idx → EReal) (ix2 k e) = a1 (ix2 k e))
    (h2 : ∀ e : Fin 3072, (x2 : S1x3072.Idx → EReal) (ix2 0 e) = a2 (ix2 0 e)) :
    pay (ix2 p q) = lin0 off hoff a0 a1 a2 (ix2 r q) := by
  rw [hpay, lin0_ix2, h2]
  congr 1
  exact Finset.sum_congr rfl fun k _ => by rw [h0 k, h1 k]

/-! ## The grid and the three input blocks at a point -/

/-- The index maps over the grid's eight points: the activations' and each output's block at point `t` is row
    block `t`, all columns; the fused weights' and the fused bias's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry `(p, k)` of the activations' block at point `t` is entry `(t·1024 + p, k)` of the array. -/
theorem iblk0_0_apply (c : Dev nD) (t : Fin cfg0.N) (p k : Fin 1024) (r : Fin 8192) (hr : r.val = t.val * 1024 + p.val) :
    (iblk0 V c 0 t : Vec Ideal S1024x1024 .f32) (ix2 p k) = (V c main_v0 : S8192x1024.Idx → EReal) (ix2 r k) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The fused weights' block at any point is the whole array. -/
theorem iblk0_1_apply (c : Dev nD) (t : Fin cfg0.N) (k : Fin 1024) (e : Fin 3072) :
    (iblk0 V c 1 t : Vec Ideal S1024x3072 .bf16) (ix2 k e) = (V c main_v5 : S1024x3072.Idx → EReal) (ix2 k e) := by
  obtain ⟨-, -, e0, e1, -⟩ := idx_facts0 t
  unfold iblk0
  rw [View.read_apply]
  show V c main_v5 _ = V c main_v5 _
  congr 1
  funext a
  apply Fin.ext
  match a with
  | ⟨0, _⟩ => show win0_1.index t (0 : Fin 2) * 1024 + 1 * k.val = k.val; rw [e0]; omega
  | ⟨1, _⟩ => show win0_1.index t (1 : Fin 2) * 3072 + 1 * e.val = e.val; rw [e1]; omega

/-- The fused bias's block at any point is the whole row. -/
theorem iblk0_2_apply (c : Dev nD) (t : Fin cfg0.N) (e : Fin 3072) :
    (iblk0 V c 2 t : Vec Ideal S1x3072 .f32) (ix2 0 e) = (V c main_v7 : S1x3072.Idx → EReal) (ix2 0 e) := by
  obtain ⟨-, -, -, -, e0, e1, -⟩ := idx_facts0 t
  unfold iblk0
  rw [View.read_apply]
  show V c main_v7 _ = V c main_v7 _
  congr 1
  funext a
  apply Fin.ext
  match a with
  | ⟨0, _⟩ => show win0_2.index t (0 : Fin 2) * 1 + 1 * 0 = 0; rw [e0]
  | ⟨1, _⟩ => show win0_2.index t (1 : Fin 2) * 3072 + 1 * e.val = e.val; rw [e1]; omega

/-! ## The queries: window 3, columns 0 … 1023 of the fused projection -/

/-- WHAT POINT `t` WRITES BACK to the queries' array is block `t` of `lin0 0` of the three arrays as the region
    finds them: the body's one whole-buffer store holds the payload over the three whole-buffer loads, and entry
    `(p, q)` of the payload reads row `t·1024 + p` of the activations, column `0 + q` of the fused weights and
    the fused bias at `0 + q`. -/
theorem flushed0_3_eq (c : Dev nD) (t : Fin cfg0.N) :
    (dat0 V c).flushed 3 t
      = ((cfg0.win 3).blk t).view.read (Elt Ideal) (lin0 0 (by decide) (V c main_v0) (V c main_v5) (V c main_v7)) := by
  obtain ⟨-, -, -, -, -, -, e0, e1, -⟩ := idx_facts0 t
  have hN : cfg0.N = 8 := N_0
  show (cfg0.win 3).cut (grid0.coords t) ((dat0 V c).after 3 t) = _
  rw [after0_3]
  unfold out0_3
  rw [View.canon_unit_zero hz0]
  simp only [View.ld_unit_zero (S := S1024x1024) hz0, View.ld_unit_zero (S := S1024x3072) hz0, View.ld_unit_zero (S := S1x3072) hz0]
  funext j
  obtain ⟨p, q, rfl⟩ : ∃ (p : Fin 1024) (q : Fin 1024), j = ix2 p q := ⟨j 0, j 1, eq_ix2 j⟩
  have hr : t.val * 1024 + p.val < 8192 := by have := t.isLt; omega
  show (k0_pay2 (F := Ideal) (iblk0 V c 0 t) (iblk0 V c 1 t) (iblk0 V c 2 t) : S1024x1024.Idx → EReal) (ix2 p q)
    = lin0 0 (by decide) (V c main_v0) (V c main_v5) (V c main_v7) (((cfg0.win 3).blk t).view.emb (ix2 p q))
  have hemb : ((cfg0.win 3).blk t).view.emb (ix2 p q) = ix2 (⟨t.val * 1024 + p.val, hr⟩ : Fin 8192) q := by
    funext a; apply Fin.ext
    match a with
    | ⟨0, _⟩ => show win0_3.index t (0 : Fin 2) * 1024 + 1 * p.val = t.val * 1024 + p.val; rw [e0]; omega
    | ⟨1, _⟩ => show win0_3.index t (1 : Fin 2) * 1024 + 1 * q.val = q.val; rw [e1]; omega
  rw [hemb]
  exact lin0_of_blocks 0 (by decide) (V c main_v0) (V c main_v5) (V c main_v7) (iblk0 V c 0 t) (iblk0 V c 1 t) (iblk0 V c 2 t)
    (k0_pay2 (F := Ideal) (iblk0 V c 0 t) (iblk0 V c 1 t) (iblk0 V c 2 t)) p q ⟨t.val * 1024 + p.val, hr⟩
    (k0_pay2_apply (iblk0 V c 0 t) (iblk0 V c 1 t) (iblk0 V c 2 t) p q (Cert.Layout.col 0 (by decide) q) rfl)
    (fun k => iblk0_0_apply V c t p k ⟨t.val * 1024 + p.val, hr⟩ rfl)
    (fun k e => iblk0_1_apply V c t k e) (fun e => iblk0_2_apply V c t e)

/-- The queries' blocks tile their array: row `r` lies in the block of point `r / 1024`. -/
theorem covered0_3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, e0, e1, -⟩ := idx_facts0 t
  refine ⟨t, flush0_3 t, ?_⟩
  show i ∈ ((View.whole main_v8_0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- THE QUERIES' ARRAY after the region: that projection of the three arrays the region found, entry by entry. -/
theorem arr0_3 (c : Dev nD) : ((dat0 (F := Ideal) V c).arrAt 3 cfg0.N : S8192x1024.Idx → EReal)
      = lin0 0 (by decide) (V c main_v0) (V c main_v5) (V c main_v7) :=
  (dat0 V c).arrAt_eq_of_cover 3 (lin0 0 (by decide) (V c main_v0) (V c main_v5) (V c main_v7))
    (fun t _ => flushed0_3_eq V c t) covered0_3

/-! ## The keys: window 4, columns 1024 … 2047 of the fused projection -/

/-- WHAT POINT `t` WRITES BACK to the keys' array is block `t` of `lin0 1024` of the three arrays as the region
    finds them: the body's one whole-buffer store holds the payload over the three whole-buffer loads, and entry
    `(p, q)` of the payload reads row `t·1024 + p` of the activations, column `1024 + q` of the fused weights and
    the fused bias at `1024 + q`. -/
theorem flushed0_4_eq (c : Dev nD) (t : Fin cfg0.N) :
    (dat0 V c).flushed 4 t
      = ((cfg0.win 4).blk t).view.read (Elt Ideal) (lin0 1024 (by decide) (V c main_v0) (V c main_v5) (V c main_v7)) := by
  obtain ⟨-, -, -, -, -, -, -, -, e0, e1, -⟩ := idx_facts0 t
  have hN : cfg0.N = 8 := N_0
  show (cfg0.win 4).cut (grid0.coords t) ((dat0 V c).after 4 t) = _
  rw [after0_4]
  unfold out0_4
  rw [View.canon_unit_zero hz0]
  simp only [View.ld_unit_zero (S := S1024x1024) hz0, View.ld_unit_zero (S := S1024x3072) hz0, View.ld_unit_zero (S := S1x3072) hz0]
  funext j
  obtain ⟨p, q, rfl⟩ : ∃ (p : Fin 1024) (q : Fin 1024), j = ix2 p q := ⟨j 0, j 1, eq_ix2 j⟩
  have hr : t.val * 1024 + p.val < 8192 := by have := t.isLt; omega
  show (k0_pay3 (F := Ideal) (iblk0 V c 0 t) (iblk0 V c 1 t) (iblk0 V c 2 t) : S1024x1024.Idx → EReal) (ix2 p q)
    = lin0 1024 (by decide) (V c main_v0) (V c main_v5) (V c main_v7) (((cfg0.win 4).blk t).view.emb (ix2 p q))
  have hemb : ((cfg0.win 4).blk t).view.emb (ix2 p q) = ix2 (⟨t.val * 1024 + p.val, hr⟩ : Fin 8192) q := by
    funext a; apply Fin.ext
    match a with
    | ⟨0, _⟩ => show win0_4.index t (0 : Fin 2) * 1024 + 1 * p.val = t.val * 1024 + p.val; rw [e0]; omega
    | ⟨1, _⟩ => show win0_4.index t (1 : Fin 2) * 1024 + 1 * q.val = q.val; rw [e1]; omega
  rw [hemb]
  exact lin0_of_blocks 1024 (by decide) (V c main_v0) (V c main_v5) (V c main_v7) (iblk0 V c 0 t) (iblk0 V c 1 t) (iblk0 V c 2 t)
    (k0_pay3 (F := Ideal) (iblk0 V c 0 t) (iblk0 V c 1 t) (iblk0 V c 2 t)) p q ⟨t.val * 1024 + p.val, hr⟩
    (k0_pay3_apply (iblk0 V c 0 t) (iblk0 V c 1 t) (iblk0 V c 2 t) p q (Cert.Layout.col 1024 (by decide) q) rfl)
    (fun k => iblk0_0_apply V c t p k ⟨t.val * 1024 + p.val, hr⟩ rfl)
    (fun k e => iblk0_1_apply V c t k e) (fun e => iblk0_2_apply V c t e)

/-- The keys' blocks tile their array: row `r` lies in the block of point `r / 1024`. -/
theorem covered0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, e0, e1, -⟩ := idx_facts0 t
  refine ⟨t, flush0_4 t, ?_⟩
  show i ∈ ((View.whole main_v8_1).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- THE KEYS' ARRAY after the region: that projection of the three arrays the region found, entry by entry. -/
theorem arr0_4 (c : Dev nD) : ((dat0 (F := Ideal) V c).arrAt 4 cfg0.N : S8192x1024.Idx → EReal)
      = lin0 1024 (by decide) (V c main_v0) (V c main_v5) (V c main_v7) :=
  (dat0 V c).arrAt_eq_of_cover 4 (lin0 1024 (by decide) (V c main_v0) (V c main_v5) (V c main_v7))
    (fun t _ => flushed0_4_eq V c t) covered0_4

/-! ## The values: window 5, columns 2048 … 3071 of the fused projection -/

/-- WHAT POINT `t` WRITES BACK to the values' array is block `t` of `lin0 2048` of the three arrays as the region
    finds them: the body's one whole-buffer store holds the payload over the three whole-buffer loads, and entry
    `(p, q)` of the payload reads row `t·1024 + p` of the activations, column `2048 + q` of the fused weights and
    the fused bias at `2048 + q`. -/
theorem flushed0_5_eq (c : Dev nD) (t : Fin cfg0.N) :
    (dat0 V c).flushed 5 t
      = ((cfg0.win 5).blk t).view.read (Elt Ideal) (lin0 2048 (by decide) (V c main_v0) (V c main_v5) (V c main_v7)) := by
  obtain ⟨-, -, -, -, -, -, -, -, -, -, e0, e1⟩ := idx_facts0 t
  have hN : cfg0.N = 8 := N_0
  show (cfg0.win 5).cut (grid0.coords t) ((dat0 V c).after 5 t) = _
  rw [after0_5]
  unfold out0_5
  rw [View.canon_unit_zero hz0]
  simp only [View.ld_unit_zero (S := S1024x1024) hz0, View.ld_unit_zero (S := S1024x3072) hz0, View.ld_unit_zero (S := S1x3072) hz0]
  funext j
  obtain ⟨p, q, rfl⟩ : ∃ (p : Fin 1024) (q : Fin 1024), j = ix2 p q := ⟨j 0, j 1, eq_ix2 j⟩
  have hr : t.val * 1024 + p.val < 8192 := by have := t.isLt; omega
  show (k0_pay4 (F := Ideal) (iblk0 V c 0 t) (iblk0 V c 1 t) (iblk0 V c 2 t) : S1024x1024.Idx → EReal) (ix2 p q)
    = lin0 2048 (by decide) (V c main_v0) (V c main_v5) (V c main_v7) (((cfg0.win 5).blk t).view.emb (ix2 p q))
  have hemb : ((cfg0.win 5).blk t).view.emb (ix2 p q) = ix2 (⟨t.val * 1024 + p.val, hr⟩ : Fin 8192) q := by
    funext a; apply Fin.ext
    match a with
    | ⟨0, _⟩ => show win0_5.index t (0 : Fin 2) * 1024 + 1 * p.val = t.val * 1024 + p.val; rw [e0]; omega
    | ⟨1, _⟩ => show win0_5.index t (1 : Fin 2) * 1024 + 1 * q.val = q.val; rw [e1]; omega
  rw [hemb]
  exact lin0_of_blocks 2048 (by decide) (V c main_v0) (V c main_v5) (V c main_v7) (iblk0 V c 0 t) (iblk0 V c 1 t) (iblk0 V c 2 t)
    (k0_pay4 (F := Ideal) (iblk0 V c 0 t) (iblk0 V c 1 t) (iblk0 V c 2 t)) p q ⟨t.val * 1024 + p.val, hr⟩
    (k0_pay4_apply (iblk0 V c 0 t) (iblk0 V c 1 t) (iblk0 V c 2 t) p q (Cert.Layout.col 2048 (by decide) q) rfl)
    (fun k => iblk0_0_apply V c t p k ⟨t.val * 1024 + p.val, hr⟩ rfl)
    (fun k e => iblk0_1_apply V c t k e) (fun e => iblk0_2_apply V c t e)

/-- The values' blocks tile their array: row `r` lies in the block of point `r / 1024`. -/
theorem covered0_5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, e0, e1⟩ := idx_facts0 t
  refine ⟨t, flush0_5 t, ?_⟩
  show i ∈ ((View.whole main_v8_2).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- THE VALUES' ARRAY after the region: that projection of the three arrays the region found, entry by entry. -/
theorem arr0_5 (c : Dev nD) : ((dat0 (F := Ideal) V c).arrAt 5 cfg0.N : S8192x1024.Idx → EReal)
      = lin0 2048 (by decide) (V c main_v0) (V c main_v5) (V c main_v7) :=
  (dat0 V c).arrAt_eq_of_cover 5 (lin0 2048 (by decide) (V c main_v0) (V c main_v5) (V c main_v7))
    (fun t _ => flushed0_5_eq V c t) covered0_5

end Cert.KernelIdeal.Hand

end
-- ==== Proof.BlockSpec.lean ====
/-
  Attention on one block: the queries of 256 positions of one batch element against all 2048 keys and values of that
  batch element, head by head — the same formula as the whole layer's, over the blocks' own coordinates (a leading unit
  axis, the position inside the block).
-/
import proofs.«178435_j39754217292149_2_alg».proof.Proof.Spec

noncomputable section

namespace Cert.Spec

open Idealize.ShloMosaic Idealize.ShloMosaic.ValueIdx

/-- A block of 256 query positions, and a block of all 2048 key or value positions, of one batch element. -/
abbrev SQb : Shape := ⟨4, ![1, 256, 16, 64]⟩
abbrev SKb : Shape := ⟨4, ![1, 2048, 16, 64]⟩

/-- The score of key position `t` for the block's query position `s`, head `h`. -/
def blkScore (qb : SQb.Idx → EReal) (kb : SKb.Idx → EReal) (s : Fin 256) (h : Fin 16) (t : Fin 2048) : EReal :=
  (∑ e : Fin 64, qb (ix4 (0 : Fin 1) s h e) * kb (ix4 (0 : Fin 1) t h e)) * scale
/-- The block's row of scores shifted by its maximum and exponentiated. -/
def blkExpo (qb : SQb.Idx → EReal) (kb : SKb.Idx → EReal) (s : Fin 256) (h : Fin 16) (t : Fin 2048) : EReal :=
  Ideal.exp (blkScore qb kb s h t - rowMax (fun t' => blkScore qb kb s h t'))
/-- Attention at the block's position `s`, head `h`, lane `d`. -/
def blkAttn (qb : SQb.Idx → EReal) (kb vb : SKb.Idx → EReal) (s : Fin 256) (h : Fin 16) (d : Fin 64) : EReal :=
  ∑ t : Fin 2048, Ideal.div (blkExpo qb kb s h t) (∑ t' : Fin 2048, blkExpo qb kb s h t') * vb (ix4 (0 : Fin 1) t h d)

/-- Position `qi·256 + s`: position `s` of the `qi`-th block of 256. -/
def pos (qi : Fin 8) (s : Fin 256) : Fin 2048 := ⟨qi.val * 256 + s.val, by omega⟩

/-- The whole layer's attention at batch `n`, position `qi·256 + s` is the block formula on the blocks cut out of the
    arrays: the query block holds rows `qi·256 …` of batch `n`, the key and value blocks all of batch `n`. -/
theorem attnAt_eq_blkAttn (q k v : Hd) (qb : SQb.Idx → EReal) (kb vb : SKb.Idx → EReal) (n : Fin 4) (qi : Fin 8)
    (hq : ∀ (s : Fin 256) (h : Fin 16) (e : Fin 64), qb (ix4 (0 : Fin 1) s h e) = q (ix4 n (pos qi s) h e))
    (hk : ∀ (t : Fin 2048) (h : Fin 16) (e : Fin 64), kb (ix4 (0 : Fin 1) t h e) = k (ix4 n t h e))
    (hv : ∀ (t : Fin 2048) (h : Fin 16) (e : Fin 64), vb (ix4 (0 : Fin 1) t h e) = v (ix4 n t h e))
    (s : Fin 256) (h : Fin 16) (d : Fin 64) :
    attnAt q k v n (pos qi s) h d = blkAttn qb kb vb s h d := by
  have hsc : ∀ t, blkScore qb kb s h t = score q k n h (pos qi s) t := fun t => by
    unfold blkScore score
    exact congrArg (· * scale) (Finset.sum_congr rfl fun e _ => by rw [hq, hk])
  have hex : ∀ t, blkExpo qb kb s h t = expo q k n h (pos qi s) t := fun t => by
    unfold blkExpo expo
    rw [hsc t, show (fun t' => blkScore qb kb s h t') = fun t' => score q k n h (pos qi s) t' from funext hsc]
  unfold attnAt blkAttn prob
  exact Finset.sum_congr rfl fun t _ => by
    rw [hex t, hv, show (∑ t' : Fin 2048, blkExpo qb kb s h t') = ∑ t' : Fin 2048, expo q k n h (pos qi s) t' from
      Finset.sum_congr rfl fun t' _ => hex t']

end Cert.Spec

end
-- ==== Proof.KI.HeadMath.lean ====
/-
  One head of the attention block, index by index.

  The block's body cuts the query block [256, 16, 64] and the key and value blocks [2048, 16, 64] into sixteen heads.
  For head `h` it takes the [256, 64] queries and the [2048, 64] keys and values at head coordinate `h`, scores every query
  row against every key row by their inner product over the 64 lanes, scaled by the pattern of 1/8, shifts each row
  of scores by its maximum (folded from the pattern of -∞), exponentiates, divides by the row's sum, and weights the value
  rows with the result. The sixteen [256, 64] results are laid side by side along the head axis.

  Here that computation is written once, for any head, as `headOut`; each head's part of the stored value is shown to be
  `headOut` at that head's offsets; and at the ideal values the stored value is read at an index (row `s`, head `h`, lane `d`)
  as the sum over the 2048 positions of the softmax weight times the value.
-/
import proofs.«178435_j39754217292149_2_alg».proof.Proof.KI.Dat1
import proofs.«178435_j39754217292149_2_alg».proof.Proof.BlockSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

namespace Attn

/-! ## One head, for any float instance -/

section Generic
variable {F : FTy → Type} [FloatOps F]

/-- The scores of one head: every query row against every key row, contracted over the lanes, times the pattern of 1/8. -/
def headScores (qh : FVec F S256x64 .bf16) (kh : FVec F S2048x64 .bf16) : FVec F S256x2048 .f32 :=
  mulf (matmul dot_S256x64_S2048x64_S256x2048_1_1_0_0_n_n none qh kh (constant S256x2048 .f32 0x00000000#32))
    (broadcast S256x2048 (Scalar.ofBits .f32 0x3E000000#32))

/-- Each row's maximum, as a column. -/
def rowMaxCol (sc : FVec F S256x2048 .f32) : FVec F S256x1 .f32 :=
  shapeCast S256x1 (multiReduction .maximumf [1] S256 sc 0xFF800000#32 reduces_S256x2048_S256 (.inl rfl) rfl) shapeCasts_S256_S256x1

/-- A row of scores shifted by a column and exponentiated. -/
def expShift (sc : FVec F S256x2048 .f32) (mx : FVec F S256x1 .f32) : FVec F S256x2048 .f32 :=
  exp (subf sc (broadcastTo S256x2048 mx broadcasts_S256x1_S256x2048))

/-- Each row's sum, as a column. -/
def rowSumCol (ex : FVec F S256x2048 .f32) : FVec F S256x1 .f32 :=
  shapeCast S256x1 (multiReduction .add [1] S256 ex 0x00000000#32 reduces_S256x2048_S256 (.inl rfl) rfl) shapeCasts_S256_S256x1

/-- Each row divided by a column. -/
def divCol (ex : FVec F S256x2048 .f32) (sm : FVec F S256x1 .f32) : FVec F S256x2048 .f32 :=
  divf ex (broadcastTo S256x2048 sm broadcasts_S256x1_S256x2048)

/-- The weights against the value rows. -/
def weigh (p : FVec F S256x2048 .f32) (vh : FVec F S2048x64 .bf16) : FVec F S256x64 .f32 :=
  matmul dot_S256x2048_S2048x64_S256x64_1_0_0_1_n_n none (truncf .bf16 p bitsLt_bf16_f32) vh (constant S256x64 .f32 0x00000000#32)

/-- One head from its scores and its value rows, before the final format change. -/
def headOfScores (sc : FVec F S256x2048 .f32) (vh : FVec F S2048x64 .bf16) : FVec F S256x64 .f32 :=
  weigh (divCol (expShift sc (rowMaxCol sc)) (rowSumCol (expShift sc (rowMaxCol sc)))) vh

/-- One head from its queries, keys and values. -/
def headCore (qh : FVec F S256x64 .bf16) (kh vh : FVec F S2048x64 .bf16) : FVec F S256x64 .bf16 :=
  truncf .bf16 (headOfScores (headScores qh kh) vh) bitsLt_bf16_f32

/-- The [256, 64] queries at head coordinate `h` of a [256, 16, 64] block. -/
def qAt (h : Nat) (ev : S256x16x64.Slices ![0, h, 0] S256x1x64) (v1 : FVec F S256x16x64 .bf16) : FVec F S256x64 .bf16 :=
  shapeCast S256x64 (extractStridedSlice S256x1x64 ![0, h, 0] v1 ev) shapeCasts_S256x1x64_S256x64

/-- The [2048, 64] keys or values at head coordinate `h` of a [2048, 16, 64] block. -/
def kvAt (h : Nat) (ev : S2048x16x64.Slices ![0, h, 0] S2048x1x64) (v3 : FVec F S2048x16x64 .bf16) : FVec F S2048x64 .bf16 :=
  shapeCast S2048x64 (extractStridedSlice S2048x1x64 ![0, h, 0] v3 ev) shapeCasts_S2048x1x64_S2048x64

/-- Head `h` of the three blocks. -/
def headOut (h : Nat) (evq : S256x16x64.Slices ![0, h, 0] S256x1x64) (evk : S2048x16x64.Slices ![0, h, 0] S2048x1x64)
    (v1 : FVec F S256x16x64 .bf16) (v3 v5 : FVec F S2048x16x64 .bf16) : FVec F S256x64 .bf16 :=
  headCore (qAt h evq v1) (kvAt h evk v3) (kvAt h evk v5)

/-! ## Each head's part of the stored value is `headOut` at its offsets -/

variable (x0 : Vec F S1x256x16x64 .bf16) (x1 x2 : Vec F S1x2048x16x64 .bf16)
variable (v1 : FVec F S256x16x64 .bf16) (v3 v5 : FVec F S2048x16x64 .bf16)

theorem head0_eq : k1_pay6 x0 x1 x2
    = headOut 0 slices_S256x16x64_o0_0_0_S256x1x64 slices_S2048x16x64_o0_0_0_S2048x1x64 (k1_pay3 x0) (k1_pay4 x1) (k1_pay5 x2) := rfl
theorem head1_eq : k1_pay10 (k1_pay7 x2) (k1_pay8 x0 x1) (k1_pay9 x0 x1)
    = headOut 1 slices_S256x16x64_o0_1_0_S256x1x64 slices_S2048x16x64_o0_1_0_S2048x1x64 (k1_pay3 x0) (k1_pay4 x1) (k1_pay5 x2) := rfl
theorem head2_eq : k1_pay11 v1 v3 v5
    = headOut 2 slices_S256x16x64_o0_2_0_S256x1x64 slices_S2048x16x64_o0_2_0_S2048x1x64 v1 v3 v5 := rfl
theorem head3_eq : k1_pay14 (k1_pay12 v5) (k1_pay13 v1 v3)
    = headOut 3 slices_S256x16x64_o0_3_0_S256x1x64 slices_S2048x16x64_o0_3_0_S2048x1x64 v1 v3 v5 := rfl
theorem head4_eq : k1_pay15 v1 v3 v5
    = headOut 4 slices_S256x16x64_o0_4_0_S256x1x64 slices_S2048x16x64_o0_4_0_S2048x1x64 v1 v3 v5 := rfl
theorem head5_eq : k1_pay16 v1 v3 v5
    = headOut 5 slices_S256x16x64_o0_5_0_S256x1x64 slices_S2048x16x64_o0_5_0_S2048x1x64 v1 v3 v5 := rfl
theorem head6_eq : k1_pay19 v5 (k1_pay17 v1) (k1_pay18 v3)
    = headOut 6 slices_S256x16x64_o0_6_0_S256x1x64 slices_S2048x16x64_o0_6_0_S2048x1x64 v1 v3 v5 := rfl
theorem head7_eq : k1_pay20 v1 v3 v5
    = headOut 7 slices_S256x16x64_o0_7_0_S256x1x64 slices_S2048x16x64_o0_7_0_S2048x1x64 v1 v3 v5 := rfl
theorem head8_eq : k1_pay23 (k1_pay21 v5) (k1_pay22 v1 v3)
    = headOut 8 slices_S256x16x64_o0_8_0_S256x1x64 slices_S2048x16x64_o0_8_0_S2048x1x64 v1 v3 v5 := rfl
theorem head9_eq : k1_pay24 v1 v3 v5
    = headOut 9 slices_S256x16x64_o0_9_0_S256x1x64 slices_S2048x16x64_o0_9_0_S2048x1x64 v1 v3 v5 := rfl
theorem head10_eq : k1_pay28 (k1_pay25 v5) (k1_pay26 v1 v3) (k1_pay27 v1 v3)
    = headOut 10 slices_S256x16x64_o0_10_0_S256x1x64 slices_S2048x16x64_o0_10_0_S2048x1x64 v1 v3 v5 := rfl
theorem head11_eq : k1_pay29 v1 v3 v5
    = headOut 11 slices_S256x16x64_o0_11_0_S256x1x64 slices_S2048x16x64_o0_11_0_S2048x1x64 v1 v3 v5 := rfl
theorem head12_eq : k1_pay30 v1 v3 v5
    = headOut 12 slices_S256x16x64_o0_12_0_S256x1x64 slices_S2048x16x64_o0_12_0_S2048x1x64 v1 v3 v5 := rfl
theorem head13_eq : k1_pay32 v3 v5 (k1_pay31 v1)
    = headOut 13 slices_S256x16x64_o0_13_0_S256x1x64 slices_S2048x16x64_o0_13_0_S2048x1x64 v1 v3 v5 := rfl
theorem head14_eq : k1_pay33 v1 v3 v5
    = headOut 14 slices_S256x16x64_o0_14_0_S256x1x64 slices_S2048x16x64_o0_14_0_S2048x1x64 v1 v3 v5 := rfl
/-- The last head is stored from its value before the final format change, which the stacking applies. -/
theorem head15_eq : truncf .bf16 (k1_pay1 (k1_pay34 v5) (k1_pay35 v1 v3) (k1_pay36 (F := F))) bitsLt_bf16_f32
    = headOut 15 slices_S256x16x64_o0_15_0_S256x1x64 slices_S2048x16x64_o0_15_0_S2048x1x64 v1 v3 v5 := rfl

/-! ## The stack of sixteen heads -/

/-- Sixteen [256, 64] results, each given a unit head axis, laid side by side along it, under a leading unit axis. -/
def stack16 (p : Fin 16 → FVec F S256x64 .bf16) : FVec F S1x256x16x64 .bf16 :=
  shapeCast S1x256x16x64
    (concatenate S256x16x64 1 [⟨S256x1x64, shapeCast S256x1x64 (p 0) shapeCasts_S256x64_S256x1x64⟩, ⟨S256x1x64, shapeCast S256x1x64 (p 1) shapeCasts_S256x64_S256x1x64⟩, ⟨S256x1x64, shapeCast S256x1x64 (p 2) shapeCasts_S256x64_S256x1x64⟩, ⟨S256x1x64, shapeCast S256x1x64 (p 3) shapeCasts_S256x64_S256x1x64⟩, ⟨S256x1x64, shapeCast S256x1x64 (p 4) shapeCasts_S256x64_S256x1x64⟩, ⟨S256x1x64, shapeCast S256x1x64 (p 5) shapeCasts_S256x64_S256x1x64⟩, ⟨S256x1x64, shapeCast S256x1x64 (p 6) shapeCasts_S256x64_S256x1x64⟩, ⟨S256x1x64, shapeCast S256x1x64 (p 7) shapeCasts_S256x64_S256x1x64⟩, ⟨S256x1x64, shapeCast S256x1x64 (p 8) shapeCasts_S256x64_S256x1x64⟩, ⟨S256x1x64, shapeCast S256x1x64 (p 9) shapeCasts_S256x64_S256x1x64⟩, ⟨S256x1x64, shapeCast S256x1x64 (p 10) shapeCasts_S256x64_S256x1x64⟩, ⟨S256x1x64, shapeCast S256x1x64 (p 11) shapeCasts_S256x64_S256x1x64⟩, ⟨S256x1x64, shapeCast S256x1x64 (p 12) shapeCasts_S256x64_S256x1x64⟩, ⟨S256x1x64, shapeCast S256x1x64 (p 13) shapeCasts_S256x64_S256x1x64⟩, ⟨S256x1x64, shapeCast S256x1x64 (p 14) shapeCasts_S256x64_S256x1x64⟩, ⟨S256x1x64, shapeCast S256x1x64 (p 15) shapeCasts_S256x64_S256x1x64⟩] concatenates_S256x1x64_S256x1x64_S256x1x64_S256x1x64_S256x1x64_S256x1x64_S256x1x64_S256x1x64_S256x1x64_S256x1x64_S256x1x64_S256x1x64_S256x1x64_S256x1x64_S256x1x64_S256x1x64_S256x16x64_d1)
    shapeCasts_S256x16x64_S1x256x16x64

/-- The stacking payload is that stack, the last head's format change included. -/
theorem pay2_eq_stack16 (p0 p1 p2 p3 p4 p5 p6 p7 p8 p9 p10 p11 p12 p13 p14 : FVec F S256x64 .bf16) (q15 : FVec F S256x64 .f32) :
    k1_pay2 p0 p1 p2 p3 p4 p5 p6 p7 p8 p9 p10 p11 p12 p13 p14 q15
      = stack16 ![p0, p1, p2, p3, p4, p5, p6, p7, p8, p9, p10, p11, p12, p13, p14, truncf .bf16 q15 bitsLt_bf16_f32] := rfl

/-- The value the body stores: the sixteen heads' results stacked along the head axis, as the payloads compose it from the three loaded blocks. -/
def stored (x0 : Vec F S1x256x16x64 .bf16) (x1 x2 : Vec F S1x2048x16x64 .bf16) : FVec F S1x256x16x64 .bf16 :=
  k1_pay2 (k1_pay6 x0 x1 x2)
    (k1_pay10 (k1_pay7 x2) (k1_pay8 x0 x1) (k1_pay9 x0 x1))
    (k1_pay11 (k1_pay3 x0) (k1_pay4 x1) (k1_pay5 x2))
    (k1_pay14 (k1_pay12 (k1_pay5 x2)) (k1_pay13 (k1_pay3 x0) (k1_pay4 x1)))
    (k1_pay15 (k1_pay3 x0) (k1_pay4 x1) (k1_pay5 x2))
    (k1_pay16 (k1_pay3 x0) (k1_pay4 x1) (k1_pay5 x2))
    (k1_pay19 (k1_pay5 x2) (k1_pay17 (k1_pay3 x0)) (k1_pay18 (k1_pay4 x1)))
    (k1_pay20 (k1_pay3 x0) (k1_pay4 x1) (k1_pay5 x2))
    (k1_pay23 (k1_pay21 (k1_pay5 x2)) (k1_pay22 (k1_pay3 x0) (k1_pay4 x1)))
    (k1_pay24 (k1_pay3 x0) (k1_pay4 x1) (k1_pay5 x2))
    (k1_pay28 (k1_pay25 (k1_pay5 x2)) (k1_pay26 (k1_pay3 x0) (k1_pay4 x1)) (k1_pay27 (k1_pay3 x0) (k1_pay4 x1)))
    (k1_pay29 (k1_pay3 x0) (k1_pay4 x1) (k1_pay5 x2))
    (k1_pay30 (k1_pay3 x0) (k1_pay4 x1) (k1_pay5 x2))
    (k1_pay32 (k1_pay4 x1) (k1_pay5 x2) (k1_pay31 (k1_pay3 x0)))
    (k1_pay33 (k1_pay3 x0) (k1_pay4 x1) (k1_pay5 x2))
    (k1_pay1 (k1_pay34 (k1_pay5 x2)) (k1_pay35 (k1_pay3 x0) (k1_pay4 x1)) (k1_pay36 (F := F)))

end Generic

/-! ## At the ideal values: each step read at an index -/

section AtIdeal

/-! ### The two contractions' operand indices -/

theorem qk_lhs0 (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs1 (j : S256x2048.Idx) (q : dot_S256x64_S2048x64_S256x2048_1_1_0_0_n_n.contr.Idx) : (dot_S256x64_S2048x64_S256x2048_1_1_0_0_n_n.lhsIdx j q 1).val = (q ⟨0, by decide⟩).val :=
  dot_S256x64_S2048x64_S256x2048_1_1_0_0_n_n.lhsIdx_val_of_single rfl j q
theorem qk_rhs0 (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs1 (j : S256x2048.Idx) (q : dot_S256x64_S2048x64_S256x2048_1_1_0_0_n_n.contr.Idx) : (dot_S256x64_S2048x64_S256x2048_1_1_0_0_n_n.rhsIdx j q 1).val = (q ⟨0, by decide⟩).val :=
  dot_S256x64_S2048x64_S256x2048_1_1_0_0_n_n.rhsIdx_val_of_single rfl j q

theorem pv_lhs0 (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs1 (j : S256x64.Idx) (q : dot_S256x2048_S2048x64_S256x64_1_0_0_1_n_n.contr.Idx) : (dot_S256x2048_S2048x64_S256x64_1_0_0_1_n_n.lhsIdx j q 1).val = (q ⟨0, by decide⟩).val :=
  dot_S256x2048_S2048x64_S256x64_1_0_0_1_n_n.lhsIdx_val_of_single rfl j q
theorem pv_rhs0 (j : S256x64.Idx) (q : dot_S256x2048_S2048x64_S256x64_1_0_0_1_n_n.contr.Idx) : (dot_S256x2048_S2048x64_S256x64_1_0_0_1_n_n.rhsIdx j q 0).val = (q ⟨0, by decide⟩).val :=
  dot_S256x2048_S2048x64_S256x64_1_0_0_1_n_n.rhsIdx_val_of_single rfl j q
theorem pv_rhs1 (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-! ### The steps -/

/-- A score: the inner product of query row `s` and key row `t` over the lanes, times the pattern of 1/8. -/
theorem headScores_apply (qh : S256x64.Idx → EReal) (kh : S2048x64.Idx → EReal) (s : Fin 256) (t : Fin 2048) :
    headScores (F := Ideal) qh kh (ix2 s t) = (∑ e : Fin 64, qh (ix2 s e) * kh (ix2 t e)) * Cert.Spec.scale := by
  unfold headScores
  rw [mulf_apply, broadcast_apply]
  refine congrArg (fun z : EReal => z * Cert.Spec.scale) ?_
  simp only [matmul]
  rw [Ideal.matmul_constant_zero_apply, ← Equiv.sum_comp (contrEquiv1 dot_S256x64_S2048x64_S256x2048_1_1_0_0_n_n 64 rfl rfl).symm]
  refine Finset.sum_congr rfl fun e _ => ?_
  have he := contrEquiv1_symm_val dot_S256x64_S2048x64_S256x2048_1_1_0_0_n_n 64 rfl rfl e
  have el : dot_S256x64_S2048x64_S256x2048_1_1_0_0_n_n.lhsIdx (ix2 s t) ((contrEquiv1 dot_S256x64_S2048x64_S256x2048_1_1_0_0_n_n 64 rfl rfl).symm e) = ix2 s e := funext fun a => Fin.ext (by
    match a with
    | ⟨0, _⟩ => exact qk_lhs0 _ _
    | ⟨1, _⟩ => exact (qk_lhs1 _ _).trans he)
  have er : dot_S256x64_S2048x64_S256x2048_1_1_0_0_n_n.rhsIdx (ix2 s t) ((contrEquiv1 dot_S256x64_S2048x64_S256x2048_1_1_0_0_n_n 64 rfl rfl).symm e) = ix2 t e := funext fun a => Fin.ext (by
    match a with
    | ⟨0, _⟩ => exact qk_rhs0 _ _
    | ⟨1, _⟩ => exact (qk_rhs1 _ _).trans he)
  rw [el, er]

/-- A column made from a [256] vector reads the vector at the row. -/
theorem col_apply {α : Type} (x : S256.Idx → α) (s : Fin 256) (u : Fin 1) :
    shapeCast S256x1 x shapeCasts_S256_S256x1 (ix2 s u) = x (ix1 s) :=
  shapeCast_apply x shapeCasts_S256_S256x1 (ix2 s u) (ix1 s) (by
    rw [Shape.rowMajor_val_one, Shape.rowMajor_val_two]
    show s.val = s.val * 1 + u.val
    have := u.isLt; omega)

/-- A column broadcast over the 2048 positions reads the column at the row. -/
theorem bcastCol_apply {α : Type} (c : S256x1.Idx → α) (s : Fin 256) (t : Fin 2048) :
    broadcastTo S256x2048 c broadcasts_S256x1_S256x2048 (ix2 s t) = c (ix2 s (0 : Fin 1)) := by
  refine broadcastTo_apply c broadcasts_S256x1_S256x2048 (ix2 s t) (ix2 s (0 : Fin 1)) fun a => ?_
  match a with
  | ⟨0, _⟩ => rfl
  | ⟨1, _⟩ => rfl

/-- A row's maximum: the fold of `max` from the pattern of -∞ over the row. -/
theorem rowMaxCol_apply (sc : S256x2048.Idx → EReal) (s : Fin 256) (u : Fin 1) :
    rowMaxCol (F := Ideal) sc (ix2 s u) = (Finset.univ : Finset (Fin 2048)).fold max Cert.Spec.negInf (fun t => sc (ix2 s t)) := by
  unfold rowMaxCol
  rw [col_apply]
  refine (Ideal.multiReduction_maximumf_single (φ := .f32) sc 0xFF800000#32 reduces_S256x2048_S256 (.inl rfl) rfl (ix1 s)).trans ?_
  have hl : (sc ∘ reduces_S256x2048_S256.lift (ix1 s)) = fun t : Fin 2048 => sc (ix2 s t) :=
    funext fun t => congrArg sc (funext fun a => Fin.ext (by match a with | ⟨0, _⟩ => rfl | ⟨1, _⟩ => rfl))
  rw [hl]
  rfl

/-- A row's sum. -/
theorem rowSumCol_apply (ex : S256x2048.Idx → EReal) (s : Fin 256) (u : Fin 1) :
    rowSumCol (F := Ideal) ex (ix2 s u) = ∑ t : Fin 2048, ex (ix2 s t) := by
  unfold rowSumCol
  rw [col_apply]
  refine (Ideal.multiReduction_add_single (φ := .f32) ex 0x00000000#32 reduces_S256x2048_S256 (.inl rfl) rfl (ix1 s)).trans ?_
  exact Finset.sum_congr rfl fun t _ => congrArg ex (funext fun a => Fin.ext (by match a with | ⟨0, _⟩ => rfl | ⟨1, _⟩ => rfl))

/-- A score shifted by its row's column entry and exponentiated. -/
theorem expShift_apply (sc : S256x2048.Idx → EReal) (mx : S256x1.Idx → EReal) (s : Fin 256) (t : Fin 2048) :
    expShift (F := Ideal) sc mx (ix2 s t) = Ideal.exp (sc (ix2 s t) - mx (ix2 s (0 : Fin 1))) := by
  unfold expShift
  show Ideal.exp (subf (F := Ideal) (φ := .f32) sc (broadcastTo S256x2048 mx broadcasts_S256x1_S256x2048) (ix2 s t)) = _
  rw [subf_apply, bcastCol_apply]

/-- An entry divided by its row's column entry. -/
theorem divCol_apply (ex : S256x2048.Idx → EReal) (sm : S256x1.Idx → EReal) (s : Fin 256) (t : Fin 2048) :
    divCol (F := Ideal) ex sm (ix2 s t) = Ideal.div (ex (ix2 s t)) (sm (ix2 s (0 : Fin 1))) := by
  unfold divCol
  rw [divf_apply, bcastCol_apply]

/-- The weights of row `s` against lane `d` of the value rows. -/
theorem weigh_apply (p : S256x2048.Idx → EReal) (vh : S2048x64.Idx → EReal) (s : Fin 256) (d : Fin 64) :
    weigh (F := Ideal) p vh (ix2 s d) = ∑ t : Fin 2048, p (ix2 s t) * vh (ix2 t d) := by
  unfold weigh
  simp only [matmul]
  rw [Ideal.matmul_constant_zero_apply, ← Equiv.sum_comp (contrEquiv1 dot_S256x2048_S2048x64_S256x64_1_0_0_1_n_n 2048 rfl rfl).symm]
  refine Finset.sum_congr rfl fun t _ => ?_
  have ht := contrEquiv1_symm_val dot_S256x2048_S2048x64_S256x64_1_0_0_1_n_n 2048 rfl rfl t
  have el : dot_S256x2048_S2048x64_S256x64_1_0_0_1_n_n.lhsIdx (ix2 s d) ((contrEquiv1 dot_S256x2048_S2048x64_S256x64_1_0_0_1_n_n 2048 rfl rfl).symm t) = ix2 s t := funext fun a => Fin.ext (by
    match a with
    | ⟨0, _⟩ => exact pv_lhs0 _ _
    | ⟨1, _⟩ => exact (pv_lhs1 _ _).trans ht)
  have er : dot_S256x2048_S2048x64_S256x64_1_0_0_1_n_n.rhsIdx (ix2 s d) ((contrEquiv1 dot_S256x2048_S2048x64_S256x64_1_0_0_1_n_n 2048 rfl rfl).symm t) = ix2 t d := funext fun a => Fin.ext (by
    match a with
    | ⟨0, _⟩ => exact (pv_rhs0 _ _).trans ht
    | ⟨1, _⟩ => exact pv_rhs1 _ _)
  rw [el, er]
  rfl

/-! ### One head at an index -/

/-- The softmax weight of position `t` in a row of scores `S`: the entry shifted by the row's maximum and exponentiated,
    over the sum of the row so treated. -/
def weightOf (S : Fin 2048 → EReal) (t : Fin 2048) : EReal :=
  Ideal.div (Ideal.exp (S t - (Finset.univ : Finset (Fin 2048)).fold max Cert.Spec.negInf S))
    (∑ t' : Fin 2048, Ideal.exp (S t' - (Finset.univ : Finset (Fin 2048)).fold max Cert.Spec.negInf S))

theorem headOfScores_apply (sc : S256x2048.Idx → EReal) (vh : S2048x64.Idx → EReal) (s : Fin 256) (d : Fin 64) :
    headOfScores (F := Ideal) sc vh (ix2 s d) = ∑ t : Fin 2048, weightOf (fun t' => sc (ix2 s t')) t * vh (ix2 t d) := by
  unfold headOfScores
  rw [weigh_apply]
  refine Finset.sum_congr rfl fun t _ => ?_
  refine congrArg (fun z : EReal => z * vh (ix2 t d)) ?_
  rw [divCol_apply, rowSumCol_apply, expShift_apply, rowMaxCol_apply]
  unfold weightOf
  refine congrArg (fun z : EReal => Ideal.div _ z) ?_
  refine Finset.sum_congr rfl fun t' _ => ?_
  rw [expShift_apply, rowMaxCol_apply]

/-- One head at row `s`, lane `d`. -/
theorem headCore_apply (qh : S256x64.Idx → EReal) (kh vh : S2048x64.Idx → EReal) (s : Fin 256) (d : Fin 64) :
    headCore (F := Ideal) qh kh vh (ix2 s d)
      = ∑ t : Fin 2048, weightOf (fun t' => (∑ e : Fin 64, qh (ix2 s e) * kh (ix2 t' e)) * Cert.Spec.scale) t * vh (ix2 t d) := by
  unfold headCore
  rw [truncf_apply, headOfScores_apply]
  simp only [headScores_apply]

/-! ### The cuts along the head axis -/

theorem qAt_apply {α : Type} (h : Nat) (ev : S256x16x64.Slices ![0, h, 0] S256x1x64) (v1 : S256x16x64.Idx → α)
    (hh : Fin 16) (hv : hh.val = h) (s : Fin 256) (e : Fin 64) :
    shapeCast S256x64 (extractStridedSlice S256x1x64 ![0, h, 0] v1 ev) shapeCasts_S256x1x64_S256x64 (ix2 s e) = v1 (ix3 s hh e) := by
  rw [shapeCast_apply _ shapeCasts_S256x1x64_S256x64 (ix2 s e) (ix3 s (0 : Fin 1) e) (by
    rw [Shape.rowMajor_val_three, Shape.rowMajor_val_two]
    show (s.val * 1 + 0) * 64 + e.val = s.val * 64 + e.val
    omega)]
  exact slice3_axis1_apply h v1 ev s (0 : Fin 1) e hh (show hh.val = h + 0 from hv)

theorem kvAt_apply {α : Type} (h : Nat) (ev : S2048x16x64.Slices ![0, h, 0] S2048x1x64) (v3 : S2048x16x64.Idx → α)
    (hh : Fin 16) (hv : hh.val = h) (t : Fin 2048) (e : Fin 64) :
    shapeCast S2048x64 (extractStridedSlice S2048x1x64 ![0, h, 0] v3 ev) shapeCasts_S2048x1x64_S2048x64 (ix2 t e) = v3 (ix3 t hh e) := by
  rw [shapeCast_apply _ shapeCasts_S2048x1x64_S2048x64 (ix2 t e) (ix3 t (0 : Fin 1) e) (by
    rw [Shape.rowMajor_val_three, Shape.rowMajor_val_two]
    show (t.val * 1 + 0) * 64 + e.val = t.val * 64 + e.val
    omega)]
  exact slice3_axis1_apply h v3 ev t (0 : Fin 1) e hh (show hh.val = h + 0 from hv)

/-- Head `h` of three blocks given with their leading unit axis, at row `s`, lane `d`. -/
theorem headOut_apply (h : Nat) (evq : S256x16x64.Slices ![0, h, 0] S256x1x64) (evk : S2048x16x64.Slices ![0, h, 0] S2048x1x64)
    (x0 : S1x256x16x64.Idx → EReal) (x1 x2 : S1x2048x16x64.Idx → EReal) (hh : Fin 16) (hv : hh.val = h) (s : Fin 256) (d : Fin 64) :
    headOut (F := Ideal) h evq evk (k1_pay3 (F := Ideal) x0) (k1_pay4 (F := Ideal) x1) (k1_pay5 (F := Ideal) x2) (ix2 s d)
      = ∑ t : Fin 2048, weightOf (fun t' => (∑ e : Fin 64, x0 (ix4 (0 : Fin 1) s hh e) * x1 (ix4 (0 : Fin 1) t' hh e)) * Cert.Spec.scale) t
          * x2 (ix4 (0 : Fin 1) t hh d) := by
  unfold headOut
  rw [headCore_apply]
  unfold qAt kvAt
  simp only [qAt_apply h evq _ hh hv, kvAt_apply h evk _ hh hv]
  unfold k1_pay3 k1_pay4 k1_pay5
  simp only [shapeCast_1abc_abc_apply]

/-! ### The stack at an index -/

theorem stack16_apply (p : Fin 16 → S256x64.Idx → EReal) (u : Fin 1) (s : Fin 256) (h : Fin 16) (d : Fin 64) :
    stack16 (F := Ideal) p (ix4 u s h d) = p h (ix2 s d) := by
  unfold stack16
  rw [shapeCast_abc_1abc_apply _ shapeCasts_S256x16x64_S1x256x16x64 u s h d]
  refine (concatenate_ofFn_unit_apply (t := S256x16x64) (s₁ := S256x1x64) (1 : Fin 3) (N := 16)
    (fun n => shapeCast S256x1x64 (p n) shapeCasts_S256x64_S256x1x64) concatenates_S256x1x64_S256x1x64_S256x1x64_S256x1x64_S256x1x64_S256x1x64_S256x1x64_S256x1x64_S256x1x64_S256x1x64_S256x1x64_S256x1x64_S256x1x64_S256x1x64_S256x1x64_S256x1x64_S256x16x64_d1 rfl rfl (ix3 s h d) h rfl (ix3 s (0 : Fin 1) d)
    (fun b hb => by
      match b with
      | ⟨0, _⟩ => rfl
      | ⟨1, _⟩ => exact absurd rfl hb
      | ⟨2, _⟩ => rfl)).trans ?_
  exact shapeCast_apply (p h) shapeCasts_S256x64_S256x1x64 (ix3 s (0 : Fin 1) d) (ix2 s d) (by
    rw [Shape.rowMajor_val_three, Shape.rowMajor_val_two]
    show s.val * 64 + d.val = (s.val * 1 + 0) * 64 + d.val
    omega)

end AtIdeal

/-! ## The stored value at an index -/

section Stored

/-- The body's stored value at row `s`, head `h`, lane `d`: the sum over the 2048 positions of the softmax weight of the
    scaled score of query row `s` against key row `t` (both at head `h`) times the value at row `t`, head `h`, lane `d`. -/
theorem stored_apply (x0 : S1x256x16x64.Idx → EReal) (x1 x2 : S1x2048x16x64.Idx → EReal) (u : Fin 1) (s : Fin 256) (h : Fin 16) (d : Fin 64) :
    stored (F := Ideal) x0 x1 x2 (ix4 u s h d)
      = ∑ t : Fin 2048, weightOf (fun t' => (∑ e : Fin 64, x0 (ix4 (0 : Fin 1) s h e) * x1 (ix4 (0 : Fin 1) t' h e)) * Cert.Spec.scale) t
          * x2 (ix4 (0 : Fin 1) t h d) := by
  unfold stored
  rw [pay2_eq_stack16, stack16_apply]
  match h with
  | ⟨0, _⟩ =>
    exact (congrFun (head0_eq (F := Ideal) x0 x1 x2) (ix2 s d)).trans
      (headOut_apply 0 _ _ x0 x1 x2 ⟨0, by decide⟩ rfl s d)
  | ⟨1, _⟩ =>
    exact (congrFun (head1_eq (F := Ideal) x0 x1 x2) (ix2 s d)).trans
      (headOut_apply 1 _ _ x0 x1 x2 ⟨1, by decide⟩ rfl s d)
  | ⟨2, _⟩ =>
    exact (congrFun (head2_eq (F := Ideal) (k1_pay3 (F := Ideal) x0) (k1_pay4 (F := Ideal) x1) (k1_pay5 (F := Ideal) x2)) (ix2 s d)).trans
      (headOut_apply 2 _ _ x0 x1 x2 ⟨2, by decide⟩ rfl s d)
  | ⟨3, _⟩ =>
    exact (congrFun (head3_eq (F := Ideal) (k1_pay3 (F := Ideal) x0) (k1_pay4 (F := Ideal) x1) (k1_pay5 (F := Ideal) x2)) (ix2 s d)).trans
      (headOut_apply 3 _ _ x0 x1 x2 ⟨3, by decide⟩ rfl s d)
  | ⟨4, _⟩ =>
    exact (congrFun (head4_eq (F := Ideal) (k1_pay3 (F := Ideal) x0) (k1_pay4 (F := Ideal) x1) (k1_pay5 (F := Ideal) x2)) (ix2 s d)).trans
      (headOut_apply 4 _ _ x0 x1 x2 ⟨4, by decide⟩ rfl s d)
  | ⟨5, _⟩ =>
    exact (congrFun (head5_eq (F := Ideal) (k1_pay3 (F := Ideal) x0) (k1_pay4 (F := Ideal) x1) (k1_pay5 (F := Ideal) x2)) (ix2 s d)).trans
      (headOut_apply 5 _ _ x0 x1 x2 ⟨5, by decide⟩ rfl s d)
  | ⟨6, _⟩ =>
    exact (congrFun (head6_eq (F := Ideal) (k1_pay3 (F := Ideal) x0) (k1_pay4 (F := Ideal) x1) (k1_pay5 (F := Ideal) x2)) (ix2 s d)).trans
      (headOut_apply 6 _ _ x0 x1 x2 ⟨6, by decide⟩ rfl s d)
  | ⟨7, _⟩ =>
    exact (congrFun (head7_eq (F := Ideal) (k1_pay3 (F := Ideal) x0) (k1_pay4 (F := Ideal) x1) (k1_pay5 (F := Ideal) x2)) (ix2 s d)).trans
      (headOut_apply 7 _ _ x0 x1 x2 ⟨7, by decide⟩ rfl s d)
  | ⟨8, _⟩ =>
    exact (congrFun (head8_eq (F := Ideal) (k1_pay3 (F := Ideal) x0) (k1_pay4 (F := Ideal) x1) (k1_pay5 (F := Ideal) x2)) (ix2 s d)).trans
      (headOut_apply 8 _ _ x0 x1 x2 ⟨8, by decide⟩ rfl s d)
  | ⟨9, _⟩ =>
    exact (congrFun (head9_eq (F := Ideal) (k1_pay3 (F := Ideal) x0) (k1_pay4 (F := Ideal) x1) (k1_pay5 (F := Ideal) x2)) (ix2 s d)).trans
      (headOut_apply 9 _ _ x0 x1 x2 ⟨9, by decide⟩ rfl s d)
  | ⟨10, _⟩ =>
    exact (congrFun (head10_eq (F := Ideal) (k1_pay3 (F := Ideal) x0) (k1_pay4 (F := Ideal) x1) (k1_pay5 (F := Ideal) x2)) (ix2 s d)).trans
      (headOut_apply 10 _ _ x0 x1 x2 ⟨10, by decide⟩ rfl s d)
  | ⟨11, _⟩ =>
    exact (congrFun (head11_eq (F := Ideal) (k1_pay3 (F := Ideal) x0) (k1_pay4 (F := Ideal) x1) (k1_pay5 (F := Ideal) x2)) (ix2 s d)).trans
      (headOut_apply 11 _ _ x0 x1 x2 ⟨11, by decide⟩ rfl s d)
  | ⟨12, _⟩ =>
    exact (congrFun (head12_eq (F := Ideal) (k1_pay3 (F := Ideal) x0) (k1_pay4 (F := Ideal) x1) (k1_pay5 (F := Ideal) x2)) (ix2 s d)).trans
      (headOut_apply 12 _ _ x0 x1 x2 ⟨12, by decide⟩ rfl s d)
  | ⟨13, _⟩ =>
    exact (congrFun (head13_eq (F := Ideal) (k1_pay3 (F := Ideal) x0) (k1_pay4 (F := Ideal) x1) (k1_pay5 (F := Ideal) x2)) (ix2 s d)).trans
      (headOut_apply 13 _ _ x0 x1 x2 ⟨13, by decide⟩ rfl s d)
  | ⟨14, _⟩ =>
    exact (congrFun (head14_eq (F := Ideal) (k1_pay3 (F := Ideal) x0) (k1_pay4 (F := Ideal) x1) (k1_pay5 (F := Ideal) x2)) (ix2 s d)).trans
      (headOut_apply 14 _ _ x0 x1 x2 ⟨14, by decide⟩ rfl s d)
  | ⟨15, _⟩ =>
    exact (congrFun (head15_eq (F := Ideal) (k1_pay3 (F := Ideal) x0) (k1_pay4 (F := Ideal) x1) (k1_pay5 (F := Ideal) x2)) (ix2 s d)).trans
      (headOut_apply 15 _ _ x0 x1 x2 ⟨15, by decide⟩ rfl s d)
  | ⟨n + 16, hn⟩ => exact absurd hn (by omega)

end Stored

end Attn

open Attn

/-! ## What the body leaves in the output window's buffer, at an index -/

/-- The four zero offsets of a whole-buffer access. -/
theorem zeroOffsets4 : (![0, 0, 0, 0] : Fin 4 → Nat) = fun _ => 0 := by
  funext a
  match a with
  | ⟨0, _⟩ => rfl
  | ⟨1, _⟩ => rfl
  | ⟨2, _⟩ => rfl
  | ⟨3, _⟩ => rfl

/-- **The output block at row `s`, head `h`, lane `d` is attention on the three input blocks there.** The body loads the
    three blocks whole and stores its one value whole, so the buffer it leaves is that value, read above. -/
theorem out1_3_apply (x0 : Vec Ideal S1x256x16x64 .bf16) (x1 x2 : Vec Ideal S1x2048x16x64 .bf16) (s : Fin 256) (h : Fin 16) (d : Fin 64) :
    out1_3 (F := Ideal) x0 x1 x2 (ix4 (0 : Fin 1) s h d) = Cert.Spec.blkAttn x0 x1 x2 s h d := by
  have hs : out1_3 (F := Ideal) x0 x1 x2 = stored (F := Ideal) x0 x1 x2 := by
    unfold out1_3
    rw [View.canon_unit_zero zeroOffsets4]
    simp only [View.ld_unit_zero (S := S1x256x16x64) zeroOffsets4, View.ld_unit_zero (S := S1x2048x16x64) zeroOffsets4]
    rfl
  rw [hs]
  exact stored_apply x0 x1 x2 0 s h d

end Cert.KernelIdeal.Hand

end
-- ==== Proof.KI.Val1.lean ====
/- Region 1 of @main, the attention call, read as a value: the output array after the region is attention of the three
   input arrays as the region finds them. Each grid point (n, qi) of the (4, 8) grid stages rows qi·256 … qi·256 + 255
   of batch element n of the queries and all of batch element n of the keys and the values; what its body leaves in the
   output block is attention on those blocks; the 32 output blocks tile the array. -/
import proofs.«178435_j39754217292149_2_alg».proof.Proof.KI.Dat1
import proofs.«178435_j39754217292149_2_alg».proof.Proof.KI.HeadMath
import proofs.«178435_j39754217292149_2_alg».proof.Proof.BlockSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The grid: point `t` has coordinates `(t / 8, t % 8)` -/

/-- The printed index maps, decided over the 32 points: at point `t` the query and output windows are at block
    `(t / 8, t % 8, 0, 0)`, the key and value windows at block `(t / 8, 0, 0, 0)`. -/
theorem idx_facts1 : ∀ t : Fin cfg1.N,
    win1_0.index t (0 : Fin 4) = t.val / 8 ∧ win1_0.index t (1 : Fin 4) = t.val % 8 ∧ win1_0.index t (2 : Fin 4) = 0 ∧ win1_0.index t (3 : Fin 4) = 0
    ∧ win1_1.index t (0 : Fin 4) = t.val / 8 ∧ win1_1.index t (1 : Fin 4) = 0 ∧ win1_1.index t (2 : Fin 4) = 0 ∧ win1_1.index t (3 : Fin 4) = 0
    ∧ win1_2.index t (0 : Fin 4) = t.val / 8 ∧ win1_2.index t (1 : Fin 4) = 0 ∧ win1_2.index t (2 : Fin 4) = 0 ∧ win1_2.index t (3 : Fin 4) = 0
    ∧ win1_3.index t (0 : Fin 4) = t.val / 8 ∧ win1_3.index t (1 : Fin 4) = t.val % 8 ∧ win1_3.index t (2 : Fin 4) = 0 ∧ win1_3.index t (3 : Fin 4) = 0 :=
  (by decide +kernel : ∀ t : Fin grid1.N, _)

/-- The batch element of point `t`, -/
def ptN (t : Fin cfg1.N) : Fin 4 := ⟨t.val / 8, by have h : t.val < grid1.N := t.isLt; rw [N_1] at h; omega⟩
/-- and its block of 256 query positions. -/
def ptQ (t : Fin cfg1.N) : Fin 8 := ⟨t.val % 8, Nat.mod_lt _ (by decide)⟩

/-! ## The three block reads at a symbolic point -/

/-- The query block at point `t` holds rows `qi·256 …` of batch element `n` of the query array. -/
theorem iblk1_0_apply (c : Dev nD) (t : Fin cfg1.N) (s : Fin 256) (h : Fin 16) (e : Fin 64) :
    (iblk1 V c 0 t : S1x256x16x64.Idx → EReal) (ix4 (0 : Fin 1) s h e)
      = (V c main_v9 : S4x2048x16x64.Idx → EReal) (ix4 (ptN t) (Cert.Spec.pos (ptQ t) s) h e) := by
  obtain ⟨e0, e1, e2, e3, -⟩ := idx_facts1 t
  unfold iblk1
  rw [View.read_apply]
  show (V c main_v9 : S4x2048x16x64.Idx → EReal) _ = (V c main_v9 : S4x2048x16x64.Idx → EReal) _
  congr 1
  funext a
  apply Fin.ext
  match a with
  | ⟨0, _⟩ => show win1_0.index t (0 : Fin 4) * 1 + 1 * 0 = t.val / 8; omega
  | ⟨1, _⟩ => show win1_0.index t (1 : Fin 4) * 256 + 1 * s.val = t.val % 8 * 256 + s.val; omega
  | ⟨2, _⟩ => show win1_0.index t (2 : Fin 4) * 16 + 1 * h.val = h.val; omega
  | ⟨3, _⟩ => show win1_0.index t (3 : Fin 4) * 64 + 1 * e.val = e.val; omega

/-- The key block at point `t` holds all of batch element `n` of the key array. -/
theorem iblk1_1_apply (c : Dev nD) (t : Fin cfg1.N) (t' : Fin 2048) (h : Fin 16) (e : Fin 64) :
    (iblk1 V c 1 t : S1x2048x16x64.Idx → EReal) (ix4 (0 : Fin 1) t' h e)
      = (V c main_v10 : S4x2048x16x64.Idx → EReal) (ix4 (ptN t) t' h e) := by
  obtain ⟨-, -, -, -, e0, e1, e2, e3, -⟩ := idx_facts1 t
  unfold iblk1
  rw [View.read_apply]
  show (V c main_v10 : S4x2048x16x64.Idx → EReal) _ = (V c main_v10 : S4x2048x16x64.Idx → EReal) _
  congr 1
  funext a
  apply Fin.ext
  match a with
  | ⟨0, _⟩ => show win1_1.index t (0 : Fin 4) * 1 + 1 * 0 = t.val / 8; omega
  | ⟨1, _⟩ => show win1_1.index t (1 : Fin 4) * 2048 + 1 * t'.val = t'.val; omega
  | ⟨2, _⟩ => show win1_1.index t (2 : Fin 4) * 16 + 1 * h.val = h.val; omega
  | ⟨3, _⟩ => show win1_1.index t (3 : Fin 4) * 64 + 1 * e.val = e.val; omega

/-- The value block at point `t` holds all of batch element `n` of the value array. -/
theorem iblk1_2_apply (c : Dev nD) (t : Fin cfg1.N) (t' : Fin 2048) (h : Fin 16) (e : Fin 64) :
    (iblk1 V c 2 t : S1x2048x16x64.Idx → EReal) (ix4 (0 : Fin 1) t' h e)
      = (V c main_v11 : S4x2048x16x64.Idx → EReal) (ix4 (ptN t) t' h e) := by
  obtain ⟨-, -, -, -, -, -, -, -, e0, e1, e2, e3, -⟩ := idx_facts1 t
  unfold iblk1
  rw [View.read_apply]
  show (V c main_v11 : S4x2048x16x64.Idx → EReal) _ = (V c main_v11 : S4x2048x16x64.Idx → EReal) _
  congr 1
  funext a
  apply Fin.ext
  match a with
  | ⟨0, _⟩ => show win1_2.index t (0 : Fin 4) * 1 + 1 * 0 = t.val / 8; omega
  | ⟨1, _⟩ => show win1_2.index t (1 : Fin 4) * 2048 + 1 * t'.val = t'.val; omega
  | ⟨2, _⟩ => show win1_2.index t (2 : Fin 4) * 16 + 1 * h.val = h.val; omega
  | ⟨3, _⟩ => show win1_2.index t (3 : Fin 4) * 64 + 1 * e.val = e.val; omega

/-! ## What a point writes back -/

/-- Attention of the three input arrays as the region finds them: what the output array ends holding. -/
abbrev G1 (c : Dev nD) : S4x2048x16x64.Idx → EReal :=
  Cert.Spec.attn (V c main_v9 : S4x2048x16x64.Idx → EReal) (V c main_v10 : S4x2048x16x64.Idx → EReal) (V c main_v11 : S4x2048x16x64.Idx → EReal)

/-- An element of the output block at point `t` sits in the array at batch element `n`, position `qi·256 + s`. -/
theorem emb1_3 (t : Fin cfg1.N) (s : Fin 256) (h : Fin 16) (d : Fin 64) :
    ((cfg1.win 3).blk t).view.emb (ix4 (0 : Fin 1) s h d) = (ix4 (ptN t) (Cert.Spec.pos (ptQ t) s) h d : S4x2048x16x64.Idx) := by
  obtain ⟨-, -, -, -, -, -, -, -, -, -, -, -, e0, e1, e2, e3⟩ := idx_facts1 t
  funext a
  apply Fin.ext
  match a with
  | ⟨0, _⟩ => show win1_3.index t (0 : Fin 4) * 1 + 1 * 0 = t.val / 8; omega
  | ⟨1, _⟩ => show win1_3.index t (1 : Fin 4) * 256 + 1 * s.val = t.val % 8 * 256 + s.val; omega
  | ⟨2, _⟩ => show win1_3.index t (2 : Fin 4) * 16 + 1 * h.val = h.val; omega
  | ⟨3, _⟩ => show win1_3.index t (3 : Fin 4) * 64 + 1 * d.val = d.val; omega

/-- WHAT POINT `t` WRITES BACK is block `t` of attention of the input arrays: the body leaves attention on the
    point's blocks, which are the arrays' rows the whole layer's formula reads at the block's positions. -/
theorem flushed1_3_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  funext (y : S1x256x16x64.Idx)
  obtain ⟨y0, s, h, d, rfl⟩ : ∃ (y0 : Fin 1) (s : Fin 256) (h : Fin 16) (d : Fin 64), y = ix4 y0 s h d :=
    ⟨y 0, y 1, y 2, y 3, eq_ix4 y⟩
  obtain rfl : y0 = 0 := Subsingleton.elim _ _
  show out1_3 (iblk1 V c 0 t) (iblk1 V c 1 t) (iblk1 V c 2 t) (ix4 (0 : Fin 1) s h d)
    = G1 V c (((cfg1.win 3).blk t).view.emb (ix4 (0 : Fin 1) s h d))
  rw [out1_3_apply, emb1_3]
  show _ = Cert.Spec.attnAt _ _ _ (ptN t) (Cert.Spec.pos (ptQ t) s) h d
  exact (Cert.Spec.attnAt_eq_blkAttn _ _ _ _ _ _ (ptN t) (ptQ t)
    (fun s h e => iblk1_0_apply V c t s h e) (fun t' h e => iblk1_1_apply V c t t' h e) (fun t' h e => iblk1_2_apply V c t t' h e) s h d).symm

/-! ## The output blocks tile the array -/

/-- An index of the array is in point `t`'s block iff each coordinate is in the block's range on its axis. -/
theorem mem_blk1_3 (t : Fin cfg1.N) (i : S4x2048x16x64.Idx) :
    i ∈ ((cfg1.win 3).blk t).view.set ↔ ∀ a : Fin 4, win1_3.index t a * S1x256x16x64.size a ≤ (i a).val ∧ (i a).val < win1_3.index t a * S1x256x16x64.size a + S1x256x16x64.size a := by
  show i ∈ ((View.whole main_v12).slice (win1_3.rect t)).set ↔ _
  rw [View.set_slice_whole, Rect.mem_set_unit]
  exact Iff.rfl

/-- Index `(n, p, h, d)` is in the block of the point with coordinates `(n, p / 256)`. -/
theorem covered1_3 (i : S4x2048x16x64.Idx) :
    ∃ t : Fin cfg1.N, (cfg1.win 3).flush t = true ∧ i ∈ ((cfg1.win 3).blk t).view.set := by
  obtain ⟨n, p, h, d, rfl⟩ : ∃ (n : Fin 4) (p : Fin 2048) (h : Fin 16) (d : Fin 64), i = ix4 n p h d :=
    ⟨i 0, i 1, i 2, i 3, eq_ix4 i⟩
  have hn := n.isLt; have hp := p.isLt; have hh := h.isLt; have hd := d.isLt
  have hN : n.val * 8 + p.val / 256 < cfg1.N := by show _ < grid1.N; rw [N_1]; omega
  refine ⟨⟨n.val * 8 + p.val / 256, hN⟩, flush1_3 _, ?_⟩
  obtain ⟨-, -, -, -, -, -, -, -, -, -, -, -, e0, e1, e2, e3⟩ := idx_facts1 ⟨n.val * 8 + p.val / 256, hN⟩
  rw [mem_blk1_3]
  intro a
  match a with
  | ⟨0, _⟩ =>
    show win1_3.index ⟨n.val * 8 + p.val / 256, hN⟩ (0 : Fin 4) * 1 ≤ n.val ∧ n.val < win1_3.index ⟨n.val * 8 + p.val / 256, hN⟩ (0 : Fin 4) * 1 + 1
    rw [e0]; show (n.val * 8 + p.val / 256) / 8 * 1 ≤ n.val ∧ n.val < (n.val * 8 + p.val / 256) / 8 * 1 + 1; omega
  | ⟨1, _⟩ =>
    show win1_3.index ⟨n.val * 8 + p.val / 256, hN⟩ (1 : Fin 4) * 256 ≤ p.val ∧ p.val < win1_3.index ⟨n.val * 8 + p.val / 256, hN⟩ (1 : Fin 4) * 256 + 256
    rw [e1]; show (n.val * 8 + p.val / 256) % 8 * 256 ≤ p.val ∧ p.val < (n.val * 8 + p.val / 256) % 8 * 256 + 256; omega
  | ⟨2, _⟩ =>
    show win1_3.index ⟨n.val * 8 + p.val / 256, hN⟩ (2 : Fin 4) * 16 ≤ h.val ∧ h.val < win1_3.index ⟨n.val * 8 + p.val / 256, hN⟩ (2 : Fin 4) * 16 + 16
    rw [e2]; omega
  | ⟨3, _⟩ =>
    show win1_3.index ⟨n.val * 8 + p.val / 256, hN⟩ (3 : Fin 4) * 64 ≤ d.val ∧ d.val < win1_3.index ⟨n.val * 8 + p.val / 256, hN⟩ (3 : Fin 4) * 64 + 64
    rw [e3]; omega

/-! ## The array after the region -/

/-- The output array after the region is attention of the three input arrays as the region finds them. -/
theorem arr1_3 (c : Dev nD) : ((dat1 (F := Ideal) V c).arrAt 3 cfg1.N : S4x2048x16x64.Idx → EReal)
    = Cert.Spec.attn (V c main_v9 : S4x2048x16x64.Idx → EReal) (V c main_v10 : S4x2048x16x64.Idx → EReal) (V c main_v11 : S4x2048x16x64.Idx → EReal) :=
  (dat1 (F := Ideal) V c).arrAt_eq_of_cover 3 (G1 V c) (fun t _ => flushed1_3_eq V c t) covered1_3

end Cert.KernelIdeal.Hand

end
-- ==== Proof.KI.Val2.lean ====
import proofs.«178435_j39754217292149_2_alg».proof.Proof.KI.Dat2
import proofs.«178435_j39754217292149_2_alg».proof.Proof.KI.LinMath
import Idealize.ShloMosaic.Lib.Pipeline.Value
import Idealize.ShloMosaic.Lib.ValueIdx
import Idealize.ShloMosaic.Lib.ValueLayout
import Idealize.ShloMosaic.PureOps.Ideal.Laws

/-! # Region 2 (the output projection): the output array after the region, at the ideal values

Every point of the grid writes back one [1024, 1024] row block of the output; the block is the body's payload of
the point's three input blocks, the payload is a row of the activations times a column of the weights plus the
bias, and the input blocks are rows `t·1024 …` of the activations and the whole weights and bias. The eight row
blocks tile the [8192, 1024] array, so the array ends at the linear layer of the three arrays the region found. -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The zero offsets of a whole-buffer access, as the constant function. -/
theorem hz2 : (![0, 0] : Fin 2 → Nat) = fun _ => 0 := funext fun a => by fin_cases a <;> rfl

/-- The output projection as ONE function of whole arrays: entry `(r, q)` is row `r` of the [8192, 1024]
    activations times column `q` of the [1024, 1024] weights, plus the bias at `q`. -/
def lin2 (a0 : S8192x1024.Idx → EReal) (a1 : S1024x1024.Idx → EReal) (a2 : S1x1024.Idx → EReal) : S8192x1024.Idx → EReal :=
  fun i => (∑ k : Fin 1024, a0 (ix2 (i 0) k) * a1 (ix2 k (i 1))) + a2 (ix2 0 (i 1))

theorem lin2_apply (a0 : S8192x1024.Idx → EReal) (a1 : S1024x1024.Idx → EReal) (a2 : S1x1024.Idx → EReal) (i : S8192x1024.Idx) :
    lin2 a0 a1 a2 i = (∑ k : Fin 1024, a0 (ix2 (i 0) k) * a1 (ix2 k (i 1))) + a2 (ix2 0 (i 1)) := rfl

theorem lin2_ix2 (a0 : S8192x1024.Idx → EReal) (a1 : S1024x1024.Idx → EReal) (a2 : S1x1024.Idx → EReal) (r : Fin 8192) (q : Fin 1024) :
    lin2 a0 a1 a2 (ix2 r q) = (∑ k : Fin 1024, a0 (ix2 r k) * a1 (ix2 k q)) + a2 (ix2 0 q) := rfl

/-- The payload of a row block whose entries are rows `r - p … ` of the arrays is the layer at row `r`: if row
    `p` of the activations' block is row `r` of the array, and the weights' and bias's blocks agree with their
    arrays on column `q`, entry `(p, q)` of the payload is entry `(r, q)` of `lin2`. -/
theorem lin2_of_blocks (a0 : S8192x1024.Idx → EReal) (a1 : S1024x1024.Idx → EReal) (a2 : S1x1024.Idx → EReal)
    (x0 : Vec Ideal S1024x1024 .bf16) (x1 : Vec Ideal S1024x1024 .bf16) (x2 : Vec Ideal S1x1024 .f32)
    (p q : Fin 1024) (r : Fin 8192)
    (h0 : ∀ k : Fin 1024, (x0 : S1024x1024.Idx → EReal) (ix2 p k) = a0 (ix2 r k))
    (h1 : ∀ k : Fin 1024, (x1 : S1024x1024.Idx → EReal) (ix2 k q) = a1 (ix2 k q))
    (h2 : (x2 : S1x1024.Idx → EReal) (ix2 0 q) = a2 (ix2 0 q)) :
    (k2_pay1 (F := Ideal) x0 x1 x2 : S1024x1024.Idx → EReal) (ix2 p q) = lin2 a0 a1 a2 (ix2 r q) := by
  rw [k2_pay1_apply, lin2_ix2, h2]
  congr 1
  exact Finset.sum_congr rfl fun k _ => by rw [h0 k, h1 k]

/-- The index maps over the grid's eight points: the activations' and the output's block at point `t` is row block
    `t`, all columns; the weights' and the bias's block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(p, k)` of the activations' block at point `t` is entry `(t·1024 + p, k)` of the array. -/
theorem iblk2_0_apply (c : Dev nD) (t : Fin cfg2.N) (p k : Fin 1024) (r : Fin 8192) (hr : r.val = t.val * 1024 + p.val) :
    (iblk2 V c 0 t : Vec Ideal S1024x1024 .bf16) (ix2 p k) = (V c main_v13 : S8192x1024.Idx → EReal) (ix2 r k) := by
  obtain ⟨e0, e1, -⟩ := idx_facts2 t
  unfold iblk2
  rw [View.read_apply]
  show V c main_v13 _ = V c main_v13 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 1024 + 1 * k.val = k.val; rw [e1]; omega

/-- The weights' block at any point is the whole array. -/
theorem iblk2_1_apply (c : Dev nD) (t : Fin cfg2.N) (k q : Fin 1024) :
    (iblk2 V c 1 t : Vec Ideal S1024x1024 .bf16) (ix2 k q) = (V c main_v15 : S1024x1024.Idx → EReal) (ix2 k q) := by
  obtain ⟨-, -, e0, e1, -⟩ := idx_facts2 t
  unfold iblk2
  rw [View.read_apply]
  show V c main_v15 _ = V c main_v15 _
  congr 1
  funext a
  apply Fin.ext
  match a with
  | ⟨0, _⟩ => show win2_1.index t (0 : Fin 2) * 1024 + 1 * k.val = k.val; rw [e0]; omega
  | ⟨1, _⟩ => show win2_1.index t (1 : Fin 2) * 1024 + 1 * q.val = q.val; rw [e1]; omega

/-- The bias's block at any point is the whole row. -/
theorem iblk2_2_apply (c : Dev nD) (t : Fin cfg2.N) (q : Fin 1024) :
    (iblk2 V c 2 t : Vec Ideal S1x1024 .f32) (ix2 0 q) = (V c main_v16 : S1x1024.Idx → EReal) (ix2 0 q) := by
  obtain ⟨-, -, -, -, e0, e1, -⟩ := idx_facts2 t
  unfold iblk2
  rw [View.read_apply]
  show V c main_v16 _ = V c main_v16 _
  congr 1
  funext a
  apply Fin.ext
  match a with
  | ⟨0, _⟩ => show win2_2.index t (0 : Fin 2) * 1 + 1 * 0 = 0; rw [e0]
  | ⟨1, _⟩ => show win2_2.index t (1 : Fin 2) * 1024 + 1 * q.val = q.val; rw [e1]; omega

/-- WHAT POINT `t` WRITES BACK is block `t` of `lin2` of the three arrays as the region finds them: the body's one
    whole-buffer store holds the payload over the three whole-buffer loads, and entry `(p, q)` of the payload reads
    row `t·1024 + p` of the activations, column `q` of the weights and the bias at `q`. -/
theorem flushed2_3_eq (c : Dev nD) (t : Fin cfg2.N) :
    (dat2 V c).flushed 3 t
      = ((cfg2.win 3).blk t).view.read (Elt Ideal) (lin2 (V c main_v13) (V c main_v15) (V c main_v16)) := by
  obtain ⟨-, -, -, -, -, -, e0, e1⟩ := idx_facts2 t
  have hN : cfg2.N = 8 := N_2
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  funext j
  obtain ⟨p, q, rfl⟩ : ∃ (p : Fin 1024) (q : Fin 1024), j = ix2 p q := ⟨j 0, j 1, eq_ix2 j⟩
  have hr : t.val * 1024 + p.val < 8192 := by have := t.isLt; omega
  show (k2_pay1 (F := Ideal) (iblk2 V c 0 t) (iblk2 V c 1 t) (iblk2 V c 2 t) : S1024x1024.Idx → EReal) (ix2 p q)
    = lin2 (V c main_v13) (V c main_v15) (V c main_v16) (((cfg2.win 3).blk t).view.emb (ix2 p q))
  have hemb : ((cfg2.win 3).blk t).view.emb (ix2 p q) = ix2 (⟨t.val * 1024 + p.val, hr⟩ : Fin 8192) q := by
    funext a; apply Fin.ext
    match a with
    | ⟨0, _⟩ => show win2_3.index t (0 : Fin 2) * 1024 + 1 * p.val = t.val * 1024 + p.val; rw [e0]; omega
    | ⟨1, _⟩ => show win2_3.index t (1 : Fin 2) * 1024 + 1 * q.val = q.val; rw [e1]; omega
  rw [hemb]
  exact lin2_of_blocks (V c main_v13) (V c main_v15) (V c main_v16) (iblk2 V c 0 t) (iblk2 V c 1 t) (iblk2 V c 2 t)
    p q ⟨t.val * 1024 + p.val, hr⟩ (fun k => iblk2_0_apply V c t p k ⟨t.val * 1024 + p.val, hr⟩ rfl)
    (fun k => iblk2_1_apply V c t k q) (iblk2_2_apply V c t q)
/-- The output's blocks tile its array: row `r` lies in the block of point `r / 1024`. -/
theorem covered2_3 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by omega⟩, rfl⟩
  obtain ⟨-, -, -, -, -, -, e0, e1⟩ := idx_facts2 t
  refine ⟨t, flush2_3 t, ?_⟩
  show i ∈ ((View.whole main_v17).slice (win2_3.rect t)).set
  rw [View.set_slice_whole, Rect.mem_set_unit]
  intro a
  match a with
  | ⟨0, _⟩ =>
    show win2_3.index t (0 : Fin 2) * 1024 ≤ (i 0).val ∧ (i 0).val < win2_3.index t (0 : Fin 2) * 1024 + 1024
    rw [e0]; omega
  | ⟨1, _⟩ =>
    show win2_3.index t (1 : Fin 2) * 1024 ≤ (i 1).val ∧ (i 1).val < win2_3.index t (1 : Fin 2) * 1024 + 1024
    rw [e1]; omega

/-- THE OUTPUT ARRAY after the region: the linear layer of the three arrays the region found, entry by entry. -/
theorem arr2_3 (c : Dev nD) : ((dat2 (F := Ideal) V c).arrAt 3 cfg2.N : S8192x1024.Idx → EReal)
      = lin2 (V c main_v13) (V c main_v15) (V c main_v16) :=
  (dat2 V c).arrAt_eq_of_cover 3 (lin2 (V c main_v13) (V c main_v15) (V c main_v16)) (fun t _ => flushed2_3_eq V c t) covered2_3

end Cert.KernelIdeal.Hand

end
-- ==== Proof.Compose.lean ====
/-
  The three kernels and the host operations between them, composed. Given, index by index, what each stage's array holds
  in terms of the previous stage's — the flattened input, the three weights side by side and the three biases end to end,
  the three projections (a row of the input against a column of the weights, plus the bias), their reshapes into heads,
  attention, its reshape back, the transposed output weight and the output bias, the output projection, the last reshape —
  the last array is the whole layer's result. Nothing here is more than substitution: each stage's formula is the
  specification's, in that stage's coordinates.
-/
import proofs.«178435_j39754217292149_2_alg».proof.Proof.Layout

noncomputable section

namespace Cert.Compose

open Idealize.ShloMosaic Idealize.ShloMosaic.ValueIdx Cert.Spec Cert.Layout

theorem lin_ix3 (x : X) (W : Wt) (b : Bs) (n : Fin 4) (s : Fin 2048) (e : Fin 1024) : lin x W b (ix3 n s e) = linAt x W b n s e := rfl
theorem split_ix4 (y : X) (n : Fin 4) (s : Fin 2048) (h : Fin 16) (d : Fin 64) : split y (ix4 n s h d) = y (ix3 n s (feat h d)) := rfl
theorem merge_ix3 (y : Hd) (n : Fin 4) (s : Fin 2048) (j : Fin 1024) : merge y (ix3 n s j) = y (ix4 n s (headOf j) (laneOf j)) := rfl

/-- One projection, cut into heads: a reshape of `rows · (weights' columns from off) + bias` is the specification's linear
    layer cut into heads. -/
theorem heads_of_proj (x : X) (W : Wt) (b : Bs) (off : Nat) (hoff : off + 1024 ≤ 3072)
    (v0 : S2.Idx → EReal) (v5 : S3W.Idx → EReal) (v7 : S3R.Idx → EReal) (p2 : S2.Idx → EReal) (p4 : Hd)
    (h_v0 : ∀ (n : Fin 4) (s : Fin 2048) (k : Fin 1024), v0 (ix2 (row n s) k) = x (ix3 n s k))
    (h_v5 : ∀ k e : Fin 1024, v5 (ix2 k (col off hoff e)) = W (ix2 e k))
    (h_v7 : ∀ e : Fin 1024, v7 (ix2 (0 : Fin 1) (col off hoff e)) = b (ix1 e))
    (h_p2 : ∀ (r : Fin 8192) (e : Fin 1024),
      p2 (ix2 r e) = (∑ k : Fin 1024, v0 (ix2 r k) * v5 (ix2 k (col off hoff e))) + v7 (ix2 (0 : Fin 1) (col off hoff e)))
    (h_p4 : ∀ (n : Fin 4) (s : Fin 2048) (h : Fin 16) (d : Fin 64), p4 (ix4 n s h d) = p2 (ix2 (row n s) (feat h d))) :
    p4 = split (lin x W b) := by
  funext j
  obtain ⟨n, s, h, d, rfl⟩ : ∃ (n : Fin 4) (s : Fin 2048) (h : Fin 16) (d : Fin 64), j = ix4 n s h d :=
    ⟨j 0, j 1, j 2, j 3, eq_ix4 j⟩
  rw [h_p4, h_p2, split_ix4, lin_ix3, h_v7]
  unfold linAt
  exact congrArg (· + b (ix1 (feat h d))) (Finset.sum_congr rfl fun k _ => by rw [h_v0, h_v5])

/-- The whole pipeline. -/
theorem result_of_stages (x : X) (Wq : Wt) (bq : Bs) (Wk : Wt) (bk : Bs) (Wv : Wt) (bv : Bs) (Wp : Wt) (bp : Bs)
    (q4 k4 v4 y4 : Hd) (y2 : S2.Idx → EReal) (wp : SW.Idx → EReal) (bpr : S1R.Idx → EReal) (o2 : S2.Idx → EReal) (o3 : X)
    (h_q : q4 = split (lin x Wq bq)) (h_k : k4 = split (lin x Wk bk)) (h_v : v4 = split (lin x Wv bv))
    (h_y4 : y4 = attn q4 k4 v4)
    (h_y2 : ∀ (n : Fin 4) (s : Fin 2048) (j : Fin 1024), y2 (ix2 (row n s) j) = y4 (ix4 n s (headOf j) (laneOf j)))
    (h_wp : ∀ k e : Fin 1024, wp (ix2 k e) = Wp (ix2 e k))
    (h_bp : ∀ e : Fin 1024, bpr (ix2 (0 : Fin 1) e) = bp (ix1 e))
    (h_o2 : ∀ (r : Fin 8192) (e : Fin 1024), o2 (ix2 r e) = (∑ k : Fin 1024, y2 (ix2 r k) * wp (ix2 k e)) + bpr (ix2 (0 : Fin 1) e))
    (h_o3 : ∀ (n : Fin 4) (s : Fin 2048) (e : Fin 1024), o3 (ix3 n s e) = o2 (ix2 (row n s) e)) :
    o3 = result x Wq bq Wk bk Wv bv Wp bp := by
  funext i
  obtain ⟨n, s, e, rfl⟩ : ∃ (n : Fin 4) (s : Fin 2048) (e : Fin 1024), i = ix3 n s e := ⟨i 0, i 1, i 2, eq_ix3 i⟩
  rw [h_o3, h_o2, h_bp]
  unfold result
  rw [lin_ix3]
  unfold linAt
  refine congrArg (· + bp (ix1 e)) (Finset.sum_congr rfl fun k _ => ?_)
  rw [h_y2, h_wp, merge_ix3, h_y4, h_q, h_k, h_v]

end Cert.Compose

end
-- ==== Proof.KI.Value.lean ====
/-
  The kernel program's result: the buffer it returns, after the run, is the attention layer's result on the argument
  arrays as launched. The buffer contents at the last segment boundary are walked back: the last reshape reads the output
  projection's array; that region's array is rows of the merged heads against the transposed output weight, plus the
  bias; the merged heads are a reshape of the attention region's array, which is attention of the three projections cut
  into heads; each projection is a region-0 array, rows of the flattened input against a third of the side-by-side
  weights plus a third of the end-to-end biases; and no stretch or region in between writes the output weight or bias.
-/
import proofs.«178435_j39754217292149_2_alg».proof.Proof.KI.Frame
import proofs.«178435_j39754217292149_2_alg».proof.Proof.KI.HostIdx
import proofs.«178435_j39754217292149_2_alg».proof.Proof.KI.Val0
import proofs.«178435_j39754217292149_2_alg».proof.Proof.KI.Val1
import proofs.«178435_j39754217292149_2_alg».proof.Proof.KI.Val2
import proofs.«178435_j39754217292149_2_alg».proof.Proof.Compose

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.Layout Cert.Spec

variable (m : (ℓ : Loc nD τ sig) → Buf (Elt Ideal) ℓ) (ρ : Dev nD → PrngReg) (c : Dev nD)

/-- The output layer's weight and bias reach the output projection as launched. -/
theorem W4_arg7 : W4 m ρ c (Proc.devRef .tc main_arg7) = m ((c : Thread nD τ).loc main_arg7) :=
  (W4_of_ne m ρ c main_arg7 (by decide)).trans ((host1_arg7 (W2 m ρ c)).trans
    ((W2_of_ne m ρ c main_arg7 (by decide)).trans (host0_arg7 (W0 m ρ c))))
theorem W4_arg8 : W4 m ρ c (Proc.devRef .tc main_arg8) = m ((c : Thread nD τ).loc main_arg8) :=
  (W4_of_ne m ρ c main_arg8 (by decide)).trans ((host1_arg8 (W2 m ρ c)).trans
    ((W2_of_ne m ρ c main_arg8 (by decide)).trans (host0_arg8 (W0 m ρ c))))

/-- The queries, keys and values the attention kernel finds are the three linear layers cut into heads. -/
theorem q4_eq : (V3 m ρ c main_v9 : Cn ⟨S4x2048x16x64, .bf16⟩)
    = split (lin (m ((c : Thread nD τ).loc main_arg0) : Cn ⟨S4x2048x1024, .f32⟩) (m ((c : Thread nD τ).loc main_arg1) : Cn ⟨S1024x1024, .f32⟩) (m ((c : Thread nD τ).loc main_arg2) : Cn ⟨S1024, .f32⟩)) :=
  Cert.Compose.heads_of_proj _ _ _ 0 (by decide)
    (V1 m ρ c main_v0 : Cn ⟨S8192x1024, .f32⟩) (V1 m ρ c main_v5 : Cn ⟨S1024x3072, .bf16⟩) (V1 m ρ c main_v7 : Cn ⟨S1x3072, .f32⟩)
    (W2 m ρ c (Proc.devRef .tc main_v8_0) : Cn ⟨S8192x1024, .bf16⟩) _
    (host0_v0_at (W0 m ρ c)) (host0_v5_q (W0 m ρ c)) (host0_v7_q (W0 m ρ c))
    (fun r e => congrFun ((W2_arr m ρ c 3).trans (arr0_3 (V1 m ρ) c)) (ix2 r e))
    (host1_v9_at (W2 m ρ c))
theorem k4_eq : (V3 m ρ c main_v10 : Cn ⟨S4x2048x16x64, .bf16⟩)
    = split (lin (m ((c : Thread nD τ).loc main_arg0) : Cn ⟨S4x2048x1024, .f32⟩) (m ((c : Thread nD τ).loc main_arg3) : Cn ⟨S1024x1024, .f32⟩) (m ((c : Thread nD τ).loc main_arg4) : Cn ⟨S1024, .f32⟩)) :=
  Cert.Compose.heads_of_proj _ _ _ 1024 (by decide)
    (V1 m ρ c main_v0 : Cn ⟨S8192x1024, .f32⟩) (V1 m ρ c main_v5 : Cn ⟨S1024x3072, .bf16⟩) (V1 m ρ c main_v7 : Cn ⟨S1x3072, .f32⟩)
    (W2 m ρ c (Proc.devRef .tc main_v8_1) : Cn ⟨S8192x1024, .bf16⟩) _
    (host0_v0_at (W0 m ρ c)) (host0_v5_k (W0 m ρ c)) (host0_v7_k (W0 m ρ c))
    (fun r e => congrFun ((W2_arr m ρ c 4).trans (arr0_4 (V1 m ρ) c)) (ix2 r e))
    (host1_v10_at (W2 m ρ c))
theorem v4_eq : (V3 m ρ c main_v11 : Cn ⟨S4x2048x16x64, .bf16⟩)
    = split (lin (m ((c : Thread nD τ).loc main_arg0) : Cn ⟨S4x2048x1024, .f32⟩) (m ((c : Thread nD τ).loc main_arg5) : Cn ⟨S1024x1024, .f32⟩) (m ((c : Thread nD τ).loc main_arg6) : Cn ⟨S1024, .f32⟩)) :=
  Cert.Compose.heads_of_proj _ _ _ 2048 (by decide)
    (V1 m ρ c main_v0 : Cn ⟨S8192x1024, .f32⟩) (V1 m ρ c main_v5 : Cn ⟨S1024x3072, .bf16⟩) (V1 m ρ c main_v7 : Cn ⟨S1x3072, .f32⟩)
    (W2 m ρ c (Proc.devRef .tc main_v8_2) : Cn ⟨S8192x1024, .bf16⟩) _
    (host0_v0_at (W0 m ρ c)) (host0_v5_v (W0 m ρ c)) (host0_v7_v (W0 m ρ c))
    (fun r e => congrFun ((W2_arr m ρ c 5).trans (arr0_5 (V1 m ρ) c)) (ix2 r e))
    (host1_v11_at (W2 m ρ c))

/-- The returned buffer at the last boundary is the layer's result on the arguments as launched. -/
theorem result_eq : (W7 m ρ c (Proc.devRef .tc main_v18) : Cn ⟨S4x2048x1024, .f32⟩)
    = result (m ((c : Thread nD τ).loc main_arg0) : Cn ⟨S4x2048x1024, .f32⟩)
        (m ((c : Thread nD τ).loc main_arg1) : Cn ⟨S1024x1024, .f32⟩) (m ((c : Thread nD τ).loc main_arg2) : Cn ⟨S1024, .f32⟩)
        (m ((c : Thread nD τ).loc main_arg3) : Cn ⟨S1024x1024, .f32⟩) (m ((c : Thread nD τ).loc main_arg4) : Cn ⟨S1024, .f32⟩)
        (m ((c : Thread nD τ).loc main_arg5) : Cn ⟨S1024x1024, .f32⟩) (m ((c : Thread nD τ).loc main_arg6) : Cn ⟨S1024, .f32⟩)
        (m ((c : Thread nD τ).loc main_arg7) : Cn ⟨S1024x1024, .f32⟩) (m ((c : Thread nD τ).loc main_arg8) : Cn ⟨S1024, .f32⟩) :=
  Cert.Compose.result_of_stages _ _ _ _ _ _ _ _ _
    (V3 m ρ c main_v9 : Cn ⟨S4x2048x16x64, .bf16⟩) (V3 m ρ c main_v10 : Cn ⟨S4x2048x16x64, .bf16⟩) (V3 m ρ c main_v11 : Cn ⟨S4x2048x16x64, .bf16⟩)
    (W4 m ρ c (Proc.devRef .tc main_v12) : Cn ⟨S4x2048x16x64, .bf16⟩)
    (V5 m ρ c main_v13 : Cn ⟨S8192x1024, .bf16⟩) (V5 m ρ c main_v15 : Cn ⟨S1024x1024, .bf16⟩) (V5 m ρ c main_v16 : Cn ⟨S1x1024, .f32⟩)
    (W6 m ρ c (Proc.devRef .tc main_v17) : Cn ⟨S8192x1024, .f32⟩) _
    (q4_eq m ρ c) (k4_eq m ρ c) (v4_eq m ρ c)
    ((W4_arr m ρ c 3).trans (arr1_3 (V3 m ρ) c))
    (host2_v13_at (W4 m ρ c))
    (fun k e => (host2_v15_at (W4 m ρ c) k e).trans (congrFun (W4_arg7 m ρ c) (ix2 e k)))
    (fun e => (host2_v16_at (W4 m ρ c) e).trans (congrFun (W4_arg8 m ρ c) (ix1 e)))
    (fun r e => congrFun ((W6_arr m ρ c 3).trans (arr2_3 (V5 m ρ) c)) (ix2 r e))
    (host3_v18_at (W6 m ρ c))

/-- The kernel program, from any memory with zero counters: every weakly fair execution terminates, nothing faulting,
    with the returned buffer at the layer's result on the arguments as launched and every argument unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
        = result (m ((c.tc : Thread nD τ).loc main_arg0) : Cn ⟨S4x2048x1024, .f32⟩)
            (m ((c.tc : Thread nD τ).loc main_arg1) : Cn ⟨S1024x1024, .f32⟩) (m ((c.tc : Thread nD τ).loc main_arg2) : Cn ⟨S1024, .f32⟩)
            (m ((c.tc : Thread nD τ).loc main_arg3) : Cn ⟨S1024x1024, .f32⟩) (m ((c.tc : Thread nD τ).loc main_arg4) : Cn ⟨S1024, .f32⟩)
            (m ((c.tc : Thread nD τ).loc main_arg5) : Cn ⟨S1024x1024, .f32⟩) (m ((c.tc : Thread nD τ).loc main_arg6) : Cn ⟨S1024, .f32⟩)
            (m ((c.tc : Thread nD τ).loc main_arg7) : Cn ⟨S1024x1024, .f32⟩) (m ((c.tc : Thread nD τ).loc main_arg8) : Cn ⟨S1024, .f32⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v18 (by decide))).trans (result_eq m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run' (F := Ideal) m ρ)

end Cert.KernelIdeal.Hand

end
-- ==== Proof.Ref.lean ====
/-
  The reference program's result is the specification's multi-head self-attention, index by index.

  The program's 43 stages are read one group at a time: a linear layer (a product with the weight's rows, the bias
  broadcast and added); the cut into heads with the head and position axes exchanged; the scaled scores; their row
  maxima (a fold of `max` from the pattern of `-∞`, after which a further maximum with that pattern changes nothing);
  the shifted exponentials, their row sums (the zero pattern is the only constant evaluated) and the quotients; the
  product with the values; the axes exchanged back and the heads laid side by side; the output layer. The pattern of
  `-∞` and the scale are carried as the same words on both sides and are never evaluated.
-/
import proofs.«178435_j39754217292149_2_alg».proof.Proof.Gen.ReferenceIdeal.Read
import proofs.«178435_j39754217292149_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## A linear layer: the product with the weight's rows, plus the bias -/

/-- The left operand of a linear layer's product is read along row `(n, s)`. -/
theorem lidx_lin (n : Fin 4) (s : Fin 2048) (e : Fin 1024) (k : Fin 1024) :
    lidx_main_v0 (ix3 n s e) k = ix3 n s k :=
  funext fun a => Fin.ext (by match a with | ⟨0, _⟩ => rfl | ⟨1, _⟩ => rfl | ⟨2, _⟩ => rfl)

/-- The weight is read along its row `e`. -/
theorem ridx_lin (n : Fin 4) (s : Fin 2048) (e : Fin 1024) (k : Fin 1024) :
    ridx_main_v0 (ix3 n s e) k = ix2 e k :=
  funext fun a => Fin.ext (by match a with | ⟨0, _⟩ => rfl | ⟨1, _⟩ => rfl)

/-- The bias, broadcast twice, is read at the feature. -/
theorem bidx_lin (n : Fin 4) (s : Fin 2048) (e : Fin 1024) :
    idx_main_v1 (idx_main_v2 (ix3 n s e)) = ix1 e :=
  funext fun a => Fin.ext (by match a with | ⟨0, _⟩ => rfl)

theorem lin_at (x : (⟨S4x2048x1024, .f32⟩ : BufTy).Contents (Elt Ideal)) (W : (⟨S1024x1024, .f32⟩ : BufTy).Contents (Elt Ideal))
    (b : (⟨S1024, .f32⟩ : BufTy).Contents (Elt Ideal)) (n : Fin 4) (s : Fin 2048) (e : Fin 1024) :
    val_main_v3 (F := Ideal) x W b (ix3 n s e) = Spec.linAt x W b n s e := by
  rw [val_main_v3_apply, val_main_v0_apply, val_main_v2_apply, val_main_v1_apply, bidx_lin, Ideal.addf_def]
  unfold Spec.linAt
  refine congrArg (· + _) (Finset.sum_congr rfl fun k _ => ?_)
  rw [lidx_lin, ridx_lin]

/-- The first three stages of a linear layer are the specification's `lin`. -/
theorem lin_eq (x : (⟨S4x2048x1024, .f32⟩ : BufTy).Contents (Elt Ideal)) (W : (⟨S1024x1024, .f32⟩ : BufTy).Contents (Elt Ideal))
    (b : (⟨S1024, .f32⟩ : BufTy).Contents (Elt Ideal)) :
    val_main_v3 (F := Ideal) x W b = Spec.lin x W b := by
  funext i
  obtain ⟨n, s, e, rfl⟩ : ∃ (n : Fin 4) (s : Fin 2048) (e : Fin 1024), i = ix3 n s e := ⟨i 0, i 1, i 2, eq_ix3 i⟩
  exact lin_at x W b n s e

/-! ## The features cut into heads, in the [batch, head, position, lane] layout -/

/-- The reshape to [4, 2048, 16, 64] followed by the exchange of the position and head axes reads feature `h·64 + d`. -/
theorem idx_split (n : Fin 4) (h : Fin 16) (s : Fin 2048) (d : Fin 64) :
    idx_main_v4 (idx_main_v5 (ix4 n h s d)) = ix3 n s (Spec.feat h d) := by
  have hn := n.isLt; have hh := h.isLt; have hs := s.isLt; have hd := d.isLt
  refine funext fun a => Fin.ext ?_
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = h.val * 64 + d.val; omega

theorem split_at (x : (⟨S4x2048x1024, .f32⟩ : BufTy).Contents (Elt Ideal)) (W : (⟨S1024x1024, .f32⟩ : BufTy).Contents (Elt Ideal))
    (b : (⟨S1024, .f32⟩ : BufTy).Contents (Elt Ideal)) (n : Fin 4) (h : Fin 16) (s : Fin 2048) (d : Fin 64) :
    val_main_v5 (F := Ideal) x W b (ix4 n h s d) = Spec.linAt x W b n s (Spec.feat h d) := by
  rw [val_main_v5_apply, val_main_v4_apply, idx_split]
  exact lin_at x W b n s (Spec.feat h d)

/-- A [batch, head, position, lane] array read as a [batch, position, head, lane] one. -/
def untr (y : S4x16x2048x64.Idx → EReal) : Spec.Hd := fun i => y (ix4 (i 0) (i 2) (i 1) (i 3))

/-- Six stages (a linear layer, the reshape and the exchange of axes) are the specification's `split` of `lin`. -/
theorem untr_split (x : (⟨S4x2048x1024, .f32⟩ : BufTy).Contents (Elt Ideal)) (W : (⟨S1024x1024, .f32⟩ : BufTy).Contents (Elt Ideal))
    (b : (⟨S1024, .f32⟩ : BufTy).Contents (Elt Ideal)) :
    untr (val_main_v5 (F := Ideal) x W b) = Spec.split (Spec.lin x W b) := by
  funext i
  obtain ⟨n, s, h, d, rfl⟩ : ∃ (n : Fin 4) (s : Fin 2048) (h : Fin 16) (d : Fin 64), i = ix4 n s h d :=
    ⟨i 0, i 1, i 2, i 3, eq_ix4 i⟩
  exact split_at x W b n h s d

/-! ## Scores, their row maxima, the exponentials, the row sums, the weights -/

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

local notation "Qr" => untr (val_main_v5 (F := Ideal) x0 x1 x2)
local notation "Kr" => untr (val_main_v11 (F := Ideal) x0 x3 x4)
local notation "Vr" => untr (val_main_v17 (F := Ideal) x0 x5 x6)

theorem lidx_score (n : Fin 4) (h : Fin 16) (s t : Fin 2048) (k : Fin 64) :
    lidx_main_v18 (ix4 n h s t) k = ix4 n h s k :=
  funext fun a => Fin.ext (by match a with | ⟨0, _⟩ => rfl | ⟨1, _⟩ => rfl | ⟨2, _⟩ => rfl | ⟨3, _⟩ => rfl)

theorem ridx_score (n : Fin 4) (h : Fin 16) (s t : Fin 2048) (k : Fin 64) :
    ridx_main_v18 (ix4 n h s t) k = ix4 n h t k :=
  funext fun a => Fin.ext (by match a with | ⟨0, _⟩ => rfl | ⟨1, _⟩ => rfl | ⟨2, _⟩ => rfl | ⟨3, _⟩ => rfl)

/-- The batched product of queries and keys over the lanes, times the scale. -/
theorem score_at (n : Fin 4) (h : Fin 16) (s t : Fin 2048) :
    val_main_v20 (F := Ideal) x0 x1 x2 x3 x4 (ix4 n h s t) = Spec.score Qr Kr n h s t := by
  rw [val_main_v20_apply, val_main_v18_apply, val_main_v19_apply, val_main_cst_apply, Ideal.mulf_def, Ideal.ofBits_def]
  unfold Spec.score
  refine congrArg (· * _) (Finset.sum_congr rfl fun k _ => ?_)
  rw [lidx_score, ridx_score]
  rfl

/-- A row index with the position `k` of the reduced axis put back. -/
theorem lift_row (hred : S4x16x2048x2048.Reduces [3] S4x16x2048) (n : Fin 4) (h : Fin 16) (s : Fin 2048)
    (k : Fin (S4x16x2048x2048.size 3)) : hred.lift (ix3 n h s) k = ix4 n h s (⟨k.val, k.isLt⟩ : Fin 2048) := by
  funext c; apply Fin.ext
  fin_cases c <;> rfl

/-- The maximum-reduce over the last axis from the pattern of `-∞` is the fold of `max` over the row. -/
theorem reduceMax_at (n : Fin 4) (h : Fin 16) (s : Fin 2048) :
    val_main_v21 (F := Ideal) x0 x1 x2 x3 x4 (ix3 n h s) = Spec.rowMax (fun t' => Spec.score Qr Kr n h s t') := by
  have hred : S4x16x2048x2048.Reduces [3] S4x16x2048 := by decide
  have hf : (val_main_v20 (F := Ideal) x0 x1 x2 x3 x4 ∘ hred.lift (ix3 n h s)) = fun t' : Fin 2048 => Spec.score Qr Kr n h s t' :=
    funext fun k => (congrArg (val_main_v20 (F := Ideal) x0 x1 x2 x3 x4) (lift_row hred n h s k)).trans (score_at x0 x1 x2 x3 x4 n h s _)
  unfold val_main_v21
  rw [Host.reduce_eq_fold_single FloatOps.maximumf _ _ reducesTo_S4x16x2048x2048_S4x16x2048_d3 hred h_S_, val_main_cst_0_apply,
    Ideal.ofBits_def]
  exact congrArg (fun f => Finset.fold max Spec.negInf f (Finset.univ : Finset (Fin 2048))) hf

/-- The maximum with the broadcast pattern of `-∞` changes nothing: the fold starts from that pattern. -/
theorem rowMax_at (n : Fin 4) (h : Fin 16) (s : Fin 2048) :
    val_main_v23 (F := Ideal) x0 x1 x2 x3 x4 (ix3 n h s) = Spec.rowMax (fun t' => Spec.score Qr Kr n h s t') := by
  rw [val_main_v23_apply, val_main_v22_apply, val_main_cst_1_apply, Ideal.maximumf_def, Ideal.ofBits_def, reduceMax_at]
  exact max_eq_right ((Finset.le_fold_max _).mpr (Or.inl le_rfl))

/-- The row maximum, broadcast back along the row, is read at the row's index. -/
theorem idx_rowOf (n : Fin 4) (h : Fin 16) (s t : Fin 2048) :
    idx_main_v24 (idx_main_v25 (ix4 n h s t)) = ix3 n h s :=
  funext fun a => Fin.ext (by match a with | ⟨0, _⟩ => rfl | ⟨1, _⟩ => rfl | ⟨2, _⟩ => rfl)

/-- A score minus its row's maximum, exponentiated. -/
theorem expo_at (n : Fin 4) (h : Fin 16) (s t : Fin 2048) :
    val_main_v27 (F := Ideal) x0 x1 x2 x3 x4 (ix4 n h s t) = Spec.expo Qr Kr n h s t := by
  rw [val_main_v27_apply, val_main_v26_apply, val_main_v25_apply, val_main_v24_apply, idx_rowOf, rowMax_at, score_at,
    Ideal.hostUnary_exp_def, Ideal.subf_def]
  rfl

theorem idx_rowSum (n : Fin 4) (h : Fin 16) (s : Fin 2048) (k : Fin 2048) :
    idx_main_v28 (ix3 n h s) k = ix4 n h s k :=
  funext fun a => Fin.ext (by match a with | ⟨0, _⟩ => rfl | ⟨1, _⟩ => rfl | ⟨2, _⟩ => rfl | ⟨3, _⟩ => rfl)

/-- The add-reduce over the last axis from the zero pattern is the row's sum. -/
theorem rowSum_at (n : Fin 4) (h : Fin 16) (s : Fin 2048) :
    val_main_v28 (F := Ideal) x0 x1 x2 x3 x4 (ix3 n h s) = ∑ t' : Fin 2048, Spec.expo Qr Kr n h s t' := by
  rw [val_main_v28_apply, val_main_cst_2_apply, Ideal.ofBits_def, Ideal.ofBits_zero_f32, zero_add]
  refine Finset.sum_congr rfl fun k _ => ?_
  rw [idx_rowSum, expo_at]

theorem idx_rowOf' (n : Fin 4) (h : Fin 16) (s t : Fin 2048) :
    idx_main_v29 (idx_main_v30 (ix4 n h s t)) = ix3 n h s :=
  funext fun a => Fin.ext (by match a with | ⟨0, _⟩ => rfl | ⟨1, _⟩ => rfl | ⟨2, _⟩ => rfl)

/-- An exponential divided by its row's sum. -/
theorem prob_at (n : Fin 4) (h : Fin 16) (s t : Fin 2048) :
    val_main_v31 (F := Ideal) x0 x1 x2 x3 x4 (ix4 n h s t) = Spec.prob Qr Kr n h s t := by
  rw [val_main_v31_apply, val_main_v30_apply, val_main_v29_apply, idx_rowOf', rowSum_at, expo_at, Ideal.hostDivf_def]
  rfl

/-! ## The weighted values, the heads laid side by side again, the output layer -/

theorem lidx_attn (n : Fin 4) (h : Fin 16) (s : Fin 2048) (d : Fin 64) (k : Fin 2048) :
    lidx_main_v32 (ix4 n h s d) k = ix4 n h s k :=
  funext fun a => Fin.ext (by match a with | ⟨0, _⟩ => rfl | ⟨1, _⟩ => rfl | ⟨2, _⟩ => rfl | ⟨3, _⟩ => rfl)

theorem ridx_attn (n : Fin 4) (h : Fin 16) (s : Fin 2048) (d : Fin 64) (k : Fin 2048) :
    ridx_main_v32 (ix4 n h s d) k = ix4 n h k d :=
  funext fun a => Fin.ext (by match a with | ⟨0, _⟩ => rfl | ⟨1, _⟩ => rfl | ⟨2, _⟩ => rfl | ⟨3, _⟩ => rfl)

/-- The batched product of the weights and the values over the positions. -/
theorem attn_at (n : Fin 4) (h : Fin 16) (s : Fin 2048) (d : Fin 64) :
    val_main_v32 (F := Ideal) x0 x1 x2 x3 x4 x5 x6 (ix4 n h s d) = Spec.attnAt Qr Kr Vr n s h d := by
  rw [val_main_v32_apply]
  unfold Spec.attnAt
  refine Finset.sum_congr rfl fun k _ => ?_
  rw [lidx_attn, ridx_attn, prob_at]
  rfl

/-- The exchange of the head and position axes followed by the reshape to [4, 2048, 1024] reads head `e / 64`, lane `e % 64`. -/
theorem idx_merge (n : Fin 4) (s : Fin 2048) (e : Fin 1024) :
    idx_main_v33 (idx_main_v34 (ix3 n s e)) = ix4 n (Spec.headOf e) s (Spec.laneOf e) := by
  have hn := n.isLt; have hs := s.isLt; have he := e.isLt
  refine funext fun a => Fin.ext ?_
  match a with
  | ⟨0, _⟩ => show ((n.val * 2048 + s.val) * 1024 + e.val) / 2097152 = n.val; omega
  | ⟨1, _⟩ => show ((n.val * 2048 + s.val) * 1024 + e.val) / 64 % 16 = e.val / 64; omega
  | ⟨2, _⟩ => show ((n.val * 2048 + s.val) * 1024 + e.val) / 1024 % 2048 = s.val; omega
  | ⟨3, _⟩ => show ((n.val * 2048 + s.val) * 1024 + e.val) % 64 = e.val % 64; omega

theorem merge_eq :
    val_main_v34 (F := Ideal) x0 x1 x2 x3 x4 x5 x6 = Spec.merge (Spec.attn Qr Kr Vr) := by
  funext i
  obtain ⟨n, s, e, rfl⟩ : ∃ (n : Fin 4) (s : Fin 2048) (e : Fin 1024), i = ix3 n s e := ⟨i 0, i 1, i 2, eq_ix3 i⟩
  rw [val_main_v34_apply, val_main_v33_apply, idx_merge, attn_at]
  rfl

/-- The reference's result is the specification's, at every index. -/
theorem ref_eq :
    Cert.ReferenceIdeal.Read.val_main_v38 x0 x1 x2 x3 x4 x5 x6 x7 x8 = Cert.Spec.result x0 x1 x2 x3 x4 x5 x6 x7 x8 := by
  have hl : val_main_v38 (F := Ideal) x0 x1 x2 x3 x4 x5 x6 x7 x8
      = Spec.lin (val_main_v34 (F := Ideal) x0 x1 x2 x3 x4 x5 x6) x7 x8 :=
    lin_eq (val_main_v34 (F := Ideal) x0 x1 x2 x3 x4 x5 x6) x7 x8
  have hq : Qr = Spec.split (Spec.lin x0 x1 x2) := untr_split x0 x1 x2
  have hk : Kr = Spec.split (Spec.lin x0 x3 x4) := untr_split x0 x3 x4
  have hv : Vr = Spec.split (Spec.lin x0 x5 x6) := untr_split x0 x5 x6
  rw [hl, merge_eq, hq, hk, hv]
  rfl

end Cert.ReferenceIdeal.RefValue

end
-- ==== Proof.RefRun.lean ====
/-
  The reference program's run, read against the specification: every weakly fair execution terminates, faults nowhere,
  leaves the nine argument arrays as launched, and ends with the result buffer holding the specification's attention
  layer of those arrays.
-/
import proofs.«178435_j39754217292149_2_alg».proof.Defs
import proofs.«178435_j39754217292149_2_alg».proof.Proof.Gen.ReferenceIdeal
import proofs.«178435_j39754217292149_2_alg».proof.Proof.Gen.ReferenceIdeal.Run
import proofs.«178435_j39754217292149_2_alg».proof.Proof.Gen.ReferenceIdeal.Read
import proofs.«178435_j39754217292149_2_alg».proof.Proof.Gen.Pre_finite_inputs
import proofs.«178435_j39754217292149_2_alg».proof.Proof.Ref

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The run's result term is the composed stage of `Read`, which is the specification's `result`. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v38)
          = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run _ _ _).mono
    (fun _ h c => ⟨(h c).1.trans ((Read.val_main_v38_eq m c).trans (ref_eq _ _ _ _ _ _ _ _ _)), (h c).2⟩)
    (Cert.ReferenceIdeal.Value.run (F := Ideal) m ρ)

/-- The reference's frame claim: it runs and its argument arrays end unchanged (no precondition is used). -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.ReferenceIdeal.RefValue

end
-- ==== Proof.lean ====
/-
  Multi-head self-attention as three kernels — a fused query/key/value projection, attention head by head on blocks of
  256 query positions against all 2048 key and value positions of a batch element, and the output projection — against
  the plain formulation: three linear layers, heads split by a reshape and a transpose, softmax(q kᵀ / 8) v, heads merged,
  a fourth linear layer.

  Both programs compute, index by index over the extended reals, ONE function of the nine argument arrays (Spec.lean):
  the kernel's changes of float format are the identity there; its matrix products into a zero accumulator are the plain
  sums the reference's dot products are; its row maximum and the reference's are the same fold of `max` from the pattern of
  -∞ (the reference's further maximum with that pattern changes nothing); the scale 1/8 is the same binary pattern on both
  sides; the exponential and the quotient are the same extended-real functions; and the kernel's tiling, its side-by-side
  weights and its reshapes only rename indices. No step uses that the inputs are finite.

  The three frames: each kernel's body runs on whole staging buffers and leaves its inputs as found and each output at
  a function of the inputs' blocks; the regions and the host stretches between them are chained from the launch to the
  return, every argument array reaching the end as launched (the same text at both instances, the word-level program
  and its idealization being one text); the reference's frame is its run with the result dropped.
-/
import proofs.«178435_j39754217292149_2_alg».proof.Defs
import proofs.«178435_j39754217292149_2_alg».proof.Proof.Gen.Kernel
import proofs.«178435_j39754217292149_2_alg».proof.Proof.Gen.KernelIdeal
import proofs.«178435_j39754217292149_2_alg».proof.Proof.Gen.ReferenceIdeal
import proofs.«178435_j39754217292149_2_alg».proof.Proof.Gen.Pre_finite_inputs
import proofs.«178435_j39754217292149_2_alg».proof.Proof.K.Frame
import proofs.«178435_j39754217292149_2_alg».proof.Proof.KI.Value
import proofs.«178435_j39754217292149_2_alg».proof.Proof.RefRun

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame' (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame' (F := Ideal) m ρ

/-- From memories that agree on the arguments both programs end with the layer's result on those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
